-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S4096x1024 : Shape := ⟨2, ![4096, 1024]⟩
abbrev S1x1024 : Shape := ⟨2, ![1, 1024]⟩
abbrev S16x1x1024 : Shape := ⟨3, ![16, 1, 1024]⟩
abbrev S16 : Shape := ⟨1, ![16]⟩
abbrev S_ : Shape := ⟨0, ![]⟩
abbrev S1024 : Shape := ⟨1, ![1024]⟩
abbrev S1x1x1024 : Shape := ⟨3, ![1, 1, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S16x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  { ofTc nBuf bufTy 1 34 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c1_i32_151 : BitVec 32 := 1#32
  let v217 : BitVec 32 := Scalar.muli v216 c1_i32_151
  let v218 : BitVec 32 := Scalar.addi c0_i32_152 v217
  v218.toNat
def k0_dev17 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v227 : BitVec 32 := Scalar.addi v2 c2_i32_157
  let c16_i32_158 : BitVec 32 := 16#32
  let c0_i32_159 : BitVec 32 := 0#32
  let v228 : BitVec 1 := Scalar.cmpi .eq c16_i32_158 c0_i32_159
  let c1_i32_160 : BitVec 32 := 1#32
  let v229 : BitVec 32 := Scalar.select v228 c1_i32_160 c16_i32_158
  let v230 : BitVec 32 := Scalar.remsi v227 v229
  let c0_i32_162 : BitVec 32 := 0#32
  let v232 : BitVec 1 := Scalar.cmpi .slt v230 c0_i32_162
  let c0_i32_163 : BitVec 32 := 0#32
  let v233 : BitVec 1 := Scalar.cmpi .slt v229 c0_i32_163
  let v234 : BitVec 1 := Scalar.xori v232 v233
  let c0_i32_161 : BitVec 32 := 0#32
  let v231 : BitVec 1 := Scalar.cmpi .ne v230 c0_i32_161
  let v235 : BitVec 1 := Scalar.andi v234 v231
  let v236 : BitVec 32 := Scalar.addi v230 v229
  let v237 : BitVec 32 := Scalar.select v235 v236 v230
  let c1_i32_168 : BitVec 32 := 1#32
  let v238 : BitVec 32 := Scalar.muli v237 c1_i32_168
  let v239 : BitVec 32 := Scalar.addi c0_i32_169 v238
  v239.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v248 : BitVec 32 := Scalar.addi v2 c3_i32_174
  let c16_i32_175 : BitVec 32 := 16#32
  let c0_i32_176 : BitVec 32 := 0#32
  let v249 : BitVec 1 := Scalar.cmpi .eq c16_i32_175 c0_i32_176
  let c1_i32_177 : BitVec 32 := 1#32
  let v250 : BitVec 32 := Scalar.select v249 c1_i32_177 c16_i32_175
  let v251 : BitVec 32 := Scalar.remsi v248 v250
  let c0_i32_179 : BitVec 32 := 0#32
  let v253 : BitVec 1 := Scalar.cmpi .slt v251 c0_i32_179
  let c0_i32_180 : BitVec 32 := 0#32
  let v254 : BitVec 1 := Scalar.cmpi .slt v250 c0_i32_180
  let v255 : BitVec 1 := Scalar.xori v253 v254
  let c0_i32_178 : BitVec 32 := 0#32
  let v252 : BitVec 1 := Scalar.cmpi .ne v251 c0_i32_178
  let v256 : BitVec 1 := Scalar.andi v255 v252
  let v257 : BitVec 32 := Scalar.addi v251 v250
  let v258 : BitVec 32 := Scalar.select v256 v257 v251
  let c1_i32_185 : BitVec 32 := 1#32
  let v259 : BitVec 32 := Scalar.muli v258 c1_i32_185
  let v260 : BitVec 32 := Scalar.addi c0_i32_186 v259
  v260.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_191 : BitVec 32 := 4#32
  let v269 : BitVec 32 := Scalar.addi v2 c4_i32_191
  let c16_i32_192 : BitVec 32 := 16#32
  let c0_i32_193 : BitVec 32 := 0#32
  let v270 : BitVec 1 := Scalar.cmpi .eq c16_i32_192 c0_i32_193
  let c1_i32_194 : BitVec 32 := 1#32
  let v271 : BitVec 32 := Scalar.select v270 c1_i32_194 c16_i32_192
  let v272 : BitVec 32 := Scalar.remsi v269 v271
  let c0_i32_196 : BitVec 32 := 0#32
  let v274 : BitVec 1 := Scalar.cmpi .slt v272 c0_i32_196
  let c0_i32_197 : BitVec 32 := 0#32
  let v275 : BitVec 1 := Scalar.cmpi .slt v271 c0_i32_197
  let v276 : BitVec 1 := Scalar.xori v274 v275
  let c0_i32_195 : BitVec 32 := 0#32
  let v273 : BitVec 1 := Scalar.cmpi .ne v272 c0_i32_195
  let v277 : BitVec 1 := Scalar.andi v276 v273
  let v278 : BitVec 32 := Scalar.addi v272 v271
  let v279 : BitVec 32 := Scalar.select v277 v278 v272
  let c1_i32_202 : BitVec 32 := 1#32
  let v280 : BitVec 32 := Scalar.muli v279 c1_i32_202
  let v281 : BitVec 32 := Scalar.addi c0_i32_203 v280
  v281.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v290 : BitVec 32 := Scalar.addi v2 c5_i32_208
  let c16_i32_209 : BitVec 32 := 16#32
  let c0_i32_210 : BitVec 32 := 0#32
  let v291 : BitVec 1 := Scalar.cmpi .eq c16_i32_209 c0_i32_210
  let c1_i32_211 : BitVec 32 := 1#32
  let v292 : BitVec 32 := Scalar.select v291 c1_i32_211 c16_i32_209
  let v293 : BitVec 32 := Scalar.remsi v290 v292
  let c0_i32_213 : BitVec 32 := 0#32
  let v295 : BitVec 1 := Scalar.cmpi .slt v293 c0_i32_213
  let c0_i32_214 : BitVec 32 := 0#32
  let v296 : BitVec 1 := Scalar.cmpi .slt v292 c0_i32_214
  let v297 : BitVec 1 := Scalar.xori v295 v296
  let c0_i32_212 : BitVec 32 := 0#32
  let v294 : BitVec 1 := Scalar.cmpi .ne v293 c0_i32_212
  let v298 : BitVec 1 := Scalar.andi v297 v294
  let v299 : BitVec 32 := Scalar.addi v293 v292
  let v300 : BitVec 32 := Scalar.select v298 v299 v293
  let c1_i32_219 : BitVec 32 := 1#32
  let v301 : BitVec 32 := Scalar.muli v300 c1_i32_219
  let v302 : BitVec 32 := Scalar.addi c0_i32_220 v301
  v302.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_225 : BitVec 32 := 6#32
  let v311 : BitVec 32 := Scalar.addi v2 c6_i32_225
  let c16_i32_226 : BitVec 32 := 16#32
  let c0_i32_227 : BitVec 32 := 0#32
  let v312 : BitVec 1 := Scalar.cmpi .eq c16_i32_226 c0_i32_227
  let c1_i32_228 : BitVec 32 := 1#32
  let v313 : BitVec 32 := Scalar.select v312 c1_i32_228 c16_i32_226
  let v314 : BitVec 32 := Scalar.remsi v311 v313
  let c0_i32_230 : BitVec 32 := 0#32
  let v316 : BitVec 1 := Scalar.cmpi .slt v314 c0_i32_230
  let c0_i32_231 : BitVec 32 := 0#32
  let v317 : BitVec 1 := Scalar.cmpi .slt v313 c0_i32_231
  let v318 : BitVec 1 := Scalar.xori v316 v317
  let c0_i32_229 : BitVec 32 := 0#32
  let v315 : BitVec 1 := Scalar.cmpi .ne v314 c0_i32_229
  let v319 : BitVec 1 := Scalar.andi v318 v315
  let v320 : BitVec 32 := Scalar.addi v314 v313
  let v321 : BitVec 32 := Scalar.select v319 v320 v314
  let c1_i32_236 : BitVec 32 := 1#32
  let v322 : BitVec 32 := Scalar.muli v321 c1_i32_236
  let v323 : BitVec 32 := Scalar.addi c0_i32_237 v322
  v323.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_242 : BitVec 32 := 7#32
  let v332 : BitVec 32 := Scalar.addi v2 c7_i32_242
  let c16_i32_243 : BitVec 32 := 16#32
  let c0_i32_244 : BitVec 32 := 0#32
  let v333 : BitVec 1 := Scalar.cmpi .eq c16_i32_243 c0_i32_244
  let c1_i32_245 : BitVec 32 := 1#32
  let v334 : BitVec 32 := Scalar.select v333 c1_i32_245 c16_i32_243
  let v335 : BitVec 32 := Scalar.remsi v332 v334
  let c0_i32_247 : BitVec 32 := 0#32
  let v337 : BitVec 1 := Scalar.cmpi .slt v335 c0_i32_247
  let c0_i32_248 : BitVec 32 := 0#32
  let v338 : BitVec 1 := Scalar.cmpi .slt v334 c0_i32_248
  let v339 : BitVec 1 := Scalar.xori v337 v338
  let c0_i32_246 : BitVec 32 := 0#32
  let v336 : BitVec 1 := Scalar.cmpi .ne v335 c0_i32_246
  let v340 : BitVec 1 := Scalar.andi v339 v336
  let v341 : BitVec 32 := Scalar.addi v335 v334
  let v342 : BitVec 32 := Scalar.select v340 v341 v335
  let c1_i32_253 : BitVec 32 := 1#32
  let v343 : BitVec 32 := Scalar.muli v342 c1_i32_253
  let v344 : BitVec 32 := Scalar.addi c0_i32_254 v343
  v344.toNat
def k0_dev23 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_259 : BitVec 32 := 8#32
  let v353 : BitVec 32 := Scalar.addi v2 c8_i32_259
  let c16_i32_260 : BitVec 32 := 16#32
  let c0_i32_261 : BitVec 32 := 0#32
  let v354 : BitVec 1 := Scalar.cmpi .eq c16_i32_260 c0_i32_261
  let c1_i32_262 : BitVec 32 := 1#32
  let v355 : BitVec 32 := Scalar.select v354 c1_i32_262 c16_i32_260
  let v356 : BitVec 32 := Scalar.remsi v353 v355
  let c0_i32_264 : BitVec 32 := 0#32
  let v358 : BitVec 1 := Scalar.cmpi .slt v356 c0_i32_264
  let c0_i32_265 : BitVec 32 := 0#32
  let v359 : BitVec 1 := Scalar.cmpi .slt v355 c0_i32_265
  let v360 : BitVec 1 := Scalar.xori v358 v359
  let c0_i32_263 : BitVec 32 := 0#32
  let v357 : BitVec 1 := Scalar.cmpi .ne v356 c0_i32_263
  let v361 : BitVec 1 := Scalar.andi v360 v357
  let v362 : BitVec 32 := Scalar.addi v356 v355
  let v363 : BitVec 32 := Scalar.select v361 v362 v356
  let c1_i32_270 : BitVec 32 := 1#32
  let v364 : BitVec 32 := Scalar.muli v363 c1_i32_270
  let v365 : BitVec 32 := Scalar.addi c0_i32_271 v364
  v365.toNat
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_276 : BitVec 32 := 9#32
  let v374 : BitVec 32 := Scalar.addi v2 c9_i32_276
  let c16_i32_277 : BitVec 32 := 16#32
  let c0_i32_278 : BitVec 32 := 0#32
  let v375 : BitVec 1 := Scalar.cmpi .eq c16_i32_277 c0_i32_278
  let c1_i32_279 : BitVec 32 := 1#32
  let v376 : BitVec 32 := Scalar.select v375 c1_i32_279 c16_i32_277
  let v377 : BitVec 32 := Scalar.remsi v374 v376
  let c0_i32_281 : BitVec 32 := 0#32
  let v379 : BitVec 1 := Scalar.cmpi .slt v377 c0_i32_281
  let c0_i32_282 : BitVec 32 := 0#32
  let v380 : BitVec 1 := Scalar.cmpi .slt v376 c0_i32_282
  let v381 : BitVec 1 := Scalar.xori v379 v380
  let c0_i32_280 : BitVec 32 := 0#32
  let v378 : BitVec 1 := Scalar.cmpi .ne v377 c0_i32_280
  let v382 : BitVec 1 := Scalar.andi v381 v378
  let v383 : BitVec 32 := Scalar.addi v377 v376
  let v384 : BitVec 32 := Scalar.select v382 v383 v377
  let c1_i32_287 : BitVec 32 := 1#32
  let v385 : BitVec 32 := Scalar.muli v384 c1_i32_287
  let v386 : BitVec 32 := Scalar.addi c0_i32_288 v385
  v386.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_293 : BitVec 32 := 10#32
  let v395 : BitVec 32 := Scalar.addi v2 c10_i32_293
  let c16_i32_294 : BitVec 32 := 16#32
  let c0_i32_295 : BitVec 32 := 0#32
  let v396 : BitVec 1 := Scalar.cmpi .eq c16_i32_294 c0_i32_295
  let c1_i32_296 : BitVec 32 := 1#32
  let v397 : BitVec 32 := Scalar.select v396 c1_i32_296 c16_i32_294
  let v398 : BitVec 32 := Scalar.remsi v395 v397
  let c0_i32_298 : BitVec 32 := 0#32
  let v400 : BitVec 1 := Scalar.cmpi .slt v398 c0_i32_298
  let c0_i32_299 : BitVec 32 := 0#32
  let v401 : BitVec 1 := Scalar.cmpi .slt v397 c0_i32_299
  let v402 : BitVec 1 := Scalar.xori v400 v401
  let c0_i32_297 : BitVec 32 := 0#32
  let v399 : BitVec 1 := Scalar.cmpi .ne v398 c0_i32_297
  let v403 : BitVec 1 := Scalar.andi v402 v399
  let v404 : BitVec 32 := Scalar.addi v398 v397
  let v405 : BitVec 32 := Scalar.select v403 v404 v398
  let c1_i32_304 : BitVec 32 := 1#32
  let v406 : BitVec 32 := Scalar.muli v405 c1_i32_304
  let v407 : BitVec 32 := Scalar.addi c0_i32_305 v406
  v407.toNat
def k0_dev26 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_310 : BitVec 32 := 11#32
  let v416 : BitVec 32 := Scalar.addi v2 c11_i32_310
  let c16_i32_311 : BitVec 32 := 16#32
  let c0_i32_312 : BitVec 32 := 0#32
  let v417 : BitVec 1 := Scalar.cmpi .eq c16_i32_311 c0_i32_312
  let c1_i32_313 : BitVec 32 := 1#32
  let v418 : BitVec 32 := Scalar.select v417 c1_i32_313 c16_i32_311
  let v419 : BitVec 32 := Scalar.remsi v416 v418
  let c0_i32_315 : BitVec 32 := 0#32
  let v421 : BitVec 1 := Scalar.cmpi .slt v419 c0_i32_315
  let c0_i32_316 : BitVec 32 := 0#32
  let v422 : BitVec 1 := Scalar.cmpi .slt v418 c0_i32_316
  let v423 : BitVec 1 := Scalar.xori v421 v422
  let c0_i32_314 : BitVec 32 := 0#32
  let v420 : BitVec 1 := Scalar.cmpi .ne v419 c0_i32_314
  let v424 : BitVec 1 := Scalar.andi v423 v420
  let v425 : BitVec 32 := Scalar.addi v419 v418
  let v426 : BitVec 32 := Scalar.select v424 v425 v419
  let c1_i32_321 : BitVec 32 := 1#32
  let v427 : BitVec 32 := Scalar.muli v426 c1_i32_321
  let v428 : BitVec 32 := Scalar.addi c0_i32_322 v427
  v428.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_327 : BitVec 32 := 12#32
  let v437 : BitVec 32 := Scalar.addi v2 c12_i32_327
  let c16_i32_328 : BitVec 32 := 16#32
  let c0_i32_329 : BitVec 32 := 0#32
  let v438 : BitVec 1 := Scalar.cmpi .eq c16_i32_328 c0_i32_329
  let c1_i32_330 : BitVec 32 := 1#32
  let v439 : BitVec 32 := Scalar.select v438 c1_i32_330 c16_i32_328
  let v440 : BitVec 32 := Scalar.remsi v437 v439
  let c0_i32_332 : BitVec 32 := 0#32
  let v442 : BitVec 1 := Scalar.cmpi .slt v440 c0_i32_332
  let c0_i32_333 : BitVec 32 := 0#32
  let v443 : BitVec 1 := Scalar.cmpi .slt v439 c0_i32_333
  let v444 : BitVec 1 := Scalar.xori v442 v443
  let c0_i32_331 : BitVec 32 := 0#32
  let v441 : BitVec 1 := Scalar.cmpi .ne v440 c0_i32_331
  let v445 : BitVec 1 := Scalar.andi v444 v441
  let v446 : BitVec 32 := Scalar.addi v440 v439
  let v447 : BitVec 32 := Scalar.select v445 v446 v440
  let c1_i32_338 : BitVec 32 := 1#32
  let v448 : BitVec 32 := Scalar.muli v447 c1_i32_338
  let v449 : BitVec 32 := Scalar.addi c0_i32_339 v448
  v449.toNat
def k0_dev28 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_344 : BitVec 32 := 13#32
  let v458 : BitVec 32 := Scalar.addi v2 c13_i32_344
  let c16_i32_345 : BitVec 32 := 16#32
  let c0_i32_346 : BitVec 32 := 0#32
  let v459 : BitVec 1 := Scalar.cmpi .eq c16_i32_345 c0_i32_346
  let c1_i32_347 : BitVec 32 := 1#32
  let v460 : BitVec 32 := Scalar.select v459 c1_i32_347 c16_i32_345
  let v461 : BitVec 32 := Scalar.remsi v458 v460
  let c0_i32_349 : BitVec 32 := 0#32
  let v463 : BitVec 1 := Scalar.cmpi .slt v461 c0_i32_349
  let c0_i32_350 : BitVec 32 := 0#32
  let v464 : BitVec 1 := Scalar.cmpi .slt v460 c0_i32_350
  let v465 : BitVec 1 := Scalar.xori v463 v464
  let c0_i32_348 : BitVec 32 := 0#32
  let v462 : BitVec 1 := Scalar.cmpi .ne v461 c0_i32_348
  let v466 : BitVec 1 := Scalar.andi v465 v462
  let v467 : BitVec 32 := Scalar.addi v461 v460
  let v468 : BitVec 32 := Scalar.select v466 v467 v461
  let c1_i32_355 : BitVec 32 := 1#32
  let v469 : BitVec 32 := Scalar.muli v468 c1_i32_355
  let v470 : BitVec 32 := Scalar.addi c0_i32_356 v469
  v470.toNat
def k0_dev29 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_361 : BitVec 32 := 14#32
  let v479 : BitVec 32 := Scalar.addi v2 c14_i32_361
  let c16_i32_362 : BitVec 32 := 16#32
  let c0_i32_363 : BitVec 32 := 0#32
  let v480 : BitVec 1 := Scalar.cmpi .eq c16_i32_362 c0_i32_363
  let c1_i32_364 : BitVec 32 := 1#32
  let v481 : BitVec 32 := Scalar.select v480 c1_i32_364 c16_i32_362
  let v482 : BitVec 32 := Scalar.remsi v479 v481
  let c0_i32_366 : BitVec 32 := 0#32
  let v484 : BitVec 1 := Scalar.cmpi .slt v482 c0_i32_366
  let c0_i32_367 : BitVec 32 := 0#32
  let v485 : BitVec 1 := Scalar.cmpi .slt v481 c0_i32_367
  let v486 : BitVec 1 := Scalar.xori v484 v485
  let c0_i32_365 : BitVec 32 := 0#32
  let v483 : BitVec 1 := Scalar.cmpi .ne v482 c0_i32_365
  let v487 : BitVec 1 := Scalar.andi v486 v483
  let v488 : BitVec 32 := Scalar.addi v482 v481
  let v489 : BitVec 32 := Scalar.select v487 v488 v482
  let c1_i32_372 : BitVec 32 := 1#32
  let v490 : BitVec 32 := Scalar.muli v489 c1_i32_372
  let v491 : BitVec 32 := Scalar.addi c0_i32_373 v490
  v491.toNat
def k0_dev30 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_378 : BitVec 32 := 15#32
  let v500 : BitVec 32 := Scalar.addi v2 c15_i32_378
  let c16_i32_379 : BitVec 32 := 16#32
  let c0_i32_380 : BitVec 32 := 0#32
  let v501 : BitVec 1 := Scalar.cmpi .eq c16_i32_379 c0_i32_380
  let c1_i32_381 : BitVec 32 := 1#32
  let v502 : BitVec 32 := Scalar.select v501 c1_i32_381 c16_i32_379
  let v503 : BitVec 32 := Scalar.remsi v500 v502
  let c0_i32_383 : BitVec 32 := 0#32
  let v505 : BitVec 1 := Scalar.cmpi .slt v503 c0_i32_383
  let c0_i32_384 : BitVec 32 := 0#32
  let v506 : BitVec 1 := Scalar.cmpi .slt v502 c0_i32_384
  let v507 : BitVec 1 := Scalar.xori v505 v506
  let c0_i32_382 : BitVec 32 := 0#32
  let v504 : BitVec 1 := Scalar.cmpi .ne v503 c0_i32_382
  let v508 : BitVec 1 := Scalar.andi v507 v504
  let v509 : BitVec 32 := Scalar.addi v503 v502
  let v510 : BitVec 32 := Scalar.select v508 v509 v503
  let c1_i32_389 : BitVec 32 := 1#32
  let v511 : BitVec 32 := Scalar.muli v510 c1_i32_389
  let v512 : BitVec 32 := Scalar.addi c0_i32_390 v511
  v512.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S16x1x1024_S1x1x1024_0_0_0 : ∀ a, (![0, 0, 0] : Fin 3 → Nat) a + S1x1x1024.size a ≤ S16x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  hamt_15 : (15#32 : BitVec 32).msb = false
  inb_S16_S1_1 : ∀ a, (![1] : Fin 1 → Nat) a + S1.size a ≤ S16.size a
  squeezes_S1_S_ : S1.Squeezes S_
  inb_S16x1x1024_S1x1x1024_1_0_0 : ∀ a, (![1, 0, 0] : Fin 3 → Nat) a + S1x1x1024.size a ≤ S16x1x1024.size a
  squeezes_S1x1x1024_S1x1024 : S1x1x1024.Squeezes S1x1024
  inb_S16_S1_2 : ∀ a, (![2] : Fin 1 → Nat) a + S1.size a ≤ S16.size a
  inb_S16x1x1024_S1x1x1024_2_0_0 : ∀ a, (![2, 0, 0] : Fin 3 → Nat) a + S1x1x1024.size a ≤ S16x1x1024.size a
  inb_S16_S1_3 : ∀ a, (![3] : Fin 1 → Nat) a + S1.size a ≤ S16.size a
  inb_S16x1x1024_S1x1x1024_3_0_0 : ∀ a, (![3, 0, 0] : Fin 3 → Nat) a + S1x1x1024.size a ≤ S16x1x1024.size a
  inb_S16_S1_4 : ∀ a, (![4] : Fin 1 → Nat) a + S1.size a ≤ S16.size a
  inb_S16x1x1024_S1x1x1024_4_0_0 : ∀ a, (![4, 0, 0] : Fin 3 → Nat) a + S1x1x1024.size a ≤ S16x1x1024.size a
  inb_S16_S1_5 : ∀ a, (![5] : Fin 1 → Nat) a + S1.size a ≤ S16.size a
  inb_S16x1x1024_S1x1x1024_5_0_0 : ∀ a, (![5, 0, 0] : Fin 3 → Nat) a + S1x1x1024.size a ≤ S16x1x1024.size a
  inb_S16_S1_6 : ∀ a, (![6] : Fin 1 → Nat) a + S1.size a ≤ S16.size a
  inb_S16x1x1024_S1x1x1024_6_0_0 : ∀ a, (![6, 0, 0] : Fin 3 → Nat) a + S1x1x1024.size a ≤ S16x1x1024.size a
  inb_S16_S1_7 : ∀ a, (![7] : Fin 1 → Nat) a + S1.size a ≤ S16.size a
  inb_S16x1x1024_S1x1x1024_7_0_0 : ∀ a, (![7, 0, 0] : Fin 3 → Nat) a + S1x1x1024.size a ≤ S16x1x1024.size a
  inb_S16_S1_8 : ∀ a, (![8] : Fin 1 → Nat) a + S1.size a ≤ S16.size a
  inb_S16x1x1024_S1x1x1024_8_0_0 : ∀ a, (![8, 0, 0] : Fin 3 → Nat) a + S1x1x1024.size a ≤ S16x1x1024.size a
  inb_S16_S1_9 : ∀ a, (![9] : Fin 1 → Nat) a + S1.size a ≤ S16.size a
  inb_S16x1x1024_S1x1x1024_9_0_0 : ∀ a, (![9, 0, 0] : Fin 3 → Nat) a + S1x1x1024.size a ≤ S16x1x1024.size a
  inb_S16_S1_10 : ∀ a, (![10] : Fin 1 → Nat) a + S1.size a ≤ S16.size a
  inb_S16x1x1024_S1x1x1024_10_0_0 : ∀ a, (![10, 0, 0] : Fin 3 → Nat) a + S1x1x1024.size a ≤ S16x1x1024.size a
  inb_S16_S1_11 : ∀ a, (![11] : Fin 1 → Nat) a + S1.size a ≤ S16.size a
  inb_S16x1x1024_S1x1x1024_11_0_0 : ∀ a, (![11, 0, 0] : Fin 3 → Nat) a + S1x1x1024.size a ≤ S16x1x1024.size a
  inb_S16_S1_12 : ∀ a, (![12] : Fin 1 → Nat) a + S1.size a ≤ S16.size a
  inb_S16x1x1024_S1x1x1024_12_0_0 : ∀ a, (![12, 0, 0] : Fin 3 → Nat) a + S1x1x1024.size a ≤ S16x1x1024.size a
  inb_S16_S1_13 : ∀ a, (![13] : Fin 1 → Nat) a + S1.size a ≤ S16.size a
  inb_S16x1x1024_S1x1x1024_13_0_0 : ∀ a, (![13, 0, 0] : Fin 3 → Nat) a + S1x1x1024.size a ≤ S16x1x1024.size a
  inb_S16_S1_14 : ∀ a, (![14] : Fin 1 → Nat) a + S1.size a ≤ S16.size a
  inb_S16x1x1024_S1x1x1024_14_0_0 : ∀ a, (![14, 0, 0] : Fin 3 → Nat) a + S1x1x1024.size a ≤ S16x1x1024.size a
  inb_S16_S1_15 : ∀ a, (![15] : Fin 1 → Nat) a + S1.size a ≤ S16.size a
  inb_S16x1x1024_S1x1x1024_15_0_0 : ∀ a, (![15, 0, 0] : Fin 3 → Nat) a + S1x1x1024.size a ≤ S16x1x1024.size a
  inb_S16x1x1024_S16x1x1024_0_0_0 : ∀ a, (![0, 0, 0] : Fin 3 → Nat) a + S16x1x1024.size a ≤ S16x1x1024.size a
  h_S16x1x1024 : 0 < S16x1x1024.numel
  reduces_S16x1x1024_S1x1024 : S16x1x1024.Reduces [0] S1x1024
  inb_S1x1024_S1x1024_0_0 : ∀ a, (![0, 0] : Fin 2 → Nat) a + S1x1024.size a ≤ S1x1024.size a
  h_S1x1024 : 0 < S1x1024.numel
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.Model.lean ====
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's own copy beside one whose duty names are the fifteen offsets -/

abbrev D : Type := Fin 15
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh as a cycle of sixteen -/

def shift (c : Dev nD) (d : ℕ) : Dev nD := ⟨(c.val + d) % 16, Nat.mod_lt _ (by decide)⟩
/-- The device j + 1 places after c: where the signal and the copy number j of c go. -/
def peerTo (c : Dev nD) (j : D) : Dev nD := shift c (j.val + 1)
/-- The device j + 1 places before c: whose copy number j lands on c. -/
def peerFrom (c : Dev nD) (j : D) : Dev nD := shift c (15 - j.val)

theorem peerFrom_peerTo : ∀ (c : Dev nD) (j : D), peerFrom (peerTo c j) j = c := by decide
theorem peerTo_peerFrom : ∀ (c : Dev nD) (j : D), peerTo (peerFrom c j) j = c := by decide
theorem peerTo_rev : ∀ (c : Dev nD) (j : D), peerTo (peerTo c j) j.rev = c := by decide
theorem shift_16 : ∀ c : Dev nD, shift c 16 = c := by decide
theorem peerTo_ne : ∀ (c : Dev nD) (j : D), peerTo c j ≠ c := by decide
theorem peerTo_inj : ∀ (c : Dev nD) (j j' : D), peerTo c j = peerTo c j' → j = j' := by decide

/-! ## Cells -/

abbrev barS : Sem sig := (SemArray.scalar (sig.barrier 0 rfl) : Sems sig S_).sem
def sendQ (j : D) : DmaSem sig := ⟨3 + j.val, by have := j.isLt; show 3 + j.val < 34; omega⟩
def recvQ (j : D) : DmaSem sig := ⟨19 + j.val, by have := j.isLt; show 19 + j.val < 34; omega⟩

abbrev barCell (c : Dev nD) : GSem nD τ sig := ((c : Thread nD τ), .reg barS)
abbrev sendCell (c : Dev nD) (j : D) : GSem nD τ sig := ((c : Thread nD τ), .dma (sendQ j))
abbrev recvCell (c : Dev nD) (j : D) : GSem nD τ sig := ((c : Thread nD τ), .dma (recvQ j))

/-! ## The sixteen rows of the scratch buffer -/

theorem slot_inb (d : Fin 16) : ∀ a, (![d.val, 0, 0] : Fin 3 → Nat) a + S1x1x1024.size a ≤ S16x1x1024.size a := by
  intro a; have := d.isLt; fin_cases a <;> simp <;> omega

abbrev slotRect (d : Fin 16) : Rect S16x1x1024 := Rect.unit (s := S16x1x1024) ![d.val, 0, 0] S1x1x1024.size (slot_inb d)
/-- Row d of the scratch buffer as the body names it: a slice squeezed to one row. -/
abbrev slotM (d : Fin 16) : Memref sig .tc .vmem S1x1024 .f32 :=
  ((Memref.whole cc0_scratch0 : Memref sig .tc .vmem S16x1x1024 .f32).slice (slotRect d) (fun _ => rfl)).squeeze S1x1024 squeezes_S1x1x1024_S1x1024

abbrev scrLoc (c : Dev nD) : Loc nD τ sig := (c : Thread nD τ).loc cc0_scratch0

example (c : Dev nD) (d : Fin 16) : (slotM d).view.loc (c : Thread nD τ) = scrLoc c := rfl

/-- The elements of row d. -/
def J (d : Fin 16) : Finset (S16x1x1024.Idx) := (slotRect d).set

omit [FloatOps F] in
theorem slot_set (d : Fin 16) : (slotM d).view.set = J d := by
  show ((View.whole cc0_scratch0).slice (slotRect d) |>.reshape S1x1024 _).set = _
  rw [View.set_reshape, View.set_slice_whole]; rfl

theorem mem_J {d : Fin 16} {i : S16x1x1024.Idx} : i ∈ J d ↔ (i 0).val = d.val := by
  unfold J
  rw [Rect.mem_set_unit]
  constructor
  · intro h; have := h 0; simp at this; omega
  · intro h a; have := (i a).isLt; fin_cases a <;> simp at this ⊢ <;> omega

theorem J_disjoint (d d' : Fin 16) (h : d ≠ d') : Disjoint (J d) (J d') := by
  rw [Finset.disjoint_left]; intro i hi hi'
  exact h (Fin.ext ((mem_J.mp hi).symm.trans (mem_J.mp hi')))

theorem J_cover : Finset.univ.biUnion J = (Finset.univ : Finset S16x1x1024.Idx) := by
  ext i; simp only [Finset.mem_biUnion, Finset.mem_univ, true_and, iff_true]
  exact ⟨⟨(i 0).val, (i 0).isLt⟩, mem_J.mpr rfl⟩

/-! ## Contents: every device's row sums, and the scratch buffer they end in -/

/-- Device c's block of the argument, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Device c's column sums over its own 4096 rows, as the one row the body stores. -/
def rowv (c : Dev nD) : S1x1x1024.Idx → Elt F .f32 := k0_pay2 (xblk m ρ c)

/-- An index of the scratch buffer sent to row 0. -/
def zero0 (i : S16x1x1024.Idx) : S1x1x1024.Idx := fun a =>
  ⟨if a = 0 then 0 else (i a).val, by have := (i a).isLt; fin_cases a <;> simp at this ⊢ <;> omega⟩

/-- The scratch buffer of device c once every copy has landed: row d holds the column sums of the device d places
    before c. -/
def G (c : Dev nD) : Buf (Elt F) (scrLoc c) := fun i => rowv m ρ (shift c (16 - (i 0).val)) (zero0 i)

theorem shift_back : ∀ (c : Dev nD) (j : D), shift (peerTo c j) (16 - (j.val + 1)) = c := by decide

def succ16 (j : D) : Fin 16 := ⟨j.val + 1, by have := j.isLt; omega⟩

omit [FloatOps F] in
theorem emb_coord (d : Fin 16) (y : S1x1024.Idx) (a : Fin 3) :
    (((slotM d).view.emb y) a : Nat) = (![d.val, 0, 0] : Fin 3 → Nat) a + 1 * ((Shape.reshapeEquiv (squeezes_S1x1x1024_S1x1024).numel_eq y : S1x1x1024.Idx) a : Nat) := rfl

/-- What a copy of row 0 of device c writes into row j + 1 of the device j + 1 places after it is that device's
    final contents there, whatever the row held before. -/
theorem landed_eq (c : Dev nD) (j : D) (fd : Buf (Elt F) (scrLoc (peerTo c j))) :
    ∀ i ∈ J (succ16 j), ((slotM (succ16 j)).view.write (Elt F) fd ((slotM 0).view.read (Elt F) (G m ρ c)) Finset.univ) i = G m ρ (peerTo c j) i := by
  intro i hi
  obtain ⟨y, rfl⟩ := View.exists_emb_of_mem_set (slotM (succ16 j)).view (by rw [slot_set]; exact hi)
  rw [View.write_emb_of_mem _ _ (Finset.mem_univ _), View.read_apply]
  simp only [cast_cast, cast_eq]
  unfold G
  have h0 : ((((slotM 0).view.emb y) 0 : Fin _) : Nat) = 0 := by
    have := emb_coord 0 y 0
    have hz := ((Shape.reshapeEquiv (squeezes_S1x1x1024_S1x1024).numel_eq y : S1x1x1024.Idx) 0).isLt
    simp at this hz ⊢; omega
  have hd : ((((slotM (succ16 j)).view.emb y) 0 : Fin _) : Nat) = j.val + 1 := by
    have := emb_coord (succ16 j) y 0
    have hz := ((Shape.reshapeEquiv (squeezes_S1x1x1024_S1x1024).numel_eq y : S1x1x1024.Idx) 0).isLt
    simp [succ16] at this hz ⊢; omega
  have hz : zero0 ((slotM 0).view.emb y) = zero0 ((slotM (succ16 j)).view.emb y) := by
    funext a; apply Fin.ext; unfold zero0
    fin_cases a
    · simp
    · simp only [emb_coord]; simp
    · simp only [emb_coord]; simp
  rw [h0, hd, hz, Nat.sub_zero, shift_16, shift_back]

/-! ## Shares of the source row: one per copy in flight -/

def restS : ℕ → PosShare TreeShare
  | 0 => fullShare
  | n + 1 => (restS n).right
def shS (n : ℕ) : PosShare TreeShare := (restS n).left

theorem pts_split {ℓ : Loc nD τ sig} {I : Finset (Idx ℓ)} {f : Buf (Elt F) ℓ} (n : ℕ) :
    (ℓ ↦[I]{restS n} f : sProp 𝕄) ⊣⊢ iprop((ℓ ↦[I]{shS n} f) ∗ ℓ ↦[I]{restS (n + 1)} f) :=
  pointsTo_share (PosShare.mem_left_op_right (restS n))

/-! ## The schedule: one round -/

def slotPts (c : Dev nD) (d : Fin 16) (q : PosShare TreeShare) (f : Buf (Elt F) (scrLoc c)) : sProp 𝕄 :=
  (slotM d).view.loc (c : Thread nD τ) ↦[(slotM d).view.set]{q} f

theorem slotPts_eq (c : Dev nD) (d : Fin 16) (q : PosShare TreeShare) (f : Buf (Elt F) (scrLoc c)) :
    slotPts c d q f = (scrLoc c ↦[J d]{q} f : sProp 𝕄) := by unfold slotPts; rw [slot_set]

abbrev N : ℕ := (slotM 0).view.dmaCredit
theorem N_pos : 0 < N := View.dmaCredit_pos _ (by decide)

/-- What the device j + 1 places after c hands c when it signals: its row j + 1, and that its receive cell j is open. -/
def barPay (c : Dev nD) (j : D) : sProp 𝕄 :=
  iprop((∃ f, slotPts (peerTo c j) (succ16 j) fullShare f) ∗ reached ER (recvCell (peerTo c j) j) 0)
def recvPay (c : Dev nD) (j : D) : sProp 𝕄 := slotPts c (succ16 j) fullShare (G m ρ c)
def sendPay (c : Dev nD) (j : D) : sProp 𝕄 := slotPts c 0 (shS j.val) (G m ρ c)

def jOf (q : DmaSem sig) (base : ℕ) : D := ⟨(q.val - base) % 15, Nat.mod_lt _ (by decide)⟩

def isXfer (q : DmaSem sig) : Prop := (3 ≤ q.val ∧ q.val < 18) ∨ 19 ≤ q.val
instance (q : DmaSem sig) : Decidable (isXfer q) := by unfold isXfer; infer_instance

/-- Round 0 only. A barrier cell has fifteen duties of one unit, duty j paid by the device j + 1 places after the owner;
    a send or receive cell of a copy has the one duty 0 of a row's credit. -/
def Rd : Rounds.Schedule (GSem nD τ sig) D 𝕄 where
  duties g r := if r = 0 ∧ g.1.2 = .tc then
      (match g.2 with
        | .reg _ => Finset.univ
        | .dma q => if isXfer q then {0} else ∅)
    else ∅
  unitless _ := False
  amount g _ _ := match g.2 with
    | .reg _ => 1
    | .dma _ => N
  payload g _ d := match g.2 with
    | .reg _ => barPay g.1.1 d
    | .dma q => if q.val < 18 then sendPay m ρ g.1.1 (jOf q 3) else recvPay m ρ g.1.1 (jOf q 19)
  amount_pos g _ _ _ := by
    rcases g with ⟨t, sm⟩
    cases sm
    · exact Nat.one_pos
    · exact N_pos

instance Rd_payload_storable (g : GSem nD τ sig) (r : ℕ) (d : D) :
    BI.Storable (upEmb : UEmb _ 𝕄) ((Rd (F := F) m ρ).payload g r d) := by
  rcases g with ⟨t, sm⟩
  cases sm
  · show BI.Storable upEmb (barPay t.1 d); unfold barPay slotPts; infer_instance
  · rename_i q
    show BI.Storable upEmb (if q.val < 18 then sendPay m ρ t.1 (jOf q 3) else recvPay m ρ t.1 (jOf q 19))
    unfold sendPay recvPay slotPts
    split <;> infer_instance

section Sched
variable (c : Dev nD) (j : D)

theorem jOf_send : jOf (sendQ j) 3 = j := by
  apply Fin.ext; show (3 + j.val - 3) % 15 = j.val; have := j.isLt; omega
theorem jOf_recv : jOf (recvQ j) 19 = j := by
  apply Fin.ext; show (19 + j.val - 19) % 15 = j.val; have := j.isLt; omega
theorem isXfer_send : isXfer (sendQ j) := Or.inl ⟨by show 3 ≤ 3 + j.val; omega, by show 3 + j.val < 18; have := j.isLt; omega⟩
theorem isXfer_recv : isXfer (recvQ j) := Or.inr (by show 19 ≤ 19 + j.val; omega)

theorem duties_bar : (Rd (F := F) m ρ).duties (barCell c) 0 = Finset.univ := by dsimp only [Rd]; rw [if_pos ⟨rfl, rfl⟩]
theorem duties_send : (Rd (F := F) m ρ).duties (sendCell c j) 0 = {0} := by
  dsimp only [Rd]; rw [if_pos ⟨rfl, rfl⟩]; exact if_pos (isXfer_send j)
theorem duties_recv : (Rd (F := F) m ρ).duties (recvCell c j) 0 = {0} := by
  dsimp only [Rd]; rw [if_pos ⟨rfl, rfl⟩]; exact if_pos (isXfer_recv j)
theorem duties_later (g : GSem nD τ sig) : ∀ r, 1 ≤ r → (Rd (F := F) m ρ).duties g r = ∅ :=
  fun r hr => by dsimp only [Rd]; rw [if_neg fun h => by omega]

theorem amount_bar (d : D) : (Rd (F := F) m ρ).amount (barCell c) 0 d = 1 := rfl
theorem amount_send (d : D) : (Rd (F := F) m ρ).amount (sendCell c j) 0 d = N := rfl
theorem amount_recv (d : D) : (Rd (F := F) m ρ).amount (recvCell c j) 0 d = N := rfl

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : D) : (Rd (F := F) m ρ).payload (barCell c) 0 d = barPay c d := rfl
theorem payload_send (d : D) : (Rd (F := F) m ρ).payload (sendCell c j) 0 d = sendPay m ρ c j := by
  show (if (sendQ j).val < 18 then sendPay m ρ c (jOf (sendQ j) 3) else recvPay m ρ c (jOf (sendQ j) 19)) = _
  rw [if_pos (by show 3 + j.val < 18; have := j.isLt; omega), jOf_send]
theorem payload_recv (d : D) : (Rd (F := F) m ρ).payload (recvCell c j) 0 d = recvPay m ρ c j := by
  show (if (recvQ j).val < 18 then sendPay m ρ c (jOf (recvQ j) 3) else recvPay m ρ c (jOf (recvQ j) 19)) = _
  rw [if_neg (by show ¬ 19 + j.val < 18; omega), jOf_recv]

theorem rest_bar : bigSep ((Rd (F := F) m ρ).duties (barCell c) 0 \ ∅) (fun d => (Rd (F := F) m ρ).payload (barCell c) 0 d) = bigSep Finset.univ (fun d => barPay (F := F) c d) := by
  rw [Finset.sdiff_empty, duties_bar]; rfl
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

/-- The printed semaphores of copy j + 1 are the cells' own. -/
example : ((cc0_scratch1.slice (Rect.unit (s := S16) ![1] S1.size inb_S16_S1_1)).squeeze S_ squeezes_S1_S_).sem = sendQ 0 := rfl
example : (slotM (succ16 3)).view.amount (.dma (recvQ 3)) = N := rfl

end Sched

end Cert.KernelIdeal.Mean
end
-- ==== Proof.Steps.lean ====
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Model

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of the protocol -/

/-- A device's cells by kind: its barrier cell, its fifteen send cells, its fifteen receive cells. -/
abbrev CK : Type := Unit ⊕ (D ⊕ D)
def csem : CK → SemLoc sig
  | .inl _ => .reg barS
  | .inr (.inl j) => .dma (sendQ j)
  | .inr (.inr j) => .dma (recvQ j)
abbrev kcell (ck : Dev nD × CK) : GSem nD τ sig := ((ck.1 : Thread nD τ), csem ck.2)

theorem csem_injective : Function.Injective csem := by decide
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) (j : D) : sendCell c j ∈ ringCells := Finset.mem_map.mpr ⟨(c, .inr (.inl j)), Finset.mem_univ _, rfl⟩
theorem recv_mem (c : Dev nD) (j : D) : recvCell c j ∈ ringCells := Finset.mem_map.mpr ⟨(c, .inr (.inr j)), Finset.mem_univ _, rfl⟩

/-- Every cell's invariant at its name, and that round 0 of every cell is open: what all devices share. -/
def records (K : GSem nD τ sig → ℕ) : sProp 𝕄 :=
  iprop((bigSep ringCells fun g => cellInv ER (Rd m ρ) (K g) g) ∗ bigSep ringCells fun g => reached ER g 0)

instance records_persistent (K : GSem nD τ sig → ℕ) : BI.Persistent (records m ρ K) := by unfold records; infer_instance

theorem invs_at (K : GSem nD τ sig → ℕ) {g : GSem nD τ sig} (hg : g ∈ ringCells) :
    (bigSep ringCells fun g => cellInv ER (Rd m ρ) (K g) g : sProp 𝕄) ⊢ cellInv ER (Rd m ρ) (K g) g := bigSep_elim hg
theorem reacheds_at {g : GSem nD τ sig} (hg : g ∈ ringCells) :
    (bigSep ringCells fun g => reached ER g 0 : sProp 𝕄) ⊢ reached ER g 0 := bigSep_elim hg
theorem inv_at (K : GSem nD τ sig → ℕ) {g : GSem nD τ sig} (hg : g ∈ ringCells) : records m ρ K ⊢ cellInv ER (Rd m ρ) (K g) g := by
  unfold records; iintro ⟨H, -⟩; iapply (invs_at m ρ K hg); iexact H
theorem reached_at (K : GSem nD τ sig → ℕ) {g : GSem nD τ sig} (hg : g ∈ ringCells) : records m ρ K ⊢ reached ER g 0 := by
  unfold records; iintro ⟨-, H⟩; iapply (reacheds_at (F := F) hg); iexact H

/-! ## What a device owes, by how far it has got -/

def geq (n : ℕ) : Finset D := Finset.univ.filter fun j => n ≤ j.val
theorem geq_zero : geq 0 = Finset.univ := by unfold geq; simp
theorem geq_succ (j : D) : geq j.val = insert j (geq (j.val + 1)) := by
  ext x; simp only [geq, Finset.mem_filter, Finset.mem_univ, true_and, Finset.mem_insert]
  constructor
  · intro h; by_cases hx : x = j
    · exact Or.inl hx
    · exact Or.inr (by have : x.val ≠ j.val := fun e => hx (Fin.ext e); omega)
  · rintro (rfl | h) <;> omega
theorem not_mem_geq_succ (j : D) : j ∉ geq (j.val + 1) := by simp [geq]
theorem geq_15 : geq 15 = ∅ := by
  ext x; simp only [geq, Finset.mem_filter, Finset.mem_univ, true_and, Finset.notMem_empty, iff_false]; have := x.isLt; omega

/-- The barrier units still to be signalled, from signal n on; -/
def Osig (c : Dev nD) (n : ℕ) : CellTallies nD τ sig Unit := ∑ j ∈ geq n, tallyAt (barCell (peerTo c j)) () 1
/-- the receive credit still to be paid, from copy n on. -/
def Ox (c : Dev nD) (n : ℕ) : CellTallies nD τ sig Unit := ∑ j ∈ geq n, tallyAt (recvCell (peerTo c j) j) () N
def O₀ (c : Dev nD) : CellTallies nD τ sig Unit := Ox c 0 + Osig c 0

theorem Osig_succ (c : Dev nD) (j : D) : Osig c j.val = Osig c (j.val + 1) + tallyAt (barCell (peerTo c j)) () 1 := by
  unfold Osig; rw [geq_succ j, Finset.sum_insert (not_mem_geq_succ j), add_comm]
theorem Ox_succ (c : Dev nD) (j : D) : Ox c j.val = Ox c (j.val + 1) + tallyAt (recvCell (peerTo c j) j) () N := by
  unfold Ox; rw [geq_succ j, Finset.sum_insert (not_mem_geq_succ j), add_comm]
theorem Osig_15 (c : Dev nD) : Osig c 15 = 0 := by unfold Osig; rw [geq_15, Finset.sum_empty]
theorem Ox_15 (c : Dev nD) : Ox c 15 = 0 := by unfold Ox; rw [geq_15, Finset.sum_empty]

/-! ## Levels: a barrier cell below every receive cell, everything else at the bottom -/

def L (g : GSem nD τ sig) : Finset Unit := if g.1.2 = .tc then {()} else ∅
def lv (g : GSem nD τ sig) (_ : Unit) : ℕ := match g.2 with
  | .reg _ => 1
  | .dma q => if 19 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Ox_pos {c : Dev nD} {n : ℕ} {g : GSem nD τ sig} {u : Unit} (h : 0 < Ox c n g u) : ∃ j : D, g = recvCell (peerTo c j) j := by
  obtain ⟨j, -, hj⟩ := Pipeline.sum_pos_exists h
  rw [tallyAt_apply] at hj
  by_cases hg : g = recvCell (peerTo c j) j ∧ u = ()
  · exact ⟨j, hg.1⟩
  · rw [if_neg hg] at hj; exact absurd hj (Nat.lt_irrefl 0)
theorem Osig_pos {c : Dev nD} {n : ℕ} {g : GSem nD τ sig} {u : Unit} (h : 0 < Osig c n g u) : ∃ j : D, g = barCell (peerTo c j) := by
  obtain ⟨j, -, hj⟩ := Pipeline.sum_pos_exists h
  rw [tallyAt_apply] at hj
  by_cases hg : g = barCell (peerTo c j) ∧ u = ()
  · exact ⟨j, hg.1⟩
  · rw [if_neg hg] at hj; exact absurd hj (Nat.lt_irrefl 0)

theorem lv_recv (c : Dev nD) (j : D) : lv (recvCell c j) () = 2 := by
  show (if 19 ≤ (recvQ j).val then 2 else 0) = 2; rw [if_pos (by show 19 ≤ 19 + j.val; omega)]
theorem lv_bar (c : Dev nD) : lv (barCell c) () = 1 := rfl

/-- Waiting on its barrier a device owes receive credit only, which sits above. -/
theorem mayWait_bar (c : Dev nD) : (levAts L lv : sProp 𝕄) ⊢ MayWait (c : Thread nD τ) (.reg barS) () (Ox c 0) :=
  Pipeline.mayWait_of_levAts (by rw [L_tc]; exact Finset.mem_singleton_self _) fun g u hg => by
    obtain ⟨j, rfl⟩ := Ox_pos hg
    exact ⟨by rw [L_tc]; exact Finset.mem_singleton_self _, by rw [lv_recv]; show 1 < 2; decide⟩

/-- The pipeline's own staging waits sit below everything a device can owe. -/
theorem mayWait_stage (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), .dma q) () = 0 := by show (if 19 ≤ q.val then 2 else 0) = 0; rw [if_neg (by omega)]
    rcases Pipeline.add_pos_cases hg with h | h
    · obtain ⟨j, rfl⟩ := Ox_pos h
      exact ⟨by rw [L_tc]; exact Finset.mem_singleton_self _, by rw [h0, lv_recv]; decide⟩
    · obtain ⟨j, rfl⟩ := Osig_pos h
      exact ⟨by rw [L_tc]; exact Finset.mem_singleton_self _, by rw [h0, lv_bar]; decide⟩
  · rw [MayWait_zero]; iintro -; iempintro

/-! ## One rule per kind of step of the body, at a symbolic device and a symbolic offset -/

section Steps
variable (K : GSem nD τ sig → ℕ) (c : Dev nD)

/-- Signal number j: to the device j + 1 places on, paying the duty of its barrier cell that is this device's, with the
    row that device will fill and that the receive cell for it is open. -/
theorem sig_step (j : D) (W : Waits sig Unit) (n : Dev nD) (hn : n = peerTo c j) {k' : ℕ} (hk' : 1 = k') {α : Type} {Q : α → sProp 𝕄}
    {k : PUnit → Prog (TpuEff nD τ sig (Elt F) Λ₀ .tc) α} :
    iprop(records m ρ K ∗ owes (c : Thread nD τ) (Ox c 0 + Osig c j.val) W ∗ dutyTok ER (barCell (peerTo c j)) 0 j.rev
        ∗ (∃ f, slotPts (F := F) c (succ16 j.rev) fullShare f))
      ⊢ iprop((owes (c : Thread nD τ) (Ox c 0 + Osig c (j.val + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  subst hn
  iintro ⟨#HR, HO, Ht, Hs⟩ Hk
  iapply (Rounds.wp_signal 𝒱₀ ER (Rd m ρ) (c : Thread nD τ) none (dst := (peerTo c j : Thread nD τ)) (κ := K (barCell (peerTo c j)))
      (d := j.rev) (O₀ := Ox c 0 + Osig c j.val) (by rw [duties_bar]; exact Finset.mem_univ _) (amount_bar m ρ (peerTo c j) j.rev) () (Ox c 0 + Osig c (j.val + 1))
      (by rw [Osig_succ c j, ← add_assoc])) $$ [HO Ht Hs]
  · isplitr; · iapply (inv_at m ρ K (bar_mem _)); iexact HR
    isplitl [HO]; · iexact HO
    isplitl [Ht]; · iexact Ht
    isplitl [Hs]
    · rw [payload_bar]; unfold barPay; rw [peerTo_rev]
      isplitl [Hs]; · iexact Hs
      iapply (reached_at m ρ K (recv_mem _ _)); iexact HR
    · iapply (reached_at m ρ K (bar_mem _)); iexact HR
  iexact Hk

/-- The wait for all fifteen units of the barrier: every peer's row comes with it. -/
theorem bar_wait (W : Waits sig Unit) {k' : ℕ} (hk' : 15 = k') {α : Type} {Q : α → sProp 𝕄}
    {k : PUnit → Prog (TpuEff nD τ sig (Elt F) Λ₀ .tc) α} :
    iprop(records m ρ K ∗ levAts L lv ∗ cred (tallyAt (barCell c) () 15) ∗ owes (c : Thread nD τ) (Ox c 0) W ∗ atPos ER (barCell c) 0 ∅ 0)
      ⊢ iprop(((owes (c : Thread nD τ) (Ox c 0) (insert (SemLoc.reg barS, ()) W) ∗ bigSep Finset.univ (fun j => barPay (F := F) c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (Rd m ρ) (c : Thread nD τ) none (κ := K (barCell c))
      (wpE_semWait_eq 𝒱₀ (c : Thread nD τ) none Set.univ) (Set.mem_univ _) () (O := Ox c 0) (W := W) (R := 0) (m := 0) (T := ∅)
      (by rw [expect_bar])) $$ [Hc HO Hat]
  · isplitr; · iapply (inv_at m ρ K (bar_mem _)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  iapply Hk
  isplitl [HO]; · iexact HO
  iexact Hp

/-- Copy number j: row 0, at one more share of it, into row j + 1 of the device j + 1 places on. -/
theorem send_step (j : D) (W : Waits sig Unit) (n : Dev nD) (hn : n = peerTo c j)
    {hsc : (slotM (succ16 j) : Memref sig (Dev.tc n : Thread nD τ).2.kind .vmem S1x1024 .f32).view.ref.isScScratch = false}
    {hsrc : (slotM 0 : Memref sig .tc .vmem S1x1024 .f32).view.WordExact} {hdst : (slotM (succ16 j) : Memref sig .tc .vmem S1x1024 .f32).view.WordExact}
    {hsem : DmaTarget.Typed .vmem (.dma (recvQ j)) (.remote (Dev.tc n : Thread nD τ) (slotM (succ16 j) : Memref sig .tc .vmem S1x1024 .f32) (.dma (sendQ j)) hsc)}
    {α : Type} {Q : α → sProp 𝕄} {k : PUnit → Prog (TpuEff nD τ sig (Elt F) Λ₀ .tc) α} :
    iprop(records m ρ K ∗ slotPts c 0 (restS j.val) (G m ρ c) ∗ barPay (F := F) c j ∗ owes (c : Thread nD τ) (Ox c j.val) W
        ∗ dutyTok ER (sendCell c j) 0 0 ∗ dutyTok ER (recvCell (peerTo c j) j) 0 0)
      ⊢ iprop(((slotPts c 0 (restS (j.val + 1)) (G m ρ c) ∗ cred (tallyAt (sendCell c j) () N) ∗ owes (c : Thread nD τ) (Ox c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (succ16 j)) (.dma (sendQ j)) hsc) (.dma (recvQ j)) hsrc hdst hsem) k) Q) := by
  subst hn
  iintro ⟨#HR, Hsrc, Hbp, HO, Hts, Htr⟩ Hk
  unfold barPay
  icases Hbp with ⟨⟨%fd, Hd⟩, #Hrr⟩
  unfold slotPts
  ihave Hs2 := (pts_split (F := F) j.val).1 $$ Hsrc
  icases Hs2 with ⟨Hsh, Hrest⟩
  iapply (Rounds.wp_send_pointsTo 𝒱₀ ER (Rd m ρ) (c : Thread nD τ) none (c' := (Dev.tc (peerTo c j) : Thread nD τ))
      (src := slotM 0) (dst := slotM (succ16 j)) (q := shS j.val) (fs := G m ρ c) (fd := fd)
      (κ₁ := K (sendCell c j)) (κ₂ := K (recvCell (peerTo c j) j))
      (r₁ := 0) (r₂ := 0) (d₁ := 0) (d₂ := 0)
      (by rw [duties_send]; exact Finset.mem_singleton_self _) (by rw [duties_recv]; exact Finset.mem_singleton_self _)
      () () N rfl (amount_send m ρ c j 0) (amount_recv m ρ (peerTo c j) j 0) (Ox c (j.val + 1)) (Ox_succ c j) (W := W)
      (by rw [payload_send]; unfold sendPay slotPts; exact BI.Entails.refl _)
      (by rw [payload_recv]; unfold recvPay slotPts
          exact Entails.of_eq (pointsTo_congr (by rw [slot_set]; exact landed_eq m ρ c j fd)))) $$ [Hsh Hd HO Hts Htr]
  · isplitr; · iapply (inv_at m ρ K (send_mem _ _)); iexact HR
    isplitr; · iapply (inv_at m ρ K (recv_mem _ _)); iexact HR
    isplitl [Hsh]; · iexact Hsh
    isplitl [Hd]; · iexact Hd
    isplitl [HO]; · iexact HO
    isplitl [Hts]; · iexact Hts
    isplitr; · iapply (reached_at m ρ K (send_mem _ _)); iexact HR
    isplitl [Htr]; · iexact Htr
    iexact Hrr
  iintro ⟨Hcr, HO⟩
  iapply Hk
  isplitl [Hrest]; · iexact Hrest
  isplitl [Hcr]; · iexact Hcr
  iexact HO

/-- The wait on send cell j: the share of row 0 lent to copy j comes back, and the cell closes. -/
theorem wsend_step (j : D) (W : Waits sig Unit)
    {hsrc : (slotM (succ16 j) : Memref sig .tc .vmem S1x1024 .f32).view.WordExact} {hdst : (slotM 0 : Memref sig .tc .vmem S1x1024 .f32).view.WordExact}
    {α : Type} {Q : α → sProp 𝕄} {k : PUnit → Prog (TpuEff nD τ sig (Elt F) Λ₀ .tc) α} :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendQ j), ()) W) ∗ semVal (sendCell c j) 0 ∗ sendPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ j) (slotM (succ16 j)) (slotM 0) hsrc hdst) k) Q) := by
  have hN : (slotM 0 : Memref sig .tc .vmem S1x1024 .f32).view.dmaCredit = N := rfl
  iintro ⟨#HR, Hc, HO, Hat⟩ Hk
  iapply (Rounds.wp_wait_rest_token 𝒱₀ ER (Rd m ρ) (c : Thread nD τ) none (κ := K (sendCell c j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at m ρ K (send_mem _ _)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (Rd m ρ) (Set.mem_univ (K (sendCell c j))) (fun h => h) (R := 0 + 1) (duties_later m ρ (sendCell c j))) $$ [Hat] with Hz
  · isplitr; · iapply (inv_at m ρ K (send_mem _ _)); iexact HR
    iexact Hat
  iapply Hk
  isplitl [HO]; · iexact HO
  isplitl [Hz]; · iexact Hz
  iexact Hp

/-- The wait on receive cell j: row j + 1 comes back holding the column sums of the device j + 1 places before. -/
theorem slot_credit : ∀ j : D, (slotM (succ16 j) : Memref sig .tc .vmem S1x1024 .f32).view.dmaCredit = N := by decide

theorem wrecv_step (j : D) (W : Waits sig Unit)
    {hsrc : (slotM 0 : Memref sig .tc .vmem S1x1024 .f32).view.WordExact} {hdst : (slotM (succ16 j) : Memref sig .tc .vmem S1x1024 .f32).view.WordExact}
    {α : Type} {Q : α → sProp 𝕄} {k : PUnit → Prog (TpuEff nD τ sig (Elt F) Λ₀ .tc) α} :
    iprop(records m ρ K ∗ cred (tallyAt (recvCell c j) () N) ∗ owes (c : Thread nD τ) 0 W ∗ atPos ER (recvCell c j) 0 ∅ 0)
      ⊢ iprop(((owes (c : Thread nD τ) 0 (insert (SemLoc.dma (recvQ j), ()) W) ∗ semVal (recvCell c j) 0 ∗ recvPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ j) (slotM 0) (slotM (succ16 j)) hsrc hdst) k) Q) := by
  have hN : (slotM (succ16 j) : Memref sig .tc .vmem S1x1024 .f32).view.dmaCredit = N := slot_credit j
  iintro ⟨#HR, Hc, HO, Hat⟩ Hk
  iapply (Rounds.wp_wait_rest_token 𝒱₀ ER (Rd m ρ) (c : Thread nD τ) none (κ := K (recvCell c j))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at m ρ K (recv_mem _ _)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (Rd m ρ) (Set.mem_univ (K (recvCell c j))) (fun h => h) (R := 0 + 1) (duties_later m ρ (recvCell c j))) $$ [Hat] with Hz
  · isplitr; · iapply (inv_at m ρ K (recv_mem _ _)); iexact HR
    iexact Hat
  iapply Hk
  isplitl [HO]; · iexact HO
  isplitl [Hz]; · iexact Hz
  iexact Hp

end Steps

end Cert.KernelIdeal.Mean
end
-- ==== Proof.Data.lean ====
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Steps

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The memrefs of the body, and the rectangles of its loads and stores -/

abbrev xM : Memref sig .tc .vmem S4096x1024 .f32 := Memref.whole cc0_stg0_0
abbrev oM : Memref sig .tc .vmem S1x1024 .f32 := Memref.whole cc0_stg1_0
abbrev scrM : Memref sig .tc .vmem S16x1x1024 .f32 := Memref.whole cc0_scratch0

abbrev rX : Rect S4096x1024 := Rect.unit (s := S4096x1024) ![0, 0] S4096x1024.size inb_S4096x1024_S4096x1024_0_0
abbrev rS0 : Rect S16x1x1024 := Rect.unit (s := S16x1x1024) ![0, 0, 0] S1x1x1024.size inb_S16x1x1024_S1x1x1024_0_0_0
abbrev rSA : Rect S16x1x1024 := Rect.unit (s := S16x1x1024) ![0, 0, 0] S16x1x1024.size inb_S16x1x1024_S16x1x1024_0_0_0
abbrev rO : Rect S1x1024 := Rect.unit (s := S1x1024) ![0, 0] S1x1024.size inb_S1x1024_S1x1024_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S4096x1024 .f32).view.readAt (Elt F) rX.toLoadRect f = f :=
  Memref.readAt_unit_zero (Elt F) cc0_stg0_0 hz2 _ f
omit [FloatOps F] in
theorem read_scr (f : (cc0_scratch0 : Ref sig .tc).ty.Contents (Elt F)) : (scrM : Memref sig .tc .vmem S16x1x1024 .f32).view.readAt (Elt F) rSA.toLoadRect f = f :=
  Memref.readAt_unit_zero (Elt F) cc0_scratch0 hz3 _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz2 _ f w

/-- The load and the store of row 0 touch row 0 only. -/
theorem store_set : ((scrM : Memref sig .tc .vmem S16x1x1024 .f32).access rS0 : View sig .tc _ _ _).setOn Finset.univ ⊆ J 0 := by
  rw [View.setOn_univ]; show ((View.whole cc0_scratch0).slice rS0).set ⊆ _; rw [View.set_slice_whole]; exact Finset.Subset.refl _
theorem load_set : (scrM : Memref sig .tc .vmem S16x1x1024 .f32).view.setOn rS0.toLoadRect.set ⊆ J 0 := by
  show (rS0.toLoadRect.set).map (Function.Embedding.refl _) ⊆ _
  rw [Finset.map_refl]; exact Finset.Subset.refl _

/-- Once the column sums are stored, row 0 holds what the device's final scratch buffer holds there. -/
theorem stored_eq (c : Dev nD) (f : Buf (Elt F) (scrLoc c)) :
    ∀ i ∈ J 0, (((scrM : Memref sig .tc .vmem S16x1x1024 .f32).access rS0 : View sig .tc _ _ _).write (Elt F) f (k0_pay2 (xblk m ρ c)) Finset.univ) i = G m ρ c i := by
  intro i hi
  obtain ⟨y, rfl⟩ := View.exists_emb_of_mem_set ((scrM : Memref sig .tc .vmem S16x1x1024 .f32).access rS0 : View sig .tc _ _ _)
    (by show i ∈ ((View.whole cc0_scratch0).slice rS0).set; rw [View.set_slice_whole]; exact hi)
  rw [View.write_emb_of_mem _ _ (Finset.mem_univ _)]
  simp only [cast_eq]
  unfold G rowv
  have h0 : (((((scrM : Memref sig .tc .vmem S16x1x1024 .f32).access rS0 : View sig .tc _ _ _).emb y) 0 : Fin _) : Nat) = 0 := by
    show (0 + 1 * ((y 0 : Fin _) : Nat)) = 0
    have := (y 0).isLt; simp at this ⊢; omega
  have hz : zero0 (((scrM : Memref sig .tc .vmem S16x1x1024 .f32).access rS0 : View sig .tc _ _ _).emb y) = y := by
    funext a; apply Fin.ext; unfold zero0
    fin_cases a
    · have := (y 0).isLt; simp at this ⊢; omega
    · show (if (1 : Fin 3) = 0 then 0 else 0 + 1 * ((y 1 : Fin _) : Nat)) = _; simp
    · show (if (2 : Fin 3) = 0 then 0 else 0 + 1 * ((y 2 : Fin _) : Nat)) = _; simp
  rw [h0, hz, Nat.sub_zero, shift_16]

/-! ## Conjunctions over the fifteen offsets and the sixteen rows, spelled out -/

omit [FloatOps F] in
theorem bigSep_D (Φ : D → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_F16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The ghost state of a device, the pipeline's proof data, the body's pre- and postcondition -/

/-- The two semaphores of the scratch arrays that no copy uses. -/
def unusedSems (c : Dev nD) : sProp 𝕄 :=
  iprop(semVal ((c : Thread nD τ), SemLoc.dma (⟨2, by decide⟩ : DmaSem sig)) 0 ∗ semVal ((c : Thread nD τ), SemLoc.dma (⟨18, by decide⟩ : DmaSem sig)) 0)

/-- What device c starts from: the shared records; its positions at round 0 of its own cells; the tokens of the duties it
    pays: one of every peer's barrier cell, its own send cells', every peer's receive cell for its copy. -/
def ghost (K : GSem nD τ sig → ℕ) (c : Dev nD) : sProp 𝕄 :=
  iprop(records m ρ K
    ∗ atPos ER (barCell c) 0 ∅ 0 ∗ (bigSep Finset.univ fun j : D => atPos ER (sendCell c j) 0 ∅ 0) ∗ (bigSep Finset.univ fun j : D => atPos ER (recvCell c j) 0 ∅ 0)
    ∗ (bigSep Finset.univ fun j : D => dutyTok ER (barCell (peerTo c j)) 0 j.rev) ∗ (bigSep Finset.univ fun j : D => dutyTok ER (sendCell c j) 0 0)
    ∗ (bigSep Finset.univ fun j : D => dutyTok ER (recvCell (peerTo c j) j) 0 0))

def start (c : Dev nD) : sProp 𝕄 :=
  iprop((∃ K, ghost m ρ K c) ∗ cred (tallyAt (barCell c) () 15) ∗ (bigSep Finset.univ fun j : D => cred (tallyAt (recvCell c j) () N)) ∗ levAts L lv ∗ unusedSems (F := F) c)

def Φ₀ (c : Dev nD) : sProp 𝕄 := iprop(start m ρ c ∗ ∃ f : Buf (Elt F) (scrLoc c), scrLoc c ↦{fullShare} f)
/-- After the point: the scratch buffer at every device's column sums, every own semaphore back at zero. -/
def Φ₁ (c : Dev nD) : sProp 𝕄 :=
  iprop((scrLoc c ↦{fullShare} G m ρ c) ∗ (bigSep Finset.univ fun j : D => semVal (sendCell c j) 0) ∗ (bigSep Finset.univ fun j : D => semVal (recvCell c j) 0) ∗ unusedSems (F := F) c)

/-- The kernel's result on every device: the column sums of all sixteen rows of the scratch buffer, scaled. -/
def outAt (c : Dev nD) : (cc0_stg1_0 : Ref sig .tc).ty.Contents (Elt F) := k0_pay1 (k0_pay3 (G m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m ρ K c ∗ cred (tallyAt (barCell c) () 15) ∗ (bigSep Finset.univ fun j : D => cred (tallyAt (recvCell c j) () N)) ∗ levAts L lv ∗ unusedSems (F := F) c
      ∗ ∃ f : Buf (Elt F) (scrLoc c), scrLoc c ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xblk m ρ c) ∗ stg c cc0_stg1_0 (outAt m ρ c))

/-! ## The printed device chains in closed form -/
theorem dev1_eq : ∀ c : Dev nD, (⟨k0_dev1 c, k0_dev1_lt c⟩ : Dev nD) = peerTo c 0 := by decide +kernel
theorem dev2_eq : ∀ c : Dev nD, (⟨k0_dev2 c, k0_dev2_lt c⟩ : Dev nD) = peerTo c 1 := by decide +kernel
theorem dev3_eq : ∀ c : Dev nD, (⟨k0_dev3 c, k0_dev3_lt c⟩ : Dev nD) = peerTo c 2 := by decide +kernel
theorem dev4_eq : ∀ c : Dev nD, (⟨k0_dev4 c, k0_dev4_lt c⟩ : Dev nD) = peerTo c 3 := by decide +kernel
theorem dev5_eq : ∀ c : Dev nD, (⟨k0_dev5 c, k0_dev5_lt c⟩ : Dev nD) = peerTo c 4 := by decide +kernel
theorem dev6_eq : ∀ c : Dev nD, (⟨k0_dev6 c, k0_dev6_lt c⟩ : Dev nD) = peerTo c 5 := by decide +kernel
theorem dev7_eq : ∀ c : Dev nD, (⟨k0_dev7 c, k0_dev7_lt c⟩ : Dev nD) = peerTo c 6 := by decide +kernel
theorem dev8_eq : ∀ c : Dev nD, (⟨k0_dev8 c, k0_dev8_lt c⟩ : Dev nD) = peerTo c 7 := by decide +kernel
theorem dev9_eq : ∀ c : Dev nD, (⟨k0_dev9 c, k0_dev9_lt c⟩ : Dev nD) = peerTo c 8 := by decide +kernel
theorem dev10_eq : ∀ c : Dev nD, (⟨k0_dev10 c, k0_dev10_lt c⟩ : Dev nD) = peerTo c 9 := by decide +kernel
theorem dev11_eq : ∀ c : Dev nD, (⟨k0_dev11 c, k0_dev11_lt c⟩ : Dev nD) = peerTo c 10 := by decide +kernel
theorem dev12_eq : ∀ c : Dev nD, (⟨k0_dev12 c, k0_dev12_lt c⟩ : Dev nD) = peerTo c 11 := by decide +kernel
theorem dev13_eq : ∀ c : Dev nD, (⟨k0_dev13 c, k0_dev13_lt c⟩ : Dev nD) = peerTo c 12 := by decide +kernel
theorem dev14_eq : ∀ c : Dev nD, (⟨k0_dev14 c, k0_dev14_lt c⟩ : Dev nD) = peerTo c 13 := by decide +kernel
theorem dev15_eq : ∀ c : Dev nD, (⟨k0_dev15 c, k0_dev15_lt c⟩ : Dev nD) = peerTo c 14 := by decide +kernel
theorem dev16_eq : ∀ c : Dev nD, (⟨k0_dev16 c, k0_dev16_lt c⟩ : Dev nD) = peerTo c 0 := by decide +kernel
theorem dev17_eq : ∀ c : Dev nD, (⟨k0_dev17 c, k0_dev17_lt c⟩ : Dev nD) = peerTo c 1 := by decide +kernel
theorem dev18_eq : ∀ c : Dev nD, (⟨k0_dev18 c, k0_dev18_lt c⟩ : Dev nD) = peerTo c 2 := by decide +kernel
theorem dev19_eq : ∀ c : Dev nD, (⟨k0_dev19 c, k0_dev19_lt c⟩ : Dev nD) = peerTo c 3 := by decide +kernel
theorem dev20_eq : ∀ c : Dev nD, (⟨k0_dev20 c, k0_dev20_lt c⟩ : Dev nD) = peerTo c 4 := by decide +kernel
theorem dev21_eq : ∀ c : Dev nD, (⟨k0_dev21 c, k0_dev21_lt c⟩ : Dev nD) = peerTo c 5 := by decide +kernel
theorem dev22_eq : ∀ c : Dev nD, (⟨k0_dev22 c, k0_dev22_lt c⟩ : Dev nD) = peerTo c 6 := by decide +kernel
theorem dev23_eq : ∀ c : Dev nD, (⟨k0_dev23 c, k0_dev23_lt c⟩ : Dev nD) = peerTo c 7 := by decide +kernel
theorem dev24_eq : ∀ c : Dev nD, (⟨k0_dev24 c, k0_dev24_lt c⟩ : Dev nD) = peerTo c 8 := by decide +kernel
theorem dev25_eq : ∀ c : Dev nD, (⟨k0_dev25 c, k0_dev25_lt c⟩ : Dev nD) = peerTo c 9 := by decide +kernel
theorem dev26_eq : ∀ c : Dev nD, (⟨k0_dev26 c, k0_dev26_lt c⟩ : Dev nD) = peerTo c 10 := by decide +kernel
theorem dev27_eq : ∀ c : Dev nD, (⟨k0_dev27 c, k0_dev27_lt c⟩ : Dev nD) = peerTo c 11 := by decide +kernel
theorem dev28_eq : ∀ c : Dev nD, (⟨k0_dev28 c, k0_dev28_lt c⟩ : Dev nD) = peerTo c 12 := by decide +kernel
theorem dev29_eq : ∀ c : Dev nD, (⟨k0_dev29 c, k0_dev29_lt c⟩ : Dev nD) = peerTo c 13 := by decide +kernel
theorem dev30_eq : ∀ c : Dev nD, (⟨k0_dev30 c, k0_dev30_lt c⟩ : Dev nD) = peerTo c 14 := by decide +kernel

end Cert.KernelIdeal.Mean
end
-- ==== Proof.Body.lean ====
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Data

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed views and semaphores of copy j are the rows and cells of the protocol -/

theorem sendSem0 : ((cc0_scratch1.slice (Rect.unit (s := S16) ![1] S1.size inb_S16_S1_1)).squeeze S_ squeezes_S1_S_).sem = sendQ 0 := rfl
theorem recvSem0 : ((cc0_scratch2.slice (Rect.unit (s := S16) ![1] S1.size inb_S16_S1_1)).squeeze S_ squeezes_S1_S_).sem = recvQ 0 := rfl
theorem sendSem1 : ((cc0_scratch1.slice (Rect.unit (s := S16) ![2] S1.size inb_S16_S1_2)).squeeze S_ squeezes_S1_S_).sem = sendQ 1 := rfl
theorem recvSem1 : ((cc0_scratch2.slice (Rect.unit (s := S16) ![2] S1.size inb_S16_S1_2)).squeeze S_ squeezes_S1_S_).sem = recvQ 1 := rfl
theorem sendSem2 : ((cc0_scratch1.slice (Rect.unit (s := S16) ![3] S1.size inb_S16_S1_3)).squeeze S_ squeezes_S1_S_).sem = sendQ 2 := rfl
theorem recvSem2 : ((cc0_scratch2.slice (Rect.unit (s := S16) ![3] S1.size inb_S16_S1_3)).squeeze S_ squeezes_S1_S_).sem = recvQ 2 := rfl
theorem sendSem3 : ((cc0_scratch1.slice (Rect.unit (s := S16) ![4] S1.size inb_S16_S1_4)).squeeze S_ squeezes_S1_S_).sem = sendQ 3 := rfl
theorem recvSem3 : ((cc0_scratch2.slice (Rect.unit (s := S16) ![4] S1.size inb_S16_S1_4)).squeeze S_ squeezes_S1_S_).sem = recvQ 3 := rfl
theorem sendSem4 : ((cc0_scratch1.slice (Rect.unit (s := S16) ![5] S1.size inb_S16_S1_5)).squeeze S_ squeezes_S1_S_).sem = sendQ 4 := rfl
theorem recvSem4 : ((cc0_scratch2.slice (Rect.unit (s := S16) ![5] S1.size inb_S16_S1_5)).squeeze S_ squeezes_S1_S_).sem = recvQ 4 := rfl
theorem sendSem5 : ((cc0_scratch1.slice (Rect.unit (s := S16) ![6] S1.size inb_S16_S1_6)).squeeze S_ squeezes_S1_S_).sem = sendQ 5 := rfl
theorem recvSem5 : ((cc0_scratch2.slice (Rect.unit (s := S16) ![6] S1.size inb_S16_S1_6)).squeeze S_ squeezes_S1_S_).sem = recvQ 5 := rfl
theorem sendSem6 : ((cc0_scratch1.slice (Rect.unit (s := S16) ![7] S1.size inb_S16_S1_7)).squeeze S_ squeezes_S1_S_).sem = sendQ 6 := rfl
theorem recvSem6 : ((cc0_scratch2.slice (Rect.unit (s := S16) ![7] S1.size inb_S16_S1_7)).squeeze S_ squeezes_S1_S_).sem = recvQ 6 := rfl
theorem sendSem7 : ((cc0_scratch1.slice (Rect.unit (s := S16) ![8] S1.size inb_S16_S1_8)).squeeze S_ squeezes_S1_S_).sem = sendQ 7 := rfl
theorem recvSem7 : ((cc0_scratch2.slice (Rect.unit (s := S16) ![8] S1.size inb_S16_S1_8)).squeeze S_ squeezes_S1_S_).sem = recvQ 7 := rfl
theorem sendSem8 : ((cc0_scratch1.slice (Rect.unit (s := S16) ![9] S1.size inb_S16_S1_9)).squeeze S_ squeezes_S1_S_).sem = sendQ 8 := rfl
theorem recvSem8 : ((cc0_scratch2.slice (Rect.unit (s := S16) ![9] S1.size inb_S16_S1_9)).squeeze S_ squeezes_S1_S_).sem = recvQ 8 := rfl
theorem sendSem9 : ((cc0_scratch1.slice (Rect.unit (s := S16) ![10] S1.size inb_S16_S1_10)).squeeze S_ squeezes_S1_S_).sem = sendQ 9 := rfl
theorem recvSem9 : ((cc0_scratch2.slice (Rect.unit (s := S16) ![10] S1.size inb_S16_S1_10)).squeeze S_ squeezes_S1_S_).sem = recvQ 9 := rfl
theorem sendSem10 : ((cc0_scratch1.slice (Rect.unit (s := S16) ![11] S1.size inb_S16_S1_11)).squeeze S_ squeezes_S1_S_).sem = sendQ 10 := rfl
theorem recvSem10 : ((cc0_scratch2.slice (Rect.unit (s := S16) ![11] S1.size inb_S16_S1_11)).squeeze S_ squeezes_S1_S_).sem = recvQ 10 := rfl
theorem sendSem11 : ((cc0_scratch1.slice (Rect.unit (s := S16) ![12] S1.size inb_S16_S1_12)).squeeze S_ squeezes_S1_S_).sem = sendQ 11 := rfl
theorem recvSem11 : ((cc0_scratch2.slice (Rect.unit (s := S16) ![12] S1.size inb_S16_S1_12)).squeeze S_ squeezes_S1_S_).sem = recvQ 11 := rfl
theorem sendSem12 : ((cc0_scratch1.slice (Rect.unit (s := S16) ![13] S1.size inb_S16_S1_13)).squeeze S_ squeezes_S1_S_).sem = sendQ 12 := rfl
theorem recvSem12 : ((cc0_scratch2.slice (Rect.unit (s := S16) ![13] S1.size inb_S16_S1_13)).squeeze S_ squeezes_S1_S_).sem = recvQ 12 := rfl
theorem sendSem13 : ((cc0_scratch1.slice (Rect.unit (s := S16) ![14] S1.size inb_S16_S1_14)).squeeze S_ squeezes_S1_S_).sem = sendQ 13 := rfl
theorem recvSem13 : ((cc0_scratch2.slice (Rect.unit (s := S16) ![14] S1.size inb_S16_S1_14)).squeeze S_ squeezes_S1_S_).sem = recvQ 13 := rfl
theorem sendSem14 : ((cc0_scratch1.slice (Rect.unit (s := S16) ![15] S1.size inb_S16_S1_15)).squeeze S_ squeezes_S1_S_).sem = sendQ 14 := rfl
theorem recvSem14 : ((cc0_scratch2.slice (Rect.unit (s := S16) ![15] S1.size inb_S16_S1_15)).squeeze S_ squeezes_S1_S_).sem = recvQ 14 := rfl
theorem row0 : (((Memref.whole cc0_scratch0 : Memref sig .tc .vmem S16x1x1024 .f32).slice (Rect.unit (s := S16x1x1024) ![0, 0, 0] S1x1x1024.size inb_S16x1x1024_S1x1x1024_0_0_0) (fun _ => rfl)).squeeze S1x1024 squeezes_S1x1x1024_S1x1024) = slotM 0 := rfl
theorem row1 : (((Memref.whole cc0_scratch0 : Memref sig .tc .vmem S16x1x1024 .f32).slice (Rect.unit (s := S16x1x1024) ![1, 0, 0] S1x1x1024.size inb_S16x1x1024_S1x1x1024_1_0_0) (fun _ => rfl)).squeeze S1x1024 squeezes_S1x1x1024_S1x1024) = slotM 1 := rfl
theorem row2 : (((Memref.whole cc0_scratch0 : Memref sig .tc .vmem S16x1x1024 .f32).slice (Rect.unit (s := S16x1x1024) ![2, 0, 0] S1x1x1024.size inb_S16x1x1024_S1x1x1024_2_0_0) (fun _ => rfl)).squeeze S1x1024 squeezes_S1x1x1024_S1x1024) = slotM 2 := rfl
theorem row3 : (((Memref.whole cc0_scratch0 : Memref sig .tc .vmem S16x1x1024 .f32).slice (Rect.unit (s := S16x1x1024) ![3, 0, 0] S1x1x1024.size inb_S16x1x1024_S1x1x1024_3_0_0) (fun _ => rfl)).squeeze S1x1024 squeezes_S1x1x1024_S1x1024) = slotM 3 := rfl
theorem row4 : (((Memref.whole cc0_scratch0 : Memref sig .tc .vmem S16x1x1024 .f32).slice (Rect.unit (s := S16x1x1024) ![4, 0, 0] S1x1x1024.size inb_S16x1x1024_S1x1x1024_4_0_0) (fun _ => rfl)).squeeze S1x1024 squeezes_S1x1x1024_S1x1024) = slotM 4 := rfl
theorem row5 : (((Memref.whole cc0_scratch0 : Memref sig .tc .vmem S16x1x1024 .f32).slice (Rect.unit (s := S16x1x1024) ![5, 0, 0] S1x1x1024.size inb_S16x1x1024_S1x1x1024_5_0_0) (fun _ => rfl)).squeeze S1x1024 squeezes_S1x1x1024_S1x1024) = slotM 5 := rfl
theorem row6 : (((Memref.whole cc0_scratch0 : Memref sig .tc .vmem S16x1x1024 .f32).slice (Rect.unit (s := S16x1x1024) ![6, 0, 0] S1x1x1024.size inb_S16x1x1024_S1x1x1024_6_0_0) (fun _ => rfl)).squeeze S1x1024 squeezes_S1x1x1024_S1x1024) = slotM 6 := rfl
theorem row7 : (((Memref.whole cc0_scratch0 : Memref sig .tc .vmem S16x1x1024 .f32).slice (Rect.unit (s := S16x1x1024) ![7, 0, 0] S1x1x1024.size inb_S16x1x1024_S1x1x1024_7_0_0) (fun _ => rfl)).squeeze S1x1024 squeezes_S1x1x1024_S1x1024) = slotM 7 := rfl
theorem row8 : (((Memref.whole cc0_scratch0 : Memref sig .tc .vmem S16x1x1024 .f32).slice (Rect.unit (s := S16x1x1024) ![8, 0, 0] S1x1x1024.size inb_S16x1x1024_S1x1x1024_8_0_0) (fun _ => rfl)).squeeze S1x1024 squeezes_S1x1x1024_S1x1024) = slotM 8 := rfl
theorem row9 : (((Memref.whole cc0_scratch0 : Memref sig .tc .vmem S16x1x1024 .f32).slice (Rect.unit (s := S16x1x1024) ![9, 0, 0] S1x1x1024.size inb_S16x1x1024_S1x1x1024_9_0_0) (fun _ => rfl)).squeeze S1x1024 squeezes_S1x1x1024_S1x1024) = slotM 9 := rfl
theorem row10 : (((Memref.whole cc0_scratch0 : Memref sig .tc .vmem S16x1x1024 .f32).slice (Rect.unit (s := S16x1x1024) ![10, 0, 0] S1x1x1024.size inb_S16x1x1024_S1x1x1024_10_0_0) (fun _ => rfl)).squeeze S1x1024 squeezes_S1x1x1024_S1x1024) = slotM 10 := rfl
theorem row11 : (((Memref.whole cc0_scratch0 : Memref sig .tc .vmem S16x1x1024 .f32).slice (Rect.unit (s := S16x1x1024) ![11, 0, 0] S1x1x1024.size inb_S16x1x1024_S1x1x1024_11_0_0) (fun _ => rfl)).squeeze S1x1024 squeezes_S1x1x1024_S1x1024) = slotM 11 := rfl
theorem row12 : (((Memref.whole cc0_scratch0 : Memref sig .tc .vmem S16x1x1024 .f32).slice (Rect.unit (s := S16x1x1024) ![12, 0, 0] S1x1x1024.size inb_S16x1x1024_S1x1x1024_12_0_0) (fun _ => rfl)).squeeze S1x1024 squeezes_S1x1x1024_S1x1024) = slotM 12 := rfl
theorem row13 : (((Memref.whole cc0_scratch0 : Memref sig .tc .vmem S16x1x1024 .f32).slice (Rect.unit (s := S16x1x1024) ![13, 0, 0] S1x1x1024.size inb_S16x1x1024_S1x1x1024_13_0_0) (fun _ => rfl)).squeeze S1x1024 squeezes_S1x1x1024_S1x1024) = slotM 13 := rfl
theorem row14 : (((Memref.whole cc0_scratch0 : Memref sig .tc .vmem S16x1x1024 .f32).slice (Rect.unit (s := S16x1x1024) ![14, 0, 0] S1x1x1024.size inb_S16x1x1024_S1x1x1024_14_0_0) (fun _ => rfl)).squeeze S1x1024 squeezes_S1x1x1024_S1x1024) = slotM 14 := rfl
theorem row15 : (((Memref.whole cc0_scratch0 : Memref sig .tc .vmem S16x1x1024 .f32).slice (Rect.unit (s := S16x1x1024) ![15, 0, 0] S1x1x1024.size inb_S16x1x1024_S1x1x1024_15_0_0) (fun _ => rfl)).squeeze S1x1024 squeezes_S1x1x1024_S1x1024) = slotM 15 := rfl

section Body

variable (K : GSem nD τ sig → ℕ)

set_option maxHeartbeats 4000000 in
set_option maxRecDepth 65536 in
/-- The body on device c, stepped from its precondition one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, Prog.bind_assoc, wp_deviceId]
  unfold bodyPre ghost
  iintro ⟨⟨⟨⟨#HR, HatB, HatS, HatV, HtB, HtS, HtV⟩, HcB, HcV, #Hlev, Hun, ⟨%f0, Hscr⟩⟩, Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave HatS' := (Entails.of_eq (bigSep_D (fun j : D => (atPos ER (sendCell c j) 0 ∅ 0 : sProp 𝕄)))) $$ HatS
  icases HatS' with ⟨HatS0, HatS1, HatS2, HatS3, HatS4, HatS5, HatS6, HatS7, HatS8, HatS9, HatS10, HatS11, HatS12, HatS13, HatS14⟩
  ihave HatV' := (Entails.of_eq (bigSep_D (fun j : D => (atPos ER (recvCell c j) 0 ∅ 0 : sProp 𝕄)))) $$ HatV
  icases HatV' with ⟨HatV0, HatV1, HatV2, HatV3, HatV4, HatV5, HatV6, HatV7, HatV8, HatV9, HatV10, HatV11, HatV12, HatV13, HatV14⟩
  ihave HtB' := (Entails.of_eq (bigSep_D (fun j : D => (dutyTok ER (barCell (peerTo c j)) 0 j.rev : sProp 𝕄)))) $$ HtB
  icases HtB' with ⟨HtB0, HtB1, HtB2, HtB3, HtB4, HtB5, HtB6, HtB7, HtB8, HtB9, HtB10, HtB11, HtB12, HtB13, HtB14⟩
  ihave HtS' := (Entails.of_eq (bigSep_D (fun j : D => (dutyTok ER (sendCell c j) 0 0 : sProp 𝕄)))) $$ HtS
  icases HtS' with ⟨HtS0, HtS1, HtS2, HtS3, HtS4, HtS5, HtS6, HtS7, HtS8, HtS9, HtS10, HtS11, HtS12, HtS13, HtS14⟩
  ihave HtV' := (Entails.of_eq (bigSep_D (fun j : D => (dutyTok ER (recvCell (peerTo c j) j) 0 0 : sProp 𝕄)))) $$ HtV
  icases HtV' with ⟨HtV0, HtV1, HtV2, HtV3, HtV4, HtV5, HtV6, HtV7, HtV8, HtV9, HtV10, HtV11, HtV12, HtV13, HtV14⟩
  ihave HcV' := (Entails.of_eq (bigSep_D (fun j : D => (cred (tallyAt (recvCell c j) () N) : sProp 𝕄)))) $$ HcV
  icases HcV' with ⟨HcV0, HcV1, HcV2, HcV3, HcV4, HcV5, HcV6, HcV7, HcV8, HcV9, HcV10, HcV11, HcV12, HcV13, HcV14⟩
  ihave Hrows := (Entails.of_eq ((Ring.pointsTo_blocks (Ix := Unit) (Name := ℕ) (U := UU) (Lvl := ℕ) (q := fullShare) J J_disjoint J_cover f0).trans (bigSep_F16 _))) $$ Hscr
  icases Hrows with ⟨Hr0, Hr1, Hr2, Hr3, Hr4, Hr5, Hr6, Hr7, Hr8, Hr9, Hr10, Hr11, Hr12, Hr13, Hr14, Hr15⟩
  iapply (sig_step m ρ K c 0 W _ (dev1_eq c) (by decide)) $$ [HO HtB0 Hr15]
  · isplitr; · iexact HR
    isplitl [HO]; · iexact HO
    isplitl [HtB0]; · iexact HtB0
    iexists f0; rw [slotPts_eq]; iexact Hr15
  iintro HO
  iapply (sig_step m ρ K c 1 W _ (dev2_eq c) (by decide)) $$ [HO HtB1 Hr14]
  · isplitr; · iexact HR
    isplitl [HO]; · iexact HO
    isplitl [HtB1]; · iexact HtB1
    iexists f0; rw [slotPts_eq]; iexact Hr14
  iintro HO
  iapply (sig_step m ρ K c 2 W _ (dev3_eq c) (by decide)) $$ [HO HtB2 Hr13]
  · isplitr; · iexact HR
    isplitl [HO]; · iexact HO
    isplitl [HtB2]; · iexact HtB2
    iexists f0; rw [slotPts_eq]; iexact Hr13
  iintro HO
  iapply (sig_step m ρ K c 3 W _ (dev4_eq c) (by decide)) $$ [HO HtB3 Hr12]
  · isplitr; · iexact HR
    isplitl [HO]; · iexact HO
    isplitl [HtB3]; · iexact HtB3
    iexists f0; rw [slotPts_eq]; iexact Hr12
  iintro HO
  iapply (sig_step m ρ K c 4 W _ (dev5_eq c) (by decide)) $$ [HO HtB4 Hr11]
  · isplitr; · iexact HR
    isplitl [HO]; · iexact HO
    isplitl [HtB4]; · iexact HtB4
    iexists f0; rw [slotPts_eq]; iexact Hr11
  iintro HO
  iapply (sig_step m ρ K c 5 W _ (dev6_eq c) (by decide)) $$ [HO HtB5 Hr10]
  · isplitr; · iexact HR
    isplitl [HO]; · iexact HO
    isplitl [HtB5]; · iexact HtB5
    iexists f0; rw [slotPts_eq]; iexact Hr10
  iintro HO
  iapply (sig_step m ρ K c 6 W _ (dev7_eq c) (by decide)) $$ [HO HtB6 Hr9]
  · isplitr; · iexact HR
    isplitl [HO]; · iexact HO
    isplitl [HtB6]; · iexact HtB6
    iexists f0; rw [slotPts_eq]; iexact Hr9
  iintro HO
  iapply (sig_step m ρ K c 7 W _ (dev8_eq c) (by decide)) $$ [HO HtB7 Hr8]
  · isplitr; · iexact HR
    isplitl [HO]; · iexact HO
    isplitl [HtB7]; · iexact HtB7
    iexists f0; rw [slotPts_eq]; iexact Hr8
  iintro HO
  iapply (sig_step m ρ K c 8 W _ (dev9_eq c) (by decide)) $$ [HO HtB8 Hr7]
  · isplitr; · iexact HR
    isplitl [HO]; · iexact HO
    isplitl [HtB8]; · iexact HtB8
    iexists f0; rw [slotPts_eq]; iexact Hr7
  iintro HO
  iapply (sig_step m ρ K c 9 W _ (dev10_eq c) (by decide)) $$ [HO HtB9 Hr6]
  · isplitr; · iexact HR
    isplitl [HO]; · iexact HO
    isplitl [HtB9]; · iexact HtB9
    iexists f0; rw [slotPts_eq]; iexact Hr6
  iintro HO
  iapply (sig_step m ρ K c 10 W _ (dev11_eq c) (by decide)) $$ [HO HtB10 Hr5]
  · isplitr; · iexact HR
    isplitl [HO]; · iexact HO
    isplitl [HtB10]; · iexact HtB10
    iexists f0; rw [slotPts_eq]; iexact Hr5
  iintro HO
  iapply (sig_step m ρ K c 11 W _ (dev12_eq c) (by decide)) $$ [HO HtB11 Hr4]
  · isplitr; · iexact HR
    isplitl [HO]; · iexact HO
    isplitl [HtB11]; · iexact HtB11
    iexists f0; rw [slotPts_eq]; iexact Hr4
  iintro HO
  iapply (sig_step m ρ K c 12 W _ (dev13_eq c) (by decide)) $$ [HO HtB12 Hr3]
  · isplitr; · iexact HR
    isplitl [HO]; · iexact HO
    isplitl [HtB12]; · iexact HtB12
    iexists f0; rw [slotPts_eq]; iexact Hr3
  iintro HO
  iapply (sig_step m ρ K c 13 W _ (dev14_eq c) (by decide)) $$ [HO HtB13 Hr2]
  · isplitr; · iexact HR
    isplitl [HO]; · iexact HO
    isplitl [HtB13]; · iexact HtB13
    iexists f0; rw [slotPts_eq]; iexact Hr2
  iintro HO
  iapply (sig_step m ρ K c 14 W _ (dev15_eq c) (by decide)) $$ [HO HtB14 Hr1]
  · isplitr; · iexact HR
    isplitl [HO]; · iexact HO
    isplitl [HtB14]; · iexact HtB14
    iexists f0; rw [slotPts_eq]; iexact Hr1
  iintro HO
  rw [show Osig c ((14 : D).val + 1) = 0 from Osig_15 c, add_zero]
  iapply (wp_load 𝒱₀ (c : Thread nD τ) none Set.univ (m := xM) (Finset.subset_univ _)) $$ Hx; iintro Hx
  rw [read_x]
  iapply (wp_load 𝒱₀ (c : Thread nD τ) none Set.univ (m := scrM) (S := J 0) load_set) $$ Hr0; iintro Hr0
  iapply (wp_store 𝒱₀ (c : Thread nD τ) none Set.univ (m := scrM) (r := rS0) (Mk := Finset.univ) (S := J 0) store_set) $$ Hr0; iintro Hr0
  ihave Hr0 := (Entails.of_eq ((pointsTo_congr (stored_eq m ρ c f0)).trans (slotPts_eq c 0 fullShare (G m ρ c)).symm)) $$ Hr0
  iapply (bar_wait m ρ K c W (by decide)) $$ [HcB HO HatB]
  · isplitr; · iexact HR
    isplitr; · iexact Hlev
    isplitl [HcB]; · iexact HcB
    isplitl [HO]; · iexact HO
    iexact HatB
  iintro ⟨HO, Hpay⟩
  ihave Hp := (Entails.of_eq (bigSep_D (fun j : D => barPay (F := F) c j))) $$ Hpay
  icases Hp with ⟨Hb0, Hb1, Hb2, Hb3, Hb4, Hb5, Hb6, Hb7, Hb8, Hb9, Hb10, Hb11, Hb12, Hb13, Hb14⟩
  iapply (send_step m ρ K c 0 (insert (SemLoc.reg barS, ()) W) _ (dev16_eq c)) $$ [Hr0 Hb0 HO HtS0 HtV0]
  · isplitr; · iexact HR
    isplitl [Hr0]; · iexact Hr0
    isplitl [Hb0]; · iexact Hb0
    isplitl [HO]; · iexact HO
    isplitl [HtS0]; · iexact HtS0
    iexact HtV0
  iintro ⟨Hr0, HcS0, HO⟩
  iapply (send_step m ρ K c 1 (insert (SemLoc.reg barS, ()) W) _ (dev17_eq c)) $$ [Hr0 Hb1 HO HtS1 HtV1]
  · isplitr; · iexact HR
    isplitl [Hr0]; · iexact Hr0
    isplitl [Hb1]; · iexact Hb1
    isplitl [HO]; · iexact HO
    isplitl [HtS1]; · iexact HtS1
    iexact HtV1
  iintro ⟨Hr0, HcS1, HO⟩
  iapply (send_step m ρ K c 2 (insert (SemLoc.reg barS, ()) W) _ (dev18_eq c)) $$ [Hr0 Hb2 HO HtS2 HtV2]
  · isplitr; · iexact HR
    isplitl [Hr0]; · iexact Hr0
    isplitl [Hb2]; · iexact Hb2
    isplitl [HO]; · iexact HO
    isplitl [HtS2]; · iexact HtS2
    iexact HtV2
  iintro ⟨Hr0, HcS2, HO⟩
  iapply (send_step m ρ K c 3 (insert (SemLoc.reg barS, ()) W) _ (dev19_eq c)) $$ [Hr0 Hb3 HO HtS3 HtV3]
  · isplitr; · iexact HR
    isplitl [Hr0]; · iexact Hr0
    isplitl [Hb3]; · iexact Hb3
    isplitl [HO]; · iexact HO
    isplitl [HtS3]; · iexact HtS3
    iexact HtV3
  iintro ⟨Hr0, HcS3, HO⟩
  iapply (send_step m ρ K c 4 (insert (SemLoc.reg barS, ()) W) _ (dev20_eq c)) $$ [Hr0 Hb4 HO HtS4 HtV4]
  · isplitr; · iexact HR
    isplitl [Hr0]; · iexact Hr0
    isplitl [Hb4]; · iexact Hb4
    isplitl [HO]; · iexact HO
    isplitl [HtS4]; · iexact HtS4
    iexact HtV4
  iintro ⟨Hr0, HcS4, HO⟩
  iapply (send_step m ρ K c 5 (insert (SemLoc.reg barS, ()) W) _ (dev21_eq c)) $$ [Hr0 Hb5 HO HtS5 HtV5]
  · isplitr; · iexact HR
    isplitl [Hr0]; · iexact Hr0
    isplitl [Hb5]; · iexact Hb5
    isplitl [HO]; · iexact HO
    isplitl [HtS5]; · iexact HtS5
    iexact HtV5
  iintro ⟨Hr0, HcS5, HO⟩
  iapply (send_step m ρ K c 6 (insert (SemLoc.reg barS, ()) W) _ (dev22_eq c)) $$ [Hr0 Hb6 HO HtS6 HtV6]
  · isplitr; · iexact HR
    isplitl [Hr0]; · iexact Hr0
    isplitl [Hb6]; · iexact Hb6
    isplitl [HO]; · iexact HO
    isplitl [HtS6]; · iexact HtS6
    iexact HtV6
  iintro ⟨Hr0, HcS6, HO⟩
  iapply (send_step m ρ K c 7 (insert (SemLoc.reg barS, ()) W) _ (dev23_eq c)) $$ [Hr0 Hb7 HO HtS7 HtV7]
  · isplitr; · iexact HR
    isplitl [Hr0]; · iexact Hr0
    isplitl [Hb7]; · iexact Hb7
    isplitl [HO]; · iexact HO
    isplitl [HtS7]; · iexact HtS7
    iexact HtV7
  iintro ⟨Hr0, HcS7, HO⟩
  iapply (send_step m ρ K c 8 (insert (SemLoc.reg barS, ()) W) _ (dev24_eq c)) $$ [Hr0 Hb8 HO HtS8 HtV8]
  · isplitr; · iexact HR
    isplitl [Hr0]; · iexact Hr0
    isplitl [Hb8]; · iexact Hb8
    isplitl [HO]; · iexact HO
    isplitl [HtS8]; · iexact HtS8
    iexact HtV8
  iintro ⟨Hr0, HcS8, HO⟩
  iapply (send_step m ρ K c 9 (insert (SemLoc.reg barS, ()) W) _ (dev25_eq c)) $$ [Hr0 Hb9 HO HtS9 HtV9]
  · isplitr; · iexact HR
    isplitl [Hr0]; · iexact Hr0
    isplitl [Hb9]; · iexact Hb9
    isplitl [HO]; · iexact HO
    isplitl [HtS9]; · iexact HtS9
    iexact HtV9
  iintro ⟨Hr0, HcS9, HO⟩
  iapply (send_step m ρ K c 10 (insert (SemLoc.reg barS, ()) W) _ (dev26_eq c)) $$ [Hr0 Hb10 HO HtS10 HtV10]
  · isplitr; · iexact HR
    isplitl [Hr0]; · iexact Hr0
    isplitl [Hb10]; · iexact Hb10
    isplitl [HO]; · iexact HO
    isplitl [HtS10]; · iexact HtS10
    iexact HtV10
  iintro ⟨Hr0, HcS10, HO⟩
  iapply (send_step m ρ K c 11 (insert (SemLoc.reg barS, ()) W) _ (dev27_eq c)) $$ [Hr0 Hb11 HO HtS11 HtV11]
  · isplitr; · iexact HR
    isplitl [Hr0]; · iexact Hr0
    isplitl [Hb11]; · iexact Hb11
    isplitl [HO]; · iexact HO
    isplitl [HtS11]; · iexact HtS11
    iexact HtV11
  iintro ⟨Hr0, HcS11, HO⟩
  iapply (send_step m ρ K c 12 (insert (SemLoc.reg barS, ()) W) _ (dev28_eq c)) $$ [Hr0 Hb12 HO HtS12 HtV12]
  · isplitr; · iexact HR
    isplitl [Hr0]; · iexact Hr0
    isplitl [Hb12]; · iexact Hb12
    isplitl [HO]; · iexact HO
    isplitl [HtS12]; · iexact HtS12
    iexact HtV12
  iintro ⟨Hr0, HcS12, HO⟩
  iapply (send_step m ρ K c 13 (insert (SemLoc.reg barS, ()) W) _ (dev29_eq c)) $$ [Hr0 Hb13 HO HtS13 HtV13]
  · isplitr; · iexact HR
    isplitl [Hr0]; · iexact Hr0
    isplitl [Hb13]; · iexact Hb13
    isplitl [HO]; · iexact HO
    isplitl [HtS13]; · iexact HtS13
    iexact HtV13
  iintro ⟨Hr0, HcS13, HO⟩
  iapply (send_step m ρ K c 14 (insert (SemLoc.reg barS, ()) W) _ (dev30_eq c)) $$ [Hr0 Hb14 HO HtS14 HtV14]
  · isplitr; · iexact HR
    isplitl [Hr0]; · iexact Hr0
    isplitl [Hb14]; · iexact Hb14
    isplitl [HO]; · iexact HO
    isplitl [HtS14]; · iexact HtS14
    iexact HtV14
  iintro ⟨Hr0, HcS14, HO⟩
  rw [show Ox c ((14 : D).val + 1) = 0 from Ox_15 c]
  iapply (wsend_step m ρ K c 0 (insert (SemLoc.reg barS, ()) W)) $$ [HcS0 HO HatS0]
  · isplitr; · iexact HR
    isplitl [HcS0]; · iexact HcS0
    isplitl [HO]; · iexact HO
    iexact HatS0
  iintro ⟨HO, HzS0, HpS0⟩
  iapply (wrecv_step m ρ K c 0 (insert (SemLoc.dma (sendQ 0), ()) (insert (SemLoc.reg barS, ()) W))) $$ [HcV0 HO HatV0]
  · isplitr; · iexact HR
    isplitl [HcV0]; · iexact HcV0
    isplitl [HO]; · iexact HO
    iexact HatV0
  iintro ⟨HO, HzV0, HpV0⟩
  iapply (wsend_step m ρ K c 1 (insert (SemLoc.dma (recvQ 0), ()) (insert (SemLoc.dma (sendQ 0), ()) (insert (SemLoc.reg barS, ()) W)))) $$ [HcS1 HO HatS1]
  · isplitr; · iexact HR
    isplitl [HcS1]; · iexact HcS1
    isplitl [HO]; · iexact HO
    iexact HatS1
  iintro ⟨HO, HzS1, HpS1⟩
  iapply (wrecv_step m ρ K c 1 (insert (SemLoc.dma (sendQ 1), ()) (insert (SemLoc.dma (recvQ 0), ()) (insert (SemLoc.dma (sendQ 0), ()) (insert (SemLoc.reg barS, ()) W))))) $$ [HcV1 HO HatV1]
  · isplitr; · iexact HR
    isplitl [HcV1]; · iexact HcV1
    isplitl [HO]; · iexact HO
    iexact HatV1
  iintro ⟨HO, HzV1, HpV1⟩
  iapply (wsend_step m ρ K c 2 (insert (SemLoc.dma (recvQ 1), ()) (insert (SemLoc.dma (sendQ 1), ()) (insert (SemLoc.dma (recvQ 0), ()) (insert (SemLoc.dma (sendQ 0), ()) (insert (SemLoc.reg barS, ()) W)))))) $$ [HcS2 HO HatS2]
  · isplitr; · iexact HR
    isplitl [HcS2]; · iexact HcS2
    isplitl [HO]; · iexact HO
    iexact HatS2
  iintro ⟨HO, HzS2, HpS2⟩
  iapply (wrecv_step m ρ K c 2 (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))) $$ [HcV2 HO HatV2]
  · isplitr; · iexact HR
    isplitl [HcV2]; · iexact HcV2
    isplitl [HO]; · iexact HO
    iexact HatV2
  iintro ⟨HO, HzV2, HpV2⟩
  iapply (wsend_step m ρ K c 3 (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))) $$ [HcS3 HO HatS3]
  · isplitr; · iexact HR
    isplitl [HcS3]; · iexact HcS3
    isplitl [HO]; · iexact HO
    iexact HatS3
  iintro ⟨HO, HzS3, HpS3⟩
  iapply (wrecv_step m ρ K c 3 (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))) $$ [HcV3 HO HatV3]
  · isplitr; · iexact HR
    isplitl [HcV3]; · iexact HcV3
    isplitl [HO]; · iexact HO
    iexact HatV3
  iintro ⟨HO, HzV3, HpV3⟩
  iapply (wsend_step m ρ K c 4 (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))) $$ [HcS4 HO HatS4]
  · isplitr; · iexact HR
    isplitl [HcS4]; · iexact HcS4
    isplitl [HO]; · iexact HO
    iexact HatS4
  iintro ⟨HO, HzS4, HpS4⟩
  iapply (wrecv_step m ρ K c 4 (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))) $$ [HcV4 HO HatV4]
  · isplitr; · iexact HR
    isplitl [HcV4]; · iexact HcV4
    isplitl [HO]; · iexact HO
    iexact HatV4
  iintro ⟨HO, HzV4, HpV4⟩
  iapply (wsend_step m ρ K c 5 (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))) $$ [HcS5 HO HatS5]
  · isplitr; · iexact HR
    isplitl [HcS5]; · iexact HcS5
    isplitl [HO]; · iexact HO
    iexact HatS5
  iintro ⟨HO, HzS5, HpS5⟩
  iapply (wrecv_step m ρ K c 5 (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))) $$ [HcV5 HO HatV5]
  · isplitr; · iexact HR
    isplitl [HcV5]; · iexact HcV5
    isplitl [HO]; · iexact HO
    iexact HatV5
  iintro ⟨HO, HzV5, HpV5⟩
  iapply (wsend_step m ρ K c 6 (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))) $$ [HcS6 HO HatS6]
  · isplitr; · iexact HR
    isplitl [HcS6]; · iexact HcS6
    isplitl [HO]; · iexact HO
    iexact HatS6
  iintro ⟨HO, HzS6, HpS6⟩
  iapply (wrecv_step m ρ K c 6 (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))) $$ [HcV6 HO HatV6]
  · isplitr; · iexact HR
    isplitl [HcV6]; · iexact HcV6
    isplitl [HO]; · iexact HO
    iexact HatV6
  iintro ⟨HO, HzV6, HpV6⟩
  iapply (wsend_step m ρ K c 7 (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))) $$ [HcS7 HO HatS7]
  · isplitr; · iexact HR
    isplitl [HcS7]; · iexact HcS7
    isplitl [HO]; · iexact HO
    iexact HatS7
  iintro ⟨HO, HzS7, HpS7⟩
  iapply (wrecv_step m ρ K c 7 (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))) $$ [HcV7 HO HatV7]
  · isplitr; · iexact HR
    isplitl [HcV7]; · iexact HcV7
    isplitl [HO]; · iexact HO
    iexact HatV7
  iintro ⟨HO, HzV7, HpV7⟩
  iapply (wsend_step m ρ K c 8 (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))) $$ [HcS8 HO HatS8]
  · isplitr; · iexact HR
    isplitl [HcS8]; · iexact HcS8
    isplitl [HO]; · iexact HO
    iexact HatS8
  iintro ⟨HO, HzS8, HpS8⟩
  iapply (wrecv_step m ρ K c 8 (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))) $$ [HcV8 HO HatV8]
  · isplitr; · iexact HR
    isplitl [HcV8]; · iexact HcV8
    isplitl [HO]; · iexact HO
    iexact HatV8
  iintro ⟨HO, HzV8, HpV8⟩
  iapply (wsend_step m ρ K c 9 (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))) $$ [HcS9 HO HatS9]
  · isplitr; · iexact HR
    isplitl [HcS9]; · iexact HcS9
    isplitl [HO]; · iexact HO
    iexact HatS9
  iintro ⟨HO, HzS9, HpS9⟩
  iapply (wrecv_step m ρ K c 9 (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))) $$ [HcV9 HO HatV9]
  · isplitr; · iexact HR
    isplitl [HcV9]; · iexact HcV9
    isplitl [HO]; · iexact HO
    iexact HatV9
  iintro ⟨HO, HzV9, HpV9⟩
  iapply (wsend_step m ρ K c 10 (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))) $$ [HcS10 HO HatS10]
  · isplitr; · iexact HR
    isplitl [HcS10]; · iexact HcS10
    isplitl [HO]; · iexact HO
    iexact HatS10
  iintro ⟨HO, HzS10, HpS10⟩
  iapply (wrecv_step m ρ K c 10 (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))) $$ [HcV10 HO HatV10]
  · isplitr; · iexact HR
    isplitl [HcV10]; · iexact HcV10
    isplitl [HO]; · iexact HO
    iexact HatV10
  iintro ⟨HO, HzV10, HpV10⟩
  iapply (wsend_step m ρ K c 11 (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))) $$ [HcS11 HO HatS11]
  · isplitr; · iexact HR
    isplitl [HcS11]; · iexact HcS11
    isplitl [HO]; · iexact HO
    iexact HatS11
  iintro ⟨HO, HzS11, HpS11⟩
  iapply (wrecv_step m ρ K c 11 (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))) $$ [HcV11 HO HatV11]
  · isplitr; · iexact HR
    isplitl [HcV11]; · iexact HcV11
    isplitl [HO]; · iexact HO
    iexact HatV11
  iintro ⟨HO, HzV11, HpV11⟩
  iapply (wsend_step m ρ K c 12 (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))) $$ [HcS12 HO HatS12]
  · isplitr; · iexact HR
    isplitl [HcS12]; · iexact HcS12
    isplitl [HO]; · iexact HO
    iexact HatS12
  iintro ⟨HO, HzS12, HpS12⟩
  iapply (wrecv_step m ρ K c 12 (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))) $$ [HcV12 HO HatV12]
  · isplitr; · iexact HR
    isplitl [HcV12]; · iexact HcV12
    isplitl [HO]; · iexact HO
    iexact HatV12
  iintro ⟨HO, HzV12, HpV12⟩
  iapply (wsend_step m ρ K c 13 (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))) $$ [HcS13 HO HatS13]
  · isplitr; · iexact HR
    isplitl [HcS13]; · iexact HcS13
    isplitl [HO]; · iexact HO
    iexact HatS13
  iintro ⟨HO, HzS13, HpS13⟩
  iapply (wrecv_step m ρ K c 13 (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))))) $$ [HcV13 HO HatV13]
  · isplitr; · iexact HR
    isplitl [HcV13]; · iexact HcV13
    isplitl [HO]; · iexact HO
    iexact HatV13
  iintro ⟨HO, HzV13, HpV13⟩
  iapply (wsend_step m ρ K c 14 (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))))) $$ [HcS14 HO HatS14]
  · isplitr; · iexact HR
    isplitl [HcS14]; · iexact HcS14
    isplitl [HO]; · iexact HO
    iexact HatS14
  iintro ⟨HO, HzS14, HpS14⟩
  iapply (wrecv_step m ρ K c 14 (insert (SemLoc.dma (sendQ 14), ()) (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))))))) $$ [HcV14 HO HatV14]
  · isplitr; · iexact HR
    isplitl [HcV14]; · iexact HcV14
    isplitl [HO]; · iexact HO
    iexact HatV14
  iintro ⟨HO, HzV14, HpV14⟩
  unfold sendPay slotPts
  ihave Hr0 := (pts_split (F := F) 14).2 $$ [HpS14 Hr0]
  · isplitl [HpS14]; · iexact HpS14
    iexact Hr0
  ihave Hr0 := (pts_split (F := F) 13).2 $$ [HpS13 Hr0]
  · isplitl [HpS13]; · iexact HpS13
    iexact Hr0
  ihave Hr0 := (pts_split (F := F) 12).2 $$ [HpS12 Hr0]
  · isplitl [HpS12]; · iexact HpS12
    iexact Hr0
  ihave Hr0 := (pts_split (F := F) 11).2 $$ [HpS11 Hr0]
  · isplitl [HpS11]; · iexact HpS11
    iexact Hr0
  ihave Hr0 := (pts_split (F := F) 10).2 $$ [HpS10 Hr0]
  · isplitl [HpS10]; · iexact HpS10
    iexact Hr0
  ihave Hr0 := (pts_split (F := F) 9).2 $$ [HpS9 Hr0]
  · isplitl [HpS9]; · iexact HpS9
    iexact Hr0
  ihave Hr0 := (pts_split (F := F) 8).2 $$ [HpS8 Hr0]
  · isplitl [HpS8]; · iexact HpS8
    iexact Hr0
  ihave Hr0 := (pts_split (F := F) 7).2 $$ [HpS7 Hr0]
  · isplitl [HpS7]; · iexact HpS7
    iexact Hr0
  ihave Hr0 := (pts_split (F := F) 6).2 $$ [HpS6 Hr0]
  · isplitl [HpS6]; · iexact HpS6
    iexact Hr0
  ihave Hr0 := (pts_split (F := F) 5).2 $$ [HpS5 Hr0]
  · isplitl [HpS5]; · iexact HpS5
    iexact Hr0
  ihave Hr0 := (pts_split (F := F) 4).2 $$ [HpS4 Hr0]
  · isplitl [HpS4]; · iexact HpS4
    iexact Hr0
  ihave Hr0 := (pts_split (F := F) 3).2 $$ [HpS3 Hr0]
  · isplitl [HpS3]; · iexact HpS3
    iexact Hr0
  ihave Hr0 := (pts_split (F := F) 2).2 $$ [HpS2 Hr0]
  · isplitl [HpS2]; · iexact HpS2
    iexact Hr0
  ihave Hr0 := (pts_split (F := F) 1).2 $$ [HpS1 Hr0]
  · isplitl [HpS1]; · iexact HpS1
    iexact Hr0
  ihave Hr0 := (pts_split (F := F) 0).2 $$ [HpS0 Hr0]
  · isplitl [HpS0]; · iexact HpS0
    iexact Hr0
  ihave Hr0 := (Entails.of_eq (show (((slotM 0).view.loc (c : Thread nD τ) ↦[(slotM 0).view.set]{restS 0} G m ρ c : sProp 𝕄)) = (scrLoc c ↦[J 0]{fullShare} G m ρ c) from slotPts_eq c 0 fullShare (G m ρ c))) $$ Hr0
  ihave HpV0 := (Entails.of_eq ((show recvPay m ρ c 0 = slotPts c (succ16 0) fullShare (G m ρ c) from rfl).trans (slotPts_eq c (succ16 0) fullShare (G m ρ c)))) $$ HpV0
  ihave HpV1 := (Entails.of_eq ((show recvPay m ρ c 1 = slotPts c (succ16 1) fullShare (G m ρ c) from rfl).trans (slotPts_eq c (succ16 1) fullShare (G m ρ c)))) $$ HpV1
  ihave HpV2 := (Entails.of_eq ((show recvPay m ρ c 2 = slotPts c (succ16 2) fullShare (G m ρ c) from rfl).trans (slotPts_eq c (succ16 2) fullShare (G m ρ c)))) $$ HpV2
  ihave HpV3 := (Entails.of_eq ((show recvPay m ρ c 3 = slotPts c (succ16 3) fullShare (G m ρ c) from rfl).trans (slotPts_eq c (succ16 3) fullShare (G m ρ c)))) $$ HpV3
  ihave HpV4 := (Entails.of_eq ((show recvPay m ρ c 4 = slotPts c (succ16 4) fullShare (G m ρ c) from rfl).trans (slotPts_eq c (succ16 4) fullShare (G m ρ c)))) $$ HpV4
  ihave HpV5 := (Entails.of_eq ((show recvPay m ρ c 5 = slotPts c (succ16 5) fullShare (G m ρ c) from rfl).trans (slotPts_eq c (succ16 5) fullShare (G m ρ c)))) $$ HpV5
  ihave HpV6 := (Entails.of_eq ((show recvPay m ρ c 6 = slotPts c (succ16 6) fullShare (G m ρ c) from rfl).trans (slotPts_eq c (succ16 6) fullShare (G m ρ c)))) $$ HpV6
  ihave HpV7 := (Entails.of_eq ((show recvPay m ρ c 7 = slotPts c (succ16 7) fullShare (G m ρ c) from rfl).trans (slotPts_eq c (succ16 7) fullShare (G m ρ c)))) $$ HpV7
  ihave HpV8 := (Entails.of_eq ((show recvPay m ρ c 8 = slotPts c (succ16 8) fullShare (G m ρ c) from rfl).trans (slotPts_eq c (succ16 8) fullShare (G m ρ c)))) $$ HpV8
  ihave HpV9 := (Entails.of_eq ((show recvPay m ρ c 9 = slotPts c (succ16 9) fullShare (G m ρ c) from rfl).trans (slotPts_eq c (succ16 9) fullShare (G m ρ c)))) $$ HpV9
  ihave HpV10 := (Entails.of_eq ((show recvPay m ρ c 10 = slotPts c (succ16 10) fullShare (G m ρ c) from rfl).trans (slotPts_eq c (succ16 10) fullShare (G m ρ c)))) $$ HpV10
  ihave HpV11 := (Entails.of_eq ((show recvPay m ρ c 11 = slotPts c (succ16 11) fullShare (G m ρ c) from rfl).trans (slotPts_eq c (succ16 11) fullShare (G m ρ c)))) $$ HpV11
  ihave HpV12 := (Entails.of_eq ((show recvPay m ρ c 12 = slotPts c (succ16 12) fullShare (G m ρ c) from rfl).trans (slotPts_eq c (succ16 12) fullShare (G m ρ c)))) $$ HpV12
  ihave HpV13 := (Entails.of_eq ((show recvPay m ρ c 13 = slotPts c (succ16 13) fullShare (G m ρ c) from rfl).trans (slotPts_eq c (succ16 13) fullShare (G m ρ c)))) $$ HpV13
  ihave HpV14 := (Entails.of_eq ((show recvPay m ρ c 14 = slotPts c (succ16 14) fullShare (G m ρ c) from rfl).trans (slotPts_eq c (succ16 14) fullShare (G m ρ c)))) $$ HpV14
  ihave Hall := (Entails.of_eq ((Ring.pointsTo_blocks (Ix := Unit) (Name := ℕ) (U := UU) (Lvl := ℕ) (q := fullShare) J J_disjoint J_cover (G m ρ c)).trans (bigSep_F16 _)).symm) $$ [Hr0 HpV0 HpV1 HpV2 HpV3 HpV4 HpV5 HpV6 HpV7 HpV8 HpV9 HpV10 HpV11 HpV12 HpV13 HpV14]
  · isplitl [Hr0]; · iexact Hr0
    isplitl [HpV0]; · iexact HpV0
    isplitl [HpV1]; · iexact HpV1
    isplitl [HpV2]; · iexact HpV2
    isplitl [HpV3]; · iexact HpV3
    isplitl [HpV4]; · iexact HpV4
    isplitl [HpV5]; · iexact HpV5
    isplitl [HpV6]; · iexact HpV6
    isplitl [HpV7]; · iexact HpV7
    isplitl [HpV8]; · iexact HpV8
    isplitl [HpV9]; · iexact HpV9
    isplitl [HpV10]; · iexact HpV10
    isplitl [HpV11]; · iexact HpV11
    isplitl [HpV12]; · iexact HpV12
    isplitl [HpV13]; · iexact HpV13
    iexact HpV14
  iapply (wp_load 𝒱₀ (c : Thread nD τ) none Set.univ (m := scrM) (Finset.subset_univ _)) $$ Hall; iintro Hall
  rw [read_scr]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hall HzS0 HzS1 HzS2 HzS3 HzS4 HzS5 HzS6 HzS7 HzS8 HzS9 HzS10 HzS11 HzS12 HzS13 HzS14 HzV0 HzV1 HzV2 HzV3 HzV4 HzV5 HzV6 HzV7 HzV8 HzV9 HzV10 HzV11 HzV12 HzV13 HzV14 Hun]
  · isplitl [Hall]; · iexact Hall
    isplitl [HzS0 HzS1 HzS2 HzS3 HzS4 HzS5 HzS6 HzS7 HzS8 HzS9 HzS10 HzS11 HzS12 HzS13 HzS14]
    · iapply (Entails.of_eq (bigSep_D (fun j : D => (semVal (sendCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      iexact HzS14
    isplitl [HzV0 HzV1 HzV2 HzV3 HzV4 HzV5 HzV6 HzV7 HzV8 HzV9 HzV10 HzV11 HzV12 HzV13 HzV14]
    · iapply (Entails.of_eq (bigSep_D (fun j : D => (semVal (recvCell c j) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      isplitl [HzV7]; · iexact HzV7
      isplitl [HzV8]; · iexact HzV8
      isplitl [HzV9]; · iexact HzV9
      isplitl [HzV10]; · iexact HzV10
      isplitl [HzV11]; · iexact HzV11
      isplitl [HzV12]; · iexact HzV12
      isplitl [HzV13]; · iexact HzV13
      iexact HzV14
    iexact Hun
  isplitl [HO]
  · iexists (insert (SemLoc.dma (recvQ 14), ()) (insert (SemLoc.dma (sendQ 14), ()) (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))))))
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelIdeal.Mean.sound_body' depends on axioms: [propext, Classical.choice, Quot.sound] -/
#guard_msgs in #print axioms sound_body

end Body
end Cert.KernelIdeal.Mean
end
-- ==== Proof.Launch.lean ====
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.KernelIdeal.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Body

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-! ## The launch -/

/-- The kernel's own semaphores: the two that no copy uses, the fifteen send and the fifteen receive semaphores. -/
abbrev OK : Type := Bool ⊕ (D ⊕ D)
def osem : OK → SemLoc sig
  | .inl false => .dma (⟨2, by decide⟩ : DmaSem sig)
  | .inl true => .dma (⟨18, by decide⟩ : DmaSem sig)
  | .inr (.inl j) => .dma (sendQ j)
  | .inr (.inr j) => .dma (recvQ j)

theorem ownSemFacts : Pipeline.OwnSemFacts cfg0.spec osem := by decide

theorem share_eq (c : Dev nD) (w : Fin cfg0.W) : (dats m ρ 0 c).share w = fullShare := by unfold Dat.share; split <;> rfl

/-- A conjunction over a device's cells, by kind. -/
def per (Φ : GSem nD τ sig → sProp 𝕄) (c : Dev nD) : sProp 𝕄 :=
  iprop(Φ (barCell c) ∗ (bigSep Finset.univ fun j : D => Φ (sendCell c j)) ∗ bigSep Finset.univ fun j : D => Φ (recvCell c j))

omit [FloatOps F] in
theorem bigSep_ring (Φ : GSem nD τ sig → sProp 𝕄) : bigSep ringCells Φ = bigSep Finset.univ fun c : Dev nD => per Φ c := by
  unfold ringCells; rw [bigSep_map, bigSep_univ_prod]
  refine bigSep_congr fun c _ => ?_
  rw [bigSep_univ_sum, bigSep_univ_sum, bigSep_univ_of_subsingleton ()]; rfl

/-- The duty tokens as minted, by device and kind: the fifteen of its barrier cell, one per send cell, one per receive cell. -/
abbrev TK : Type := D ⊕ (D ⊕ D)
def tokOf (x : Dev nD × TK) : GSem nD τ sig × ℕ × D := match x.2 with
  | .inl j => (barCell x.1, 0, j)
  | .inr (.inl j) => (sendCell x.1 j, 0, 0)
  | .inr (.inr j) => (recvCell x.1 j, 0, 0)
def tkey : TK → SemLoc sig × D
  | .inl j => (.reg barS, j)
  | .inr (.inl j) => (.dma (sendQ j), 0)
  | .inr (.inr j) => (.dma (recvQ j), 0)
theorem tkey_injective : Function.Injective tkey := by decide
theorem tokOf_injective : Function.Injective (tokOf : Dev nD × TK → GSem nD τ sig × ℕ × D) := by
  rintro ⟨c, k⟩ ⟨c', k'⟩ h
  have h1 : c = c' := by
    have := congrArg (fun x : GSem nD τ sig × ℕ × D => x.1.1.1) h
    rcases k with j | j | j <;> rcases k' with j' | j' | j' <;> exact this
  subst h1
  have h2 : tkey k = tkey k' := by
    rcases k with j | j | j <;> rcases k' with j' | j' | j' <;> exact congrArg (fun x : GSem nD τ sig × ℕ × D => (x.1.2, x.2.2)) h
  rw [tkey_injective h2]
def ringToks : Finset (GSem nD τ sig × ℕ × D) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun j : D => dutyTok ER (barCell c) 0 j) ∗ (bigSep Finset.univ fun j : D => dutyTok ER (sendCell c j) 0 0)
    ∗ bigSep Finset.univ fun j : D => dutyTok ER (recvCell c j) 0 0)

omit [FloatOps F] in
theorem bigSep_toks : bigSep ringToks (fun x => (dutyTok ER x.1 x.2.1 x.2.2 : sProp 𝕄)) = bigSep Finset.univ fun c : Dev nD => toks (F := F) c := by
  unfold ringToks; rw [bigSep_map, bigSep_univ_prod]
  refine bigSep_congr fun c _ => ?_
  rw [bigSep_univ_sum, bigSep_univ_sum]; rfl

/-- What the launch element deals device c: -/
def Gl (c : Dev nD) : sProp 𝕄 :=
  iprop(per (fun g => roundState ER (Rd m ρ) g 0) c ∗ per (fun g => reached ER g 0) c ∗ per (fun g => atPos ER g 0 ∅ 0) c ∗ toks (F := F) c)
/-- and what the global step makes of it. -/
def G' (c : Dev nD) : sProp 𝕄 := iprop((∃ K, ghost m ρ K c) ∗ unusedSems (F := F) c)

theorem fund_ring : BI.own (ER (initOf ringCells ringToks)) ⊢ (|==> bigSep Finset.univ (Gl m ρ) : sProp 𝕄) := by
  iintro HX
  imod (Rounds.fund ER (Rd m ρ) ringCells ringToks) $$ HX with ⟨Hst, Hr, Hat, Htok⟩
  imodintro
  ihave Hst' := (Entails.of_eq (bigSep_ring fun g => roundState ER (Rd m ρ) g 0)) $$ Hst
  ihave Hat' := (Entails.of_eq (bigSep_ring (F := F) fun g => atPos ER g 0 ∅ 0)) $$ Hat
  ihave Hr' := (Entails.of_eq (bigSep_ring (F := F) fun g => reached ER g 0)) $$ Hr
  ihave Htok' := (Entails.of_eq (bigSep_toks (F := F))) $$ Htok
  unfold Gl; simp only [bigSep_sep']
  isplitl [Hst']; · iexact Hst'
  isplitl [Hr']; · iexact Hr'
  isplitl [Hat']; · iexact Hat'
  iexact Htok'

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(unusedSems (F := F) c ∗ (bigSep Finset.univ fun j : D => semVal (sendCell c j) 0) ∗ bigSep Finset.univ fun j : D => semVal (recvCell c j) 0) := by
  unfold Pipeline.ownSems0 unusedSems
  rw [bigSep_univ_sum, bigSep_univ_sum, bigSep_bool]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem alloc_one (g : GSem nD τ sig) :
    iprop(semVal g 0 ∗ roundState ER (Rd m ρ) g 0) ⊢ (|={Set.univ}=> iprop(∃ κ : ℕ, cellInv ER (Rd m ρ) κ g) : sProp 𝕄) :=
  (Rounds.body_intro ER (Rd m ρ) g).trans inv_alloc

theorem alloc_fam (Ψ : D → GSem nD τ sig) :
    iprop((bigSep Finset.univ fun j : D => semVal (Ψ j) 0) ∗ bigSep Finset.univ fun j : D => roundState ER (Rd m ρ) (Ψ j) 0)
      ⊢ (|={Set.univ}=> bigSep Finset.univ fun j : D => iprop(∃ κ : ℕ, cellInv ER (Rd m ρ) κ (Ψ j)) : sProp 𝕄) := by
  rw [← bigSep_sep']
  exact (bigSep_mono fun j _ => alloc_one m ρ (Ψ j)).trans (bigSep_fupd _ _)

theorem core_alloc (c : Dev nD) :
    iprop(Pipeline.ownSems0 (Ix := Unit) (Name := ℕ) (U := UU) (Lvl := ℕ) (Val := Elt F) (τ := τ) osem c ∗ unscopedSems0 c ∗ Gl m ρ c)
      ⊢ |={Set.univ}=> iprop(per (fun g => iprop(∃ κ : ℕ, cellInv ER (Rd m ρ) κ g)) c ∗ per (fun g => reached ER g 0) c
          ∗ per (fun g => atPos ER g 0 ∅ 0) c ∗ toks (F := F) c ∗ unusedSems (F := F) c) := by
  rw [ownSems0_eq, unscopedSems0_eq]
  unfold Gl per
  iintro ⟨⟨Hun, HvS, HvV⟩, HvB, ⟨HsB, HsS, HsV⟩, Hr, Hat, Htok⟩
  imod (alloc_one m ρ (barCell c)) $$ [HvB HsB] with HiB
  · isplitl [HvB] <;> iassumption
  imod (alloc_fam m ρ (sendCell c)) $$ [HvS HsS] with HiS
  · isplitl [HvS] <;> iassumption
  imod (alloc_fam m ρ (recvCell c)) $$ [HvV HsV] with HiV
  · isplitl [HvV] <;> iassumption
  imodintro
  isplitl [HiB HiS HiV]
  · isplitl [HiB]; · iexact HiB
    isplitl [HiS]; · iexact HiS
    iexact HiV
  isplitl [Hr]; · iexact Hr
  isplitl [Hat]; · iexact Hat
  isplitl [Htok]; · iexact Htok
  iexact Hun

/-- The tokens of the duties device c pays. -/
def payToks (c : Dev nD) : sProp 𝕄 :=
  iprop((bigSep Finset.univ fun j : D => dutyTok ER (barCell (peerTo c j)) 0 j.rev) ∗ (bigSep Finset.univ fun j : D => dutyTok ER (sendCell c j) 0 0)
    ∗ bigSep Finset.univ fun j : D => dutyTok ER (recvCell (peerTo c j) j) 0 0)

def stepE (j : D) : Dev nD ≃ Dev nD := ⟨fun c => peerTo c j, fun c => peerFrom c j, fun c => peerFrom_peerTo c j, fun c => peerTo_peerFrom c j⟩

omit [FloatOps F] in
/-- Every token goes to the device that pays its duty: a barrier cell's token j to the device j + 1 places on, a receive
    cell's to the device j + 1 places back. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep']
  have hB : (bigSep Finset.univ fun c : Dev nD => bigSep Finset.univ fun j : D => (dutyTok ER (barCell c) 0 j : sProp 𝕄))
      = bigSep Finset.univ fun c : Dev nD => bigSep Finset.univ fun j : D => (dutyTok ER (barCell (peerTo c j)) 0 j.rev : sProp 𝕄) := by
    rw [bigSep_univ_comm, bigSep_univ_comm (fun (c : Dev nD) (j : D) => (dutyTok ER (barCell (peerTo c j)) 0 j.rev : sProp 𝕄)),
      bigSep_univ_equiv Fin.revPerm (fun j : D => bigSep Finset.univ fun c : Dev nD => (dutyTok ER (barCell c) 0 j : sProp 𝕄))]
    refine bigSep_congr fun j _ => ?_
    rw [bigSep_univ_equiv (stepE j) (fun c : Dev nD => (dutyTok ER (barCell c) 0 (Fin.revPerm j) : sProp 𝕄))]
    rfl
  have hV : (bigSep Finset.univ fun c : Dev nD => bigSep Finset.univ fun j : D => (dutyTok ER (recvCell c j) 0 0 : sProp 𝕄))
      = bigSep Finset.univ fun c : Dev nD => bigSep Finset.univ fun j : D => (dutyTok ER (recvCell (peerTo c j) j) 0 0 : sProp 𝕄) := by
    rw [bigSep_univ_comm, bigSep_univ_comm (fun (c : Dev nD) (j : D) => (dutyTok ER (recvCell (peerTo c j) j) 0 0 : sProp 𝕄))]
    refine bigSep_congr fun j _ => ?_
    rw [bigSep_univ_equiv (stepE j) (fun c : Dev nD => (dutyTok ER (recvCell c j) 0 0 : sProp 𝕄))]
    rfl
  rw [hB, hV]

theorem ghost_intro (K : GSem nD τ sig → ℕ) (c : Dev nD) :
    iprop(records m ρ K ∗ (per (fun g => atPos ER g 0 ∅ 0) c ∗ payToks (F := F) c ∗ unusedSems (F := F) c)) ⊢ G' m ρ c := by
  unfold per payToks G' ghost
  iintro ⟨#HR, ⟨HaB, HaS, HaV⟩, ⟨HtB, HtS, HtV⟩, Hun⟩
  isplitl [HaB HaS HaV HtB HtS HtV]
  · iexists K
    isplitr; · iexact HR
    isplitl [HaB]; · iexact HaB
    isplitl [HaS]; · iexact HaS
    isplitl [HaV]; · iexact HaV
    isplitl [HtB]; · iexact HtB
    isplitl [HtS]; · iexact HtS
    iexact HtV
  iexact Hun

theorem regroup :
    (bigSep Finset.univ fun c : Dev nD => iprop(per (fun g => iprop(∃ κ : ℕ, cellInv ER (Rd m ρ) κ g)) c ∗ per (fun g => reached ER g 0) c
          ∗ per (fun g => atPos ER g 0 ∅ 0) c ∗ toks (F := F) c ∗ unusedSems (F := F) c) : sProp 𝕄)
      ⊢ bigSep Finset.univ (G' m ρ) := by
  rw [bigSep_sep', bigSep_sep', bigSep_sep', bigSep_sep',
    ← bigSep_ring (fun g => iprop(∃ κ : ℕ, cellInv ER (Rd m ρ) κ g)), ← bigSep_ring (F := F) (fun g => reached ER g 0)]
  iintro ⟨HI, #HR, Hat, Htok, Hun⟩
  ihave HK := (BI.bigSep_exists_pi ringCells (fun (g : GSem nD τ sig) (κ : ℕ) => (cellInv ER (Rd m ρ) κ g : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep', bigSep_sep']
    isplitl [Hat]; · iexact Hat
    isplitl [Htk]; · iexact Htk
    iexact Hun

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ Gl m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem cred_ones (g : GSem nD τ sig) (s : Finset D) :
    (bigSep s fun _ : D => (cred (tallyAt g () 1) : sProp 𝕄)) ⊢ cred (tallyAt g () s.card) := by
  classical
  induction s using Finset.induction_on with
  | empty => rw [bigSep_empty, Finset.card_empty]; iintro -; rw [show (tallyAt g () 0 : CellTallies nD τ sig Unit) = 0 from by unfold tallyAt tallyOn; simp, cred_zero]; iempintro
  | insert a s ha ih =>
    have e : (bigSep (insert a s) fun _ : D => (cred (tallyAt g () 1) : sProp 𝕄)) = iprop(cred (tallyAt g () 1) ∗ bigSep s fun _ : D => (cred (tallyAt g () 1) : sProp 𝕄)) := bigSep_insert ha
    rw [e, Finset.card_insert_of_notMem ha, add_comm, ← tallyAt_add]
    iintro ⟨H1, Hs⟩
    iapply (cred_add _ _).2
    isplitl [H1]; · iexact H1
    iapply ih; iexact Hs

theorem creds_bar (c : Dev nD) :
    (bigSep Finset.univ fun j : D => Pipeline.launchCred (fun d => tallyAt (barCell (peerTo d j)) () 1) c : sProp 𝕄) ⊢ cred (tallyAt (barCell c) () 15) :=
  (bigSep_mono (s := Finset.univ) fun (j : D) _ =>
      Pipeline.launchCred_tallyAt (Ix := Unit) (Name := ℕ) (U := UU) (Lvl := ℕ) (Val := Elt F) (SemLoc.reg barS) (fun d => peerTo d j) (fun d => peerFrom d j)
        (fun d => peerTo_peerFrom d j) (fun d => peerFrom_peerTo d j) () 1 c).trans
    ((cred_ones (F := F) (barCell c) Finset.univ).trans (Entails.of_eq (by rw [Finset.card_univ, Fintype.card_fin])))
theorem creds_recv (c : Dev nD) :
    (bigSep Finset.univ fun j : D => Pipeline.launchCred (fun d => tallyAt (recvCell (peerTo d j) j) () N) c : sProp 𝕄)
      ⊢ bigSep Finset.univ fun j : D => cred (tallyAt (recvCell c j) () N) :=
  bigSep_mono (s := Finset.univ) fun (j : D) _ =>
      Pipeline.launchCred_tallyAt (Ix := Unit) (Name := ℕ) (U := UU) (Lvl := ℕ) (Val := Elt F) (SemLoc.dma (recvQ j)) (fun d => peerTo d j) (fun d => peerFrom d j)
        (fun d => peerTo_peerFrom d j) (fun d => peerFrom_peerTo d j) () N c

theorem creds (c : Dev nD) :
    (Pipeline.launchCred O₀ c : sProp 𝕄) ⊢ iprop(cred (tallyAt (barCell c) () 15) ∗ bigSep Finset.univ fun j : D => cred (tallyAt (recvCell c j) () N)) := by
  show (Pipeline.launchCred (fun d => Ox d 0 + Osig d 0) c : sProp 𝕄) ⊢ _
  rw [Pipeline.launchCred_add]
  unfold Ox Osig
  rw [Pipeline.launchCred_sum, Pipeline.launchCred_sum, geq_zero]
  iintro ⟨HX, HS⟩
  isplitl [HS]
  · iapply (creds_bar (F := F) c); iexact HS
  · iapply (creds_recv (F := F) c); iexact HX

/-! ### The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  icases HG with ⟨HG, Hun⟩
  isplitl
  · isplitl [HG]; · iexact HG
    isplitl [H1]; · iexact H1
    isplitl [HN]; · iexact HN
    isplitl [Hlev]; · iexact Hlev
    iexact Hun
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV, Hun⟩
  isplitr; · iempintro
  isplitl [HzS HzV Hun]
  · isplitl [Hun]; · iexact Hun
    isplitl [HzS] <;> iassumption
  iexists (G m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values, from any memory with zero counters: every weakly fair execution
    terminates, and every final state has each window's array at its computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gl m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Mean.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The one write-back writes the result: the block is the whole array, read through zero offsets. -/
theorem flushed_o (c : Dev nD) (t : Fin cfg0.N) (hf : (cfg0.win 1).flush t = true) :
    (dats m ρ 0 c).flushed 1 t = ((cfg0.win 1).blk t).view.read (Elt F) (outAt m ρ c) := by
  rw [fin_N t]
  show (cfg0.win 1).cut (grid0.coords t₀) (outAt m ρ c) = _
  have hz' : (fun a => win0_1.index t₀ a * main_v1.ty.shape.size a) = fun _ => 0 := funext fun a => by fin_cases a <;> decide
  exact (Memref.read_access_unit_zero (Elt F) main_v1 hz' (fun a => by rw [congrFun hz' a]; simp) (outAt m ρ c)).symm

/-- The result array after the run holds the kernel's result. -/
theorem finalA_o (c : Dev nD) : finalA m ρ c (1 : Fin 2) = outAt m ρ c :=
  (dats (F := F) m ρ 0 c).arrAt_eq_of_cover (1 : Fin 2) (outAt m ρ c) (flushed_o m ρ c) fun i => ⟨t₀, rfl, by
      show i ∈ ((View.whole main_v1).slice (win0_1.rect t₀)).set
      rw [View.set_slice_whole, Rect.mem_set_unit]
      intro a
      have h0 : (i 0 : Nat) < 1 := (i 0).isLt
      have h1 : (i 1 : Nat) < 1024 := (i 1).isLt
      match a with
      | ⟨0, _⟩ =>
        show win0_1.index t₀ 0 * win0_1.size 0 ≤ (i 0 : Nat) ∧ (i 0 : Nat) < win0_1.index t₀ 0 * win0_1.size 0 + win0_1.xsize (grid0.coords t₀) 0
        rw [show win0_1.index t₀ 0 * win0_1.size 0 = 0 from by decide +kernel, show win0_1.xsize (grid0.coords t₀) 0 = 1 from by decide +kernel]; omega
      | ⟨1, _⟩ =>
        show win0_1.index t₀ 1 * win0_1.size 1 ≤ (i 1 : Nat) ∧ (i 1 : Nat) < win0_1.index t₀ 1 * win0_1.size 1 + win0_1.xsize (grid0.coords t₀) 1
        rw [show win0_1.index t₀ 1 * win0_1.size 1 = 0 from by decide +kernel, show win0_1.xsize (grid0.coords t₀) 1 = 1024 from by decide +kernel]; omega⟩

/-- A device's block of the argument, read through its window, is its argument buffer. -/
theorem xblk_eq (c : Dev nD) : xblk m ρ c = m ((c : Thread nD τ).loc main_arg0) := by
  unfold xblk
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) (m ((c : Thread nD τ).loc main_arg0))

/-- The run with every array named: the result at the kernel's value, the argument unchanged. -/
theorem run : θ_run defs (onTc (τ := τ) (main (F := F))) ⟨m, fun _ => 0, ρ⟩ fun r => ∀ c : Dev nD,
      r.2.mem ((c.tc : Thread nD τ).loc main_v1) = outAt m ρ c
      ∧ r.2.mem ((c.tc : Thread nD τ).loc main_arg0) = m ((c.tc : Thread nD τ).loc main_arg0) :=
  (θ_run defs _ _).mono (fun _ h c => ⟨((h c) 1).trans (finalA_o m ρ c), ((h c) 0).trans (finalA_x m ρ c)⟩) (run_main m ρ)

end Cert.KernelIdeal.Mean
end
-- ==== Proof.Bits.Model.lean ====
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's own copy beside one whose duty names are the fifteen offsets -/

abbrev D : Type := Fin 15
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh as a cycle of sixteen -/

def shift (c : Dev nD) (d : ℕ) : Dev nD := ⟨(c.val + d) % 16, Nat.mod_lt _ (by decide)⟩
/-- The device j + 1 places after c: where the signal and the copy number j of c go. -/
def peerTo (c : Dev nD) (j : D) : Dev nD := shift c (j.val + 1)
/-- The device j + 1 places before c: whose copy number j lands on c. -/
def peerFrom (c : Dev nD) (j : D) : Dev nD := shift c (15 - j.val)

theorem peerFrom_peerTo : ∀ (c : Dev nD) (j : D), peerFrom (peerTo c j) j = c := by decide
theorem peerTo_peerFrom : ∀ (c : Dev nD) (j : D), peerTo (peerFrom c j) j = c := by decide
theorem peerTo_rev : ∀ (c : Dev nD) (j : D), peerTo (peerTo c j) j.rev = c := by decide
theorem shift_16 : ∀ c : Dev nD, shift c 16 = c := by decide
theorem peerTo_ne : ∀ (c : Dev nD) (j : D), peerTo c j ≠ c := by decide
theorem peerTo_inj : ∀ (c : Dev nD) (j j' : D), peerTo c j = peerTo c j' → j = j' := by decide

/-! ## Cells -/

abbrev barS : Sem sig := (SemArray.scalar (sig.barrier 0 rfl) : Sems sig S_).sem
def sendQ (j : D) : DmaSem sig := ⟨3 + j.val, by have := j.isLt; show 3 + j.val < 34; omega⟩
def recvQ (j : D) : DmaSem sig := ⟨19 + j.val, by have := j.isLt; show 19 + j.val < 34; omega⟩

abbrev barCell (c : Dev nD) : GSem nD τ sig := ((c : Thread nD τ), .reg barS)
abbrev sendCell (c : Dev nD) (j : D) : GSem nD τ sig := ((c : Thread nD τ), .dma (sendQ j))
abbrev recvCell (c : Dev nD) (j : D) : GSem nD τ sig := ((c : Thread nD τ), .dma (recvQ j))

/-! ## The sixteen rows of the scratch buffer -/

theorem slot_inb (d : Fin 16) : ∀ a, (![d.val, 0, 0] : Fin 3 → Nat) a + S1x1x1024.size a ≤ S16x1x1024.size a := by
  intro a; have := d.isLt; fin_cases a <;> simp <;> omega

abbrev slotRect (d : Fin 16) : Rect S16x1x1024 := Rect.unit (s := S16x1x1024) ![d.val, 0, 0] S1x1x1024.size (slot_inb d)
/-- Row d of the scratch buffer as the body names it: a slice squeezed to one row. -/
abbrev slotM (d : Fin 16) : Memref sig .tc .vmem S1x1024 .f32 :=
  ((Memref.whole cc0_scratch0 : Memref sig .tc .vmem S16x1x1024 .f32).slice (slotRect d) (fun _ => rfl)).squeeze S1x1024 squeezes_S1x1x1024_S1x1024

abbrev scrLoc (c : Dev nD) : Loc nD τ sig := (c : Thread nD τ).loc cc0_scratch0

example (c : Dev nD) (d : Fin 16) : (slotM d).view.loc (c : Thread nD τ) = scrLoc c := rfl

/-- The elements of row d. -/
def J (d : Fin 16) : Finset (S16x1x1024.Idx) := (slotRect d).set

omit [FloatOps F] in
theorem slot_set (d : Fin 16) : (slotM d).view.set = J d := by
  show ((View.whole cc0_scratch0).slice (slotRect d) |>.reshape S1x1024 _).set = _
  rw [View.set_reshape, View.set_slice_whole]; rfl

theorem mem_J {d : Fin 16} {i : S16x1x1024.Idx} : i ∈ J d ↔ (i 0).val = d.val := by
  unfold J
  rw [Rect.mem_set_unit]
  constructor
  · intro h; have := h 0; simp at this; omega
  · intro h a; have := (i a).isLt; fin_cases a <;> simp at this ⊢ <;> omega

theorem J_disjoint (d d' : Fin 16) (h : d ≠ d') : Disjoint (J d) (J d') := by
  rw [Finset.disjoint_left]; intro i hi hi'
  exact h (Fin.ext ((mem_J.mp hi).symm.trans (mem_J.mp hi')))

theorem J_cover : Finset.univ.biUnion J = (Finset.univ : Finset S16x1x1024.Idx) := by
  ext i; simp only [Finset.mem_biUnion, Finset.mem_univ, true_and, iff_true]
  exact ⟨⟨(i 0).val, (i 0).isLt⟩, mem_J.mpr rfl⟩

/-! ## Contents: every device's row sums, and the scratch buffer they end in -/

/-- Device c's block of the argument, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- Device c's column sums over its own 4096 rows, as the one row the body stores. -/
def rowv (c : Dev nD) : S1x1x1024.Idx → Elt F .f32 := k0_pay2 (xblk m ρ c)

/-- An index of the scratch buffer sent to row 0. -/
def zero0 (i : S16x1x1024.Idx) : S1x1x1024.Idx := fun a =>
  ⟨if a = 0 then 0 else (i a).val, by have := (i a).isLt; fin_cases a <;> simp at this ⊢ <;> omega⟩

/-- The scratch buffer of device c once every copy has landed: row d holds the column sums of the device d places
    before c. -/
def G (c : Dev nD) : Buf (Elt F) (scrLoc c) := fun i => rowv m ρ (shift c (16 - (i 0).val)) (zero0 i)

theorem shift_back : ∀ (c : Dev nD) (j : D), shift (peerTo c j) (16 - (j.val + 1)) = c := by decide

def succ16 (j : D) : Fin 16 := ⟨j.val + 1, by have := j.isLt; omega⟩

omit [FloatOps F] in
theorem emb_coord (d : Fin 16) (y : S1x1024.Idx) (a : Fin 3) :
    (((slotM d).view.emb y) a : Nat) = (![d.val, 0, 0] : Fin 3 → Nat) a + 1 * ((Shape.reshapeEquiv (squeezes_S1x1x1024_S1x1024).numel_eq y : S1x1x1024.Idx) a : Nat) := rfl

/-- What a copy of row 0 of device c writes into row j + 1 of the device j + 1 places after it is that device's
    final contents there, whatever the row held before. -/
theorem landed_eq (c : Dev nD) (j : D) (fd : Buf (Elt F) (scrLoc (peerTo c j))) :
    ∀ i ∈ J (succ16 j), ((slotM (succ16 j)).view.write (Elt F) fd ((slotM 0).view.read (Elt F) (G m ρ c)) Finset.univ) i = G m ρ (peerTo c j) i := by
  intro i hi
  obtain ⟨y, rfl⟩ := View.exists_emb_of_mem_set (slotM (succ16 j)).view (by rw [slot_set]; exact hi)
  rw [View.write_emb_of_mem _ _ (Finset.mem_univ _), View.read_apply]
  simp only [cast_cast, cast_eq]
  unfold G
  have h0 : ((((slotM 0).view.emb y) 0 : Fin _) : Nat) = 0 := by
    have := emb_coord 0 y 0
    have hz := ((Shape.reshapeEquiv (squeezes_S1x1x1024_S1x1024).numel_eq y : S1x1x1024.Idx) 0).isLt
    simp at this hz ⊢; omega
  have hd : ((((slotM (succ16 j)).view.emb y) 0 : Fin _) : Nat) = j.val + 1 := by
    have := emb_coord (succ16 j) y 0
    have hz := ((Shape.reshapeEquiv (squeezes_S1x1x1024_S1x1024).numel_eq y : S1x1x1024.Idx) 0).isLt
    simp [succ16] at this hz ⊢; omega
  have hz : zero0 ((slotM 0).view.emb y) = zero0 ((slotM (succ16 j)).view.emb y) := by
    funext a; apply Fin.ext; unfold zero0
    fin_cases a
    · simp
    · simp only [emb_coord]; simp
    · simp only [emb_coord]; simp
  rw [h0, hd, hz, Nat.sub_zero, shift_16, shift_back]

/-! ## Shares of the source row: one per copy in flight -/

def restS : ℕ → PosShare TreeShare
  | 0 => fullShare
  | n + 1 => (restS n).right
def shS (n : ℕ) : PosShare TreeShare := (restS n).left

theorem pts_split {ℓ : Loc nD τ sig} {I : Finset (Idx ℓ)} {f : Buf (Elt F) ℓ} (n : ℕ) :
    (ℓ ↦[I]{restS n} f : sProp 𝕄) ⊣⊢ iprop((ℓ ↦[I]{shS n} f) ∗ ℓ ↦[I]{restS (n + 1)} f) :=
  pointsTo_share (PosShare.mem_left_op_right (restS n))

/-! ## The schedule: one round -/

def slotPts (c : Dev nD) (d : Fin 16) (q : PosShare TreeShare) (f : Buf (Elt F) (scrLoc c)) : sProp 𝕄 :=
  (slotM d).view.loc (c : Thread nD τ) ↦[(slotM d).view.set]{q} f

theorem slotPts_eq (c : Dev nD) (d : Fin 16) (q : PosShare TreeShare) (f : Buf (Elt F) (scrLoc c)) :
    slotPts c d q f = (scrLoc c ↦[J d]{q} f : sProp 𝕄) := by unfold slotPts; rw [slot_set]

abbrev N : ℕ := (slotM 0).view.dmaCredit
theorem N_pos : 0 < N := View.dmaCredit_pos _ (by decide)

/-- What the device j + 1 places after c hands c when it signals: its row j + 1, and that its receive cell j is open. -/
def barPay (c : Dev nD) (j : D) : sProp 𝕄 :=
  iprop((∃ f, slotPts (peerTo c j) (succ16 j) fullShare f) ∗ reached ER (recvCell (peerTo c j) j) 0)
def recvPay (c : Dev nD) (j : D) : sProp 𝕄 := slotPts c (succ16 j) fullShare (G m ρ c)
def sendPay (c : Dev nD) (j : D) : sProp 𝕄 := slotPts c 0 (shS j.val) (G m ρ c)

def jOf (q : DmaSem sig) (base : ℕ) : D := ⟨(q.val - base) % 15, Nat.mod_lt _ (by decide)⟩

def isXfer (q : DmaSem sig) : Prop := (3 ≤ q.val ∧ q.val < 18) ∨ 19 ≤ q.val
instance (q : DmaSem sig) : Decidable (isXfer q) := by unfold isXfer; infer_instance

/-- Round 0 only. A barrier cell has fifteen duties of one unit, duty j paid by the device j + 1 places after the owner;
    a send or receive cell of a copy has the one duty 0 of a row's credit. -/
def Rd : Rounds.Schedule (GSem nD τ sig) D 𝕄 where
  duties g r := if r = 0 ∧ g.1.2 = .tc then
      (match g.2 with
        | .reg _ => Finset.univ
        | .dma q => if isXfer q then {0} else ∅)
    else ∅
  unitless _ := False
  amount g _ _ := match g.2 with
    | .reg _ => 1
    | .dma _ => N
  payload g _ d := match g.2 with
    | .reg _ => barPay g.1.1 d
    | .dma q => if q.val < 18 then sendPay m ρ g.1.1 (jOf q 3) else recvPay m ρ g.1.1 (jOf q 19)
  amount_pos g _ _ _ := by
    rcases g with ⟨t, sm⟩
    cases sm
    · exact Nat.one_pos
    · exact N_pos

instance Rd_payload_storable (g : GSem nD τ sig) (r : ℕ) (d : D) :
    BI.Storable (upEmb : UEmb _ 𝕄) ((Rd (F := F) m ρ).payload g r d) := by
  rcases g with ⟨t, sm⟩
  cases sm
  · show BI.Storable upEmb (barPay t.1 d); unfold barPay slotPts; infer_instance
  · rename_i q
    show BI.Storable upEmb (if q.val < 18 then sendPay m ρ t.1 (jOf q 3) else recvPay m ρ t.1 (jOf q 19))
    unfold sendPay recvPay slotPts
    split <;> infer_instance

section Sched
variable (c : Dev nD) (j : D)

theorem jOf_send : jOf (sendQ j) 3 = j := by
  apply Fin.ext; show (3 + j.val - 3) % 15 = j.val; have := j.isLt; omega
theorem jOf_recv : jOf (recvQ j) 19 = j := by
  apply Fin.ext; show (19 + j.val - 19) % 15 = j.val; have := j.isLt; omega
theorem isXfer_send : isXfer (sendQ j) := Or.inl ⟨by show 3 ≤ 3 + j.val; omega, by show 3 + j.val < 18; have := j.isLt; omega⟩
theorem isXfer_recv : isXfer (recvQ j) := Or.inr (by show 19 ≤ 19 + j.val; omega)

theorem duties_bar : (Rd (F := F) m ρ).duties (barCell c) 0 = Finset.univ := by dsimp only [Rd]; rw [if_pos ⟨rfl, rfl⟩]
theorem duties_send : (Rd (F := F) m ρ).duties (sendCell c j) 0 = {0} := by
  dsimp only [Rd]; rw [if_pos ⟨rfl, rfl⟩]; exact if_pos (isXfer_send j)
theorem duties_recv : (Rd (F := F) m ρ).duties (recvCell c j) 0 = {0} := by
  dsimp only [Rd]; rw [if_pos ⟨rfl, rfl⟩]; exact if_pos (isXfer_recv j)
theorem duties_later (g : GSem nD τ sig) : ∀ r, 1 ≤ r → (Rd (F := F) m ρ).duties g r = ∅ :=
  fun r hr => by dsimp only [Rd]; rw [if_neg fun h => by omega]

theorem amount_bar (d : D) : (Rd (F := F) m ρ).amount (barCell c) 0 d = 1 := rfl
theorem amount_send (d : D) : (Rd (F := F) m ρ).amount (sendCell c j) 0 d = N := rfl
theorem amount_recv (d : D) : (Rd (F := F) m ρ).amount (recvCell c j) 0 d = N := rfl

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : D) : (Rd (F := F) m ρ).payload (barCell c) 0 d = barPay c d := rfl
theorem payload_send (d : D) : (Rd (F := F) m ρ).payload (sendCell c j) 0 d = sendPay m ρ c j := by
  show (if (sendQ j).val < 18 then sendPay m ρ c (jOf (sendQ j) 3) else recvPay m ρ c (jOf (sendQ j) 19)) = _
  rw [if_pos (by show 3 + j.val < 18; have := j.isLt; omega), jOf_send]
theorem payload_recv (d : D) : (Rd (F := F) m ρ).payload (recvCell c j) 0 d = recvPay m ρ c j := by
  show (if (recvQ j).val < 18 then sendPay m ρ c (jOf (recvQ j) 3) else recvPay m ρ c (jOf (recvQ j) 19)) = _
  rw [if_neg (by show ¬ 19 + j.val < 18; omega), jOf_recv]

theorem rest_bar : bigSep ((Rd (F := F) m ρ).duties (barCell c) 0 \ ∅) (fun d => (Rd (F := F) m ρ).payload (barCell c) 0 d) = bigSep Finset.univ (fun d => barPay (F := F) c d) := by
  rw [Finset.sdiff_empty, duties_bar]; rfl
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

/-- The printed semaphores of copy j + 1 are the cells' own. -/
example : ((cc0_scratch1.slice (Rect.unit (s := S16) ![1] S1.size inb_S16_S1_1)).squeeze S_ squeezes_S1_S_).sem = sendQ 0 := rfl
example : (slotM (succ16 3)).view.amount (.dma (recvQ 3)) = N := rfl

end Sched

end Cert.Kernel.Mean
end
-- ==== Proof.Bits.Steps.lean ====
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Bits.Model

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of the protocol -/

/-- A device's cells by kind: its barrier cell, its fifteen send cells, its fifteen receive cells. -/
abbrev CK : Type := Unit ⊕ (D ⊕ D)
def csem : CK → SemLoc sig
  | .inl _ => .reg barS
  | .inr (.inl j) => .dma (sendQ j)
  | .inr (.inr j) => .dma (recvQ j)
abbrev kcell (ck : Dev nD × CK) : GSem nD τ sig := ((ck.1 : Thread nD τ), csem ck.2)

theorem csem_injective : Function.Injective csem := by decide
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) (j : D) : sendCell c j ∈ ringCells := Finset.mem_map.mpr ⟨(c, .inr (.inl j)), Finset.mem_univ _, rfl⟩
theorem recv_mem (c : Dev nD) (j : D) : recvCell c j ∈ ringCells := Finset.mem_map.mpr ⟨(c, .inr (.inr j)), Finset.mem_univ _, rfl⟩

/-- Every cell's invariant at its name, and that round 0 of every cell is open: what all devices share. -/
def records (K : GSem nD τ sig → ℕ) : sProp 𝕄 :=
  iprop((bigSep ringCells fun g => cellInv ER (Rd m ρ) (K g) g) ∗ bigSep ringCells fun g => reached ER g 0)

instance records_persistent (K : GSem nD τ sig → ℕ) : BI.Persistent (records m ρ K) := by unfold records; infer_instance

theorem invs_at (K : GSem nD τ sig → ℕ) {g : GSem nD τ sig} (hg : g ∈ ringCells) :
    (bigSep ringCells fun g => cellInv ER (Rd m ρ) (K g) g : sProp 𝕄) ⊢ cellInv ER (Rd m ρ) (K g) g := bigSep_elim hg
theorem reacheds_at {g : GSem nD τ sig} (hg : g ∈ ringCells) :
    (bigSep ringCells fun g => reached ER g 0 : sProp 𝕄) ⊢ reached ER g 0 := bigSep_elim hg
theorem inv_at (K : GSem nD τ sig → ℕ) {g : GSem nD τ sig} (hg : g ∈ ringCells) : records m ρ K ⊢ cellInv ER (Rd m ρ) (K g) g := by
  unfold records; iintro ⟨H, -⟩; iapply (invs_at m ρ K hg); iexact H
theorem reached_at (K : GSem nD τ sig → ℕ) {g : GSem nD τ sig} (hg : g ∈ ringCells) : records m ρ K ⊢ reached ER g 0 := by
  unfold records; iintro ⟨-, H⟩; iapply (reacheds_at (F := F) hg); iexact H

/-! ## What a device owes, by how far it has got -/

def geq (n : ℕ) : Finset D := Finset.univ.filter fun j => n ≤ j.val
theorem geq_zero : geq 0 = Finset.univ := by unfold geq; simp
theorem geq_succ (j : D) : geq j.val = insert j (geq (j.val + 1)) := by
  ext x; simp only [geq, Finset.mem_filter, Finset.mem_univ, true_and, Finset.mem_insert]
  constructor
  · intro h; by_cases hx : x = j
    · exact Or.inl hx
    · exact Or.inr (by have : x.val ≠ j.val := fun e => hx (Fin.ext e); omega)
  · rintro (rfl | h) <;> omega
theorem not_mem_geq_succ (j : D) : j ∉ geq (j.val + 1) := by simp [geq]
theorem geq_15 : geq 15 = ∅ := by
  ext x; simp only [geq, Finset.mem_filter, Finset.mem_univ, true_and, Finset.notMem_empty, iff_false]; have := x.isLt; omega

/-- The barrier units still to be signalled, from signal n on; -/
def Osig (c : Dev nD) (n : ℕ) : CellTallies nD τ sig Unit := ∑ j ∈ geq n, tallyAt (barCell (peerTo c j)) () 1
/-- the receive credit still to be paid, from copy n on. -/
def Ox (c : Dev nD) (n : ℕ) : CellTallies nD τ sig Unit := ∑ j ∈ geq n, tallyAt (recvCell (peerTo c j) j) () N
def O₀ (c : Dev nD) : CellTallies nD τ sig Unit := Ox c 0 + Osig c 0

theorem Osig_succ (c : Dev nD) (j : D) : Osig c j.val = Osig c (j.val + 1) + tallyAt (barCell (peerTo c j)) () 1 := by
  unfold Osig; rw [geq_succ j, Finset.sum_insert (not_mem_geq_succ j), add_comm]
theorem Ox_succ (c : Dev nD) (j : D) : Ox c j.val = Ox c (j.val + 1) + tallyAt (recvCell (peerTo c j) j) () N := by
  unfold Ox; rw [geq_succ j, Finset.sum_insert (not_mem_geq_succ j), add_comm]
theorem Osig_15 (c : Dev nD) : Osig c 15 = 0 := by unfold Osig; rw [geq_15, Finset.sum_empty]
theorem Ox_15 (c : Dev nD) : Ox c 15 = 0 := by unfold Ox; rw [geq_15, Finset.sum_empty]

/-! ## Levels: a barrier cell below every receive cell, everything else at the bottom -/

def L (g : GSem nD τ sig) : Finset Unit := if g.1.2 = .tc then {()} else ∅
def lv (g : GSem nD τ sig) (_ : Unit) : ℕ := match g.2 with
  | .reg _ => 1
  | .dma q => if 19 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Ox_pos {c : Dev nD} {n : ℕ} {g : GSem nD τ sig} {u : Unit} (h : 0 < Ox c n g u) : ∃ j : D, g = recvCell (peerTo c j) j := by
  obtain ⟨j, -, hj⟩ := Pipeline.sum_pos_exists h
  rw [tallyAt_apply] at hj
  by_cases hg : g = recvCell (peerTo c j) j ∧ u = ()
  · exact ⟨j, hg.1⟩
  · rw [if_neg hg] at hj; exact absurd hj (Nat.lt_irrefl 0)
theorem Osig_pos {c : Dev nD} {n : ℕ} {g : GSem nD τ sig} {u : Unit} (h : 0 < Osig c n g u) : ∃ j : D, g = barCell (peerTo c j) := by
  obtain ⟨j, -, hj⟩ := Pipeline.sum_pos_exists h
  rw [tallyAt_apply] at hj
  by_cases hg : g = barCell (peerTo c j) ∧ u = ()
  · exact ⟨j, hg.1⟩
  · rw [if_neg hg] at hj; exact absurd hj (Nat.lt_irrefl 0)

theorem lv_recv (c : Dev nD) (j : D) : lv (recvCell c j) () = 2 := by
  show (if 19 ≤ (recvQ j).val then 2 else 0) = 2; rw [if_pos (by show 19 ≤ 19 + j.val; omega)]
theorem lv_bar (c : Dev nD) : lv (barCell c) () = 1 := rfl

/-- Waiting on its barrier a device owes receive credit only, which sits above. -/
theorem mayWait_bar (c : Dev nD) : (levAts L lv : sProp 𝕄) ⊢ MayWait (c : Thread nD τ) (.reg barS) () (Ox c 0) :=
  Pipeline.mayWait_of_levAts (by rw [L_tc]; exact Finset.mem_singleton_self _) fun g u hg => by
    obtain ⟨j, rfl⟩ := Ox_pos hg
    exact ⟨by rw [L_tc]; exact Finset.mem_singleton_self _, by rw [lv_recv]; show 1 < 2; decide⟩

/-- The pipeline's own staging waits sit below everything a device can owe. -/
theorem mayWait_stage (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), .dma q) () = 0 := by show (if 19 ≤ q.val then 2 else 0) = 0; rw [if_neg (by omega)]
    rcases Pipeline.add_pos_cases hg with h | h
    · obtain ⟨j, rfl⟩ := Ox_pos h
      exact ⟨by rw [L_tc]; exact Finset.mem_singleton_self _, by rw [h0, lv_recv]; decide⟩
    · obtain ⟨j, rfl⟩ := Osig_pos h
      exact ⟨by rw [L_tc]; exact Finset.mem_singleton_self _, by rw [h0, lv_bar]; decide⟩
  · rw [MayWait_zero]; iintro -; iempintro

/-! ## One rule per kind of step of the body, at a symbolic device and a symbolic offset -/

section Steps
variable (K : GSem nD τ sig → ℕ) (c : Dev nD)

/-- Signal number j: to the device j + 1 places on, paying the duty of its barrier cell that is this device's, with the
    row that device will fill and that the receive cell for it is open. -/
theorem sig_step (j : D) (W : Waits sig Unit) (n : Dev nD) (hn : n = peerTo c j) {k' : ℕ} (hk' : 1 = k') {α : Type} {Q : α → sProp 𝕄}
    {k : PUnit → Prog (TpuEff nD τ sig (Elt F) Λ₀ .tc) α} :
    iprop(records m ρ K ∗ owes (c : Thread nD τ) (Ox c 0 + Osig c j.val) W ∗ dutyTok ER (barCell (peerTo c j)) 0 j.rev
        ∗ (∃ f, slotPts (F := F) c (succ16 j.rev) fullShare f))
      ⊢ iprop((owes (c : Thread nD τ) (Ox c 0 + Osig c (j.val + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  subst hn
  iintro ⟨#HR, HO, Ht, Hs⟩ Hk
  iapply (Rounds.wp_signal 𝒱₀ ER (Rd m ρ) (c : Thread nD τ) none (dst := (peerTo c j : Thread nD τ)) (κ := K (barCell (peerTo c j)))
      (d := j.rev) (O₀ := Ox c 0 + Osig c j.val) (by rw [duties_bar]; exact Finset.mem_univ _) (amount_bar m ρ (peerTo c j) j.rev) () (Ox c 0 + Osig c (j.val + 1))
      (by rw [Osig_succ c j, ← add_assoc])) $$ [HO Ht Hs]
  · isplitr; · iapply (inv_at m ρ K (bar_mem _)); iexact HR
    isplitl [HO]; · iexact HO
    isplitl [Ht]; · iexact Ht
    isplitl [Hs]
    · rw [payload_bar]; unfold barPay; rw [peerTo_rev]
      isplitl [Hs]; · iexact Hs
      iapply (reached_at m ρ K (recv_mem _ _)); iexact HR
    · iapply (reached_at m ρ K (bar_mem _)); iexact HR
  iexact Hk

/-- The wait for all fifteen units of the barrier: every peer's row comes with it. -/
theorem bar_wait (W : Waits sig Unit) {k' : ℕ} (hk' : 15 = k') {α : Type} {Q : α → sProp 𝕄}
    {k : PUnit → Prog (TpuEff nD τ sig (Elt F) Λ₀ .tc) α} :
    iprop(records m ρ K ∗ levAts L lv ∗ cred (tallyAt (barCell c) () 15) ∗ owes (c : Thread nD τ) (Ox c 0) W ∗ atPos ER (barCell c) 0 ∅ 0)
      ⊢ iprop(((owes (c : Thread nD τ) (Ox c 0) (insert (SemLoc.reg barS, ()) W) ∗ bigSep Finset.univ (fun j => barPay (F := F) c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (Rd m ρ) (c : Thread nD τ) none (κ := K (barCell c))
      (wpE_semWait_eq 𝒱₀ (c : Thread nD τ) none Set.univ) (Set.mem_univ _) () (O := Ox c 0) (W := W) (R := 0) (m := 0) (T := ∅)
      (by rw [expect_bar])) $$ [Hc HO Hat]
  · isplitr; · iapply (inv_at m ρ K (bar_mem _)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  iapply Hk
  isplitl [HO]; · iexact HO
  iexact Hp

/-- Copy number j: row 0, at one more share of it, into row j + 1 of the device j + 1 places on. -/
theorem send_step (j : D) (W : Waits sig Unit) (n : Dev nD) (hn : n = peerTo c j)
    {hsc : (slotM (succ16 j) : Memref sig (Dev.tc n : Thread nD τ).2.kind .vmem S1x1024 .f32).view.ref.isScScratch = false}
    {hsrc : (slotM 0 : Memref sig .tc .vmem S1x1024 .f32).view.WordExact} {hdst : (slotM (succ16 j) : Memref sig .tc .vmem S1x1024 .f32).view.WordExact}
    {hsem : DmaTarget.Typed .vmem (.dma (recvQ j)) (.remote (Dev.tc n : Thread nD τ) (slotM (succ16 j) : Memref sig .tc .vmem S1x1024 .f32) (.dma (sendQ j)) hsc)}
    {α : Type} {Q : α → sProp 𝕄} {k : PUnit → Prog (TpuEff nD τ sig (Elt F) Λ₀ .tc) α} :
    iprop(records m ρ K ∗ slotPts c 0 (restS j.val) (G m ρ c) ∗ barPay (F := F) c j ∗ owes (c : Thread nD τ) (Ox c j.val) W
        ∗ dutyTok ER (sendCell c j) 0 0 ∗ dutyTok ER (recvCell (peerTo c j) j) 0 0)
      ⊢ iprop(((slotPts c 0 (restS (j.val + 1)) (G m ρ c) ∗ cred (tallyAt (sendCell c j) () N) ∗ owes (c : Thread nD τ) (Ox c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM (succ16 j)) (.dma (sendQ j)) hsc) (.dma (recvQ j)) hsrc hdst hsem) k) Q) := by
  subst hn
  iintro ⟨#HR, Hsrc, Hbp, HO, Hts, Htr⟩ Hk
  unfold barPay
  icases Hbp with ⟨⟨%fd, Hd⟩, #Hrr⟩
  unfold slotPts
  ihave Hs2 := (pts_split (F := F) j.val).1 $$ Hsrc
  icases Hs2 with ⟨Hsh, Hrest⟩
  iapply (Rounds.wp_send_pointsTo 𝒱₀ ER (Rd m ρ) (c : Thread nD τ) none (c' := (Dev.tc (peerTo c j) : Thread nD τ))
      (src := slotM 0) (dst := slotM (succ16 j)) (q := shS j.val) (fs := G m ρ c) (fd := fd)
      (κ₁ := K (sendCell c j)) (κ₂ := K (recvCell (peerTo c j) j))
      (r₁ := 0) (r₂ := 0) (d₁ := 0) (d₂ := 0)
      (by rw [duties_send]; exact Finset.mem_singleton_self _) (by rw [duties_recv]; exact Finset.mem_singleton_self _)
      () () N rfl (amount_send m ρ c j 0) (amount_recv m ρ (peerTo c j) j 0) (Ox c (j.val + 1)) (Ox_succ c j) (W := W)
      (by rw [payload_send]; unfold sendPay slotPts; exact BI.Entails.refl _)
      (by rw [payload_recv]; unfold recvPay slotPts
          exact Entails.of_eq (pointsTo_congr (by rw [slot_set]; exact landed_eq m ρ c j fd)))) $$ [Hsh Hd HO Hts Htr]
  · isplitr; · iapply (inv_at m ρ K (send_mem _ _)); iexact HR
    isplitr; · iapply (inv_at m ρ K (recv_mem _ _)); iexact HR
    isplitl [Hsh]; · iexact Hsh
    isplitl [Hd]; · iexact Hd
    isplitl [HO]; · iexact HO
    isplitl [Hts]; · iexact Hts
    isplitr; · iapply (reached_at m ρ K (send_mem _ _)); iexact HR
    isplitl [Htr]; · iexact Htr
    iexact Hrr
  iintro ⟨Hcr, HO⟩
  iapply Hk
  isplitl [Hrest]; · iexact Hrest
  isplitl [Hcr]; · iexact Hcr
  iexact HO

/-- The wait on send cell j: the share of row 0 lent to copy j comes back, and the cell closes. -/
theorem wsend_step (j : D) (W : Waits sig Unit)
    {hsrc : (slotM (succ16 j) : Memref sig .tc .vmem S1x1024 .f32).view.WordExact} {hdst : (slotM 0 : Memref sig .tc .vmem S1x1024 .f32).view.WordExact}
    {α : Type} {Q : α → sProp 𝕄} {k : PUnit → Prog (TpuEff nD τ sig (Elt F) Λ₀ .tc) α} :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendQ j), ()) W) ∗ semVal (sendCell c j) 0 ∗ sendPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ j) (slotM (succ16 j)) (slotM 0) hsrc hdst) k) Q) := by
  have hN : (slotM 0 : Memref sig .tc .vmem S1x1024 .f32).view.dmaCredit = N := rfl
  iintro ⟨#HR, Hc, HO, Hat⟩ Hk
  iapply (Rounds.wp_wait_rest_token 𝒱₀ ER (Rd m ρ) (c : Thread nD τ) none (κ := K (sendCell c j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at m ρ K (send_mem _ _)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (Rd m ρ) (Set.mem_univ (K (sendCell c j))) (fun h => h) (R := 0 + 1) (duties_later m ρ (sendCell c j))) $$ [Hat] with Hz
  · isplitr; · iapply (inv_at m ρ K (send_mem _ _)); iexact HR
    iexact Hat
  iapply Hk
  isplitl [HO]; · iexact HO
  isplitl [Hz]; · iexact Hz
  iexact Hp

/-- The wait on receive cell j: row j + 1 comes back holding the column sums of the device j + 1 places before. -/
theorem slot_credit : ∀ j : D, (slotM (succ16 j) : Memref sig .tc .vmem S1x1024 .f32).view.dmaCredit = N := by decide

theorem wrecv_step (j : D) (W : Waits sig Unit)
    {hsrc : (slotM 0 : Memref sig .tc .vmem S1x1024 .f32).view.WordExact} {hdst : (slotM (succ16 j) : Memref sig .tc .vmem S1x1024 .f32).view.WordExact}
    {α : Type} {Q : α → sProp 𝕄} {k : PUnit → Prog (TpuEff nD τ sig (Elt F) Λ₀ .tc) α} :
    iprop(records m ρ K ∗ cred (tallyAt (recvCell c j) () N) ∗ owes (c : Thread nD τ) 0 W ∗ atPos ER (recvCell c j) 0 ∅ 0)
      ⊢ iprop(((owes (c : Thread nD τ) 0 (insert (SemLoc.dma (recvQ j), ()) W) ∗ semVal (recvCell c j) 0 ∗ recvPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ j) (slotM 0) (slotM (succ16 j)) hsrc hdst) k) Q) := by
  have hN : (slotM (succ16 j) : Memref sig .tc .vmem S1x1024 .f32).view.dmaCredit = N := slot_credit j
  iintro ⟨#HR, Hc, HO, Hat⟩ Hk
  iapply (Rounds.wp_wait_rest_token 𝒱₀ ER (Rd m ρ) (c : Thread nD τ) none (κ := K (recvCell c j))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at m ρ K (recv_mem _ _)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (Rd m ρ) (Set.mem_univ (K (recvCell c j))) (fun h => h) (R := 0 + 1) (duties_later m ρ (recvCell c j))) $$ [Hat] with Hz
  · isplitr; · iapply (inv_at m ρ K (recv_mem _ _)); iexact HR
    iexact Hat
  iapply Hk
  isplitl [HO]; · iexact HO
  isplitl [Hz]; · iexact Hz
  iexact Hp

end Steps

end Cert.Kernel.Mean
end
-- ==== Proof.Bits.Data.lean ====
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Bits.Steps

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The memrefs of the body, and the rectangles of its loads and stores -/

abbrev xM : Memref sig .tc .vmem S4096x1024 .f32 := Memref.whole cc0_stg0_0
abbrev oM : Memref sig .tc .vmem S1x1024 .f32 := Memref.whole cc0_stg1_0
abbrev scrM : Memref sig .tc .vmem S16x1x1024 .f32 := Memref.whole cc0_scratch0

abbrev rX : Rect S4096x1024 := Rect.unit (s := S4096x1024) ![0, 0] S4096x1024.size inb_S4096x1024_S4096x1024_0_0
abbrev rS0 : Rect S16x1x1024 := Rect.unit (s := S16x1x1024) ![0, 0, 0] S1x1x1024.size inb_S16x1x1024_S1x1x1024_0_0_0
abbrev rSA : Rect S16x1x1024 := Rect.unit (s := S16x1x1024) ![0, 0, 0] S16x1x1024.size inb_S16x1x1024_S16x1x1024_0_0_0
abbrev rO : Rect S1x1024 := Rect.unit (s := S1x1024) ![0, 0] S1x1024.size inb_S1x1024_S1x1024_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S4096x1024 .f32).view.readAt (Elt F) rX.toLoadRect f = f :=
  Memref.readAt_unit_zero (Elt F) cc0_stg0_0 hz2 _ f
omit [FloatOps F] in
theorem read_scr (f : (cc0_scratch0 : Ref sig .tc).ty.Contents (Elt F)) : (scrM : Memref sig .tc .vmem S16x1x1024 .f32).view.readAt (Elt F) rSA.toLoadRect f = f :=
  Memref.readAt_unit_zero (Elt F) cc0_scratch0 hz3 _ f
omit [FloatOps F] in
theorem write_out (f w : (cc0_stg1_0 : Ref sig .tc).ty.Contents (Elt F)) :
    ((oM : Memref sig .tc .vmem S1x1024 .f32).access rO : View sig .tc _ _ _).write (Elt F) f w Finset.univ = w :=
  Memref.write_access_unit_zero_univ (Elt F) cc0_stg1_0 hz2 _ f w

/-- The load and the store of row 0 touch row 0 only. -/
theorem store_set : ((scrM : Memref sig .tc .vmem S16x1x1024 .f32).access rS0 : View sig .tc _ _ _).setOn Finset.univ ⊆ J 0 := by
  rw [View.setOn_univ]; show ((View.whole cc0_scratch0).slice rS0).set ⊆ _; rw [View.set_slice_whole]; exact Finset.Subset.refl _
theorem load_set : (scrM : Memref sig .tc .vmem S16x1x1024 .f32).view.setOn rS0.toLoadRect.set ⊆ J 0 := by
  show (rS0.toLoadRect.set).map (Function.Embedding.refl _) ⊆ _
  rw [Finset.map_refl]; exact Finset.Subset.refl _

/-- Once the column sums are stored, row 0 holds what the device's final scratch buffer holds there. -/
theorem stored_eq (c : Dev nD) (f : Buf (Elt F) (scrLoc c)) :
    ∀ i ∈ J 0, (((scrM : Memref sig .tc .vmem S16x1x1024 .f32).access rS0 : View sig .tc _ _ _).write (Elt F) f (k0_pay2 (xblk m ρ c)) Finset.univ) i = G m ρ c i := by
  intro i hi
  obtain ⟨y, rfl⟩ := View.exists_emb_of_mem_set ((scrM : Memref sig .tc .vmem S16x1x1024 .f32).access rS0 : View sig .tc _ _ _)
    (by show i ∈ ((View.whole cc0_scratch0).slice rS0).set; rw [View.set_slice_whole]; exact hi)
  rw [View.write_emb_of_mem _ _ (Finset.mem_univ _)]
  simp only [cast_eq]
  unfold G rowv
  have h0 : (((((scrM : Memref sig .tc .vmem S16x1x1024 .f32).access rS0 : View sig .tc _ _ _).emb y) 0 : Fin _) : Nat) = 0 := by
    show (0 + 1 * ((y 0 : Fin _) : Nat)) = 0
    have := (y 0).isLt; simp at this ⊢; omega
  have hz : zero0 (((scrM : Memref sig .tc .vmem S16x1x1024 .f32).access rS0 : View sig .tc _ _ _).emb y) = y := by
    funext a; apply Fin.ext; unfold zero0
    fin_cases a
    · have := (y 0).isLt; simp at this ⊢; omega
    · show (if (1 : Fin 3) = 0 then 0 else 0 + 1 * ((y 1 : Fin _) : Nat)) = _; simp
    · show (if (2 : Fin 3) = 0 then 0 else 0 + 1 * ((y 2 : Fin _) : Nat)) = _; simp
  rw [h0, hz, Nat.sub_zero, shift_16]

/-! ## Conjunctions over the fifteen offsets and the sixteen rows, spelled out -/

omit [FloatOps F] in
theorem bigSep_D (Φ : D → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_F16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The ghost state of a device, the pipeline's proof data, the body's pre- and postcondition -/

/-- The two semaphores of the scratch arrays that no copy uses. -/
def unusedSems (c : Dev nD) : sProp 𝕄 :=
  iprop(semVal ((c : Thread nD τ), SemLoc.dma (⟨2, by decide⟩ : DmaSem sig)) 0 ∗ semVal ((c : Thread nD τ), SemLoc.dma (⟨18, by decide⟩ : DmaSem sig)) 0)

/-- What device c starts from: the shared records; its positions at round 0 of its own cells; the tokens of the duties it
    pays: one of every peer's barrier cell, its own send cells', every peer's receive cell for its copy. -/
def ghost (K : GSem nD τ sig → ℕ) (c : Dev nD) : sProp 𝕄 :=
  iprop(records m ρ K
    ∗ atPos ER (barCell c) 0 ∅ 0 ∗ (bigSep Finset.univ fun j : D => atPos ER (sendCell c j) 0 ∅ 0) ∗ (bigSep Finset.univ fun j : D => atPos ER (recvCell c j) 0 ∅ 0)
    ∗ (bigSep Finset.univ fun j : D => dutyTok ER (barCell (peerTo c j)) 0 j.rev) ∗ (bigSep Finset.univ fun j : D => dutyTok ER (sendCell c j) 0 0)
    ∗ (bigSep Finset.univ fun j : D => dutyTok ER (recvCell (peerTo c j) j) 0 0))

def start (c : Dev nD) : sProp 𝕄 :=
  iprop((∃ K, ghost m ρ K c) ∗ cred (tallyAt (barCell c) () 15) ∗ (bigSep Finset.univ fun j : D => cred (tallyAt (recvCell c j) () N)) ∗ levAts L lv ∗ unusedSems (F := F) c)

def Φ₀ (c : Dev nD) : sProp 𝕄 := iprop(start m ρ c ∗ ∃ f : Buf (Elt F) (scrLoc c), scrLoc c ↦{fullShare} f)
/-- After the point: the scratch buffer at every device's column sums, every own semaphore back at zero. -/
def Φ₁ (c : Dev nD) : sProp 𝕄 :=
  iprop((scrLoc c ↦{fullShare} G m ρ c) ∗ (bigSep Finset.univ fun j : D => semVal (sendCell c j) 0) ∗ (bigSep Finset.univ fun j : D => semVal (recvCell c j) 0) ∗ unusedSems (F := F) c)

/-- The kernel's result on every device: the column sums of all sixteen rows of the scratch buffer, scaled. -/
def outAt (c : Dev nD) : (cc0_stg1_0 : Ref sig .tc).ty.Contents (Elt F) := k0_pay1 (k0_pay3 (G m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m ρ K c ∗ cred (tallyAt (barCell c) () 15) ∗ (bigSep Finset.univ fun j : D => cred (tallyAt (recvCell c j) () N)) ∗ levAts L lv ∗ unusedSems (F := F) c
      ∗ ∃ f : Buf (Elt F) (scrLoc c), scrLoc c ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xblk m ρ c) ∗ stg c cc0_stg1_0 (outAt m ρ c))

/-! ## The printed device chains in closed form -/
theorem dev1_eq : ∀ c : Dev nD, (⟨k0_dev1 c, k0_dev1_lt c⟩ : Dev nD) = peerTo c 0 := by decide +kernel
theorem dev2_eq : ∀ c : Dev nD, (⟨k0_dev2 c, k0_dev2_lt c⟩ : Dev nD) = peerTo c 1 := by decide +kernel
theorem dev3_eq : ∀ c : Dev nD, (⟨k0_dev3 c, k0_dev3_lt c⟩ : Dev nD) = peerTo c 2 := by decide +kernel
theorem dev4_eq : ∀ c : Dev nD, (⟨k0_dev4 c, k0_dev4_lt c⟩ : Dev nD) = peerTo c 3 := by decide +kernel
theorem dev5_eq : ∀ c : Dev nD, (⟨k0_dev5 c, k0_dev5_lt c⟩ : Dev nD) = peerTo c 4 := by decide +kernel
theorem dev6_eq : ∀ c : Dev nD, (⟨k0_dev6 c, k0_dev6_lt c⟩ : Dev nD) = peerTo c 5 := by decide +kernel
theorem dev7_eq : ∀ c : Dev nD, (⟨k0_dev7 c, k0_dev7_lt c⟩ : Dev nD) = peerTo c 6 := by decide +kernel
theorem dev8_eq : ∀ c : Dev nD, (⟨k0_dev8 c, k0_dev8_lt c⟩ : Dev nD) = peerTo c 7 := by decide +kernel
theorem dev9_eq : ∀ c : Dev nD, (⟨k0_dev9 c, k0_dev9_lt c⟩ : Dev nD) = peerTo c 8 := by decide +kernel
theorem dev10_eq : ∀ c : Dev nD, (⟨k0_dev10 c, k0_dev10_lt c⟩ : Dev nD) = peerTo c 9 := by decide +kernel
theorem dev11_eq : ∀ c : Dev nD, (⟨k0_dev11 c, k0_dev11_lt c⟩ : Dev nD) = peerTo c 10 := by decide +kernel
theorem dev12_eq : ∀ c : Dev nD, (⟨k0_dev12 c, k0_dev12_lt c⟩ : Dev nD) = peerTo c 11 := by decide +kernel
theorem dev13_eq : ∀ c : Dev nD, (⟨k0_dev13 c, k0_dev13_lt c⟩ : Dev nD) = peerTo c 12 := by decide +kernel
theorem dev14_eq : ∀ c : Dev nD, (⟨k0_dev14 c, k0_dev14_lt c⟩ : Dev nD) = peerTo c 13 := by decide +kernel
theorem dev15_eq : ∀ c : Dev nD, (⟨k0_dev15 c, k0_dev15_lt c⟩ : Dev nD) = peerTo c 14 := by decide +kernel
theorem dev16_eq : ∀ c : Dev nD, (⟨k0_dev16 c, k0_dev16_lt c⟩ : Dev nD) = peerTo c 0 := by decide +kernel
theorem dev17_eq : ∀ c : Dev nD, (⟨k0_dev17 c, k0_dev17_lt c⟩ : Dev nD) = peerTo c 1 := by decide +kernel
theorem dev18_eq : ∀ c : Dev nD, (⟨k0_dev18 c, k0_dev18_lt c⟩ : Dev nD) = peerTo c 2 := by decide +kernel
theorem dev19_eq : ∀ c : Dev nD, (⟨k0_dev19 c, k0_dev19_lt c⟩ : Dev nD) = peerTo c 3 := by decide +kernel
theorem dev20_eq : ∀ c : Dev nD, (⟨k0_dev20 c, k0_dev20_lt c⟩ : Dev nD) = peerTo c 4 := by decide +kernel
theorem dev21_eq : ∀ c : Dev nD, (⟨k0_dev21 c, k0_dev21_lt c⟩ : Dev nD) = peerTo c 5 := by decide +kernel
theorem dev22_eq : ∀ c : Dev nD, (⟨k0_dev22 c, k0_dev22_lt c⟩ : Dev nD) = peerTo c 6 := by decide +kernel
theorem dev23_eq : ∀ c : Dev nD, (⟨k0_dev23 c, k0_dev23_lt c⟩ : Dev nD) = peerTo c 7 := by decide +kernel
theorem dev24_eq : ∀ c : Dev nD, (⟨k0_dev24 c, k0_dev24_lt c⟩ : Dev nD) = peerTo c 8 := by decide +kernel
theorem dev25_eq : ∀ c : Dev nD, (⟨k0_dev25 c, k0_dev25_lt c⟩ : Dev nD) = peerTo c 9 := by decide +kernel
theorem dev26_eq : ∀ c : Dev nD, (⟨k0_dev26 c, k0_dev26_lt c⟩ : Dev nD) = peerTo c 10 := by decide +kernel
theorem dev27_eq : ∀ c : Dev nD, (⟨k0_dev27 c, k0_dev27_lt c⟩ : Dev nD) = peerTo c 11 := by decide +kernel
theorem dev28_eq : ∀ c : Dev nD, (⟨k0_dev28 c, k0_dev28_lt c⟩ : Dev nD) = peerTo c 12 := by decide +kernel
theorem dev29_eq : ∀ c : Dev nD, (⟨k0_dev29 c, k0_dev29_lt c⟩ : Dev nD) = peerTo c 13 := by decide +kernel
theorem dev30_eq : ∀ c : Dev nD, (⟨k0_dev30 c, k0_dev30_lt c⟩ : Dev nD) = peerTo c 14 := by decide +kernel

end Cert.Kernel.Mean
end
-- ==== Proof.Bits.Body.lean ====
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Bits.Data

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed views and semaphores of copy j are the rows and cells of the protocol -/

theorem sendSem0 : ((cc0_scratch1.slice (Rect.unit (s := S16) ![1] S1.size inb_S16_S1_1)).squeeze S_ squeezes_S1_S_).sem = sendQ 0 := rfl
theorem recvSem0 : ((cc0_scratch2.slice (Rect.unit (s := S16) ![1] S1.size inb_S16_S1_1)).squeeze S_ squeezes_S1_S_).sem = recvQ 0 := rfl
theorem sendSem1 : ((cc0_scratch1.slice (Rect.unit (s := S16) ![2] S1.size inb_S16_S1_2)).squeeze S_ squeezes_S1_S_).sem = sendQ 1 := rfl
theorem recvSem1 : ((cc0_scratch2.slice (Rect.unit (s := S16) ![2] S1.size inb_S16_S1_2)).squeeze S_ squeezes_S1_S_).sem = recvQ 1 := rfl
theorem sendSem2 : ((cc0_scratch1.slice (Rect.unit (s := S16) ![3] S1.size inb_S16_S1_3)).squeeze S_ squeezes_S1_S_).sem = sendQ 2 := rfl
theorem recvSem2 : ((cc0_scratch2.slice (Rect.unit (s := S16) ![3] S1.size inb_S16_S1_3)).squeeze S_ squeezes_S1_S_).sem = recvQ 2 := rfl
theorem sendSem3 : ((cc0_scratch1.slice (Rect.unit (s := S16) ![4] S1.size inb_S16_S1_4)).squeeze S_ squeezes_S1_S_).sem = sendQ 3 := rfl
theorem recvSem3 : ((cc0_scratch2.slice (Rect.unit (s := S16) ![4] S1.size inb_S16_S1_4)).squeeze S_ squeezes_S1_S_).sem = recvQ 3 := rfl
theorem sendSem4 : ((cc0_scratch1.slice (Rect.unit (s := S16) ![5] S1.size inb_S16_S1_5)).squeeze S_ squeezes_S1_S_).sem = sendQ 4 := rfl
theorem recvSem4 : ((cc0_scratch2.slice (Rect.unit (s := S16) ![5] S1.size inb_S16_S1_5)).squeeze S_ squeezes_S1_S_).sem = recvQ 4 := rfl
theorem sendSem5 : ((cc0_scratch1.slice (Rect.unit (s := S16) ![6] S1.size inb_S16_S1_6)).squeeze S_ squeezes_S1_S_).sem = sendQ 5 := rfl
theorem recvSem5 : ((cc0_scratch2.slice (Rect.unit (s := S16) ![6] S1.size inb_S16_S1_6)).squeeze S_ squeezes_S1_S_).sem = recvQ 5 := rfl
theorem sendSem6 : ((cc0_scratch1.slice (Rect.unit (s := S16) ![7] S1.size inb_S16_S1_7)).squeeze S_ squeezes_S1_S_).sem = sendQ 6 := rfl
theorem recvSem6 : ((cc0_scratch2.slice (Rect.unit (s := S16) ![7] S1.size inb_S16_S1_7)).squeeze S_ squeezes_S1_S_).sem = recvQ 6 := rfl
theorem sendSem7 : ((cc0_scratch1.slice (Rect.unit (s := S16) ![8] S1.size inb_S16_S1_8)).squeeze S_ squeezes_S1_S_).sem = sendQ 7 := rfl
theorem recvSem7 : ((cc0_scratch2.slice (Rect.unit (s := S16) ![8] S1.size inb_S16_S1_8)).squeeze S_ squeezes_S1_S_).sem = recvQ 7 := rfl
theorem sendSem8 : ((cc0_scratch1.slice (Rect.unit (s := S16) ![9] S1.size inb_S16_S1_9)).squeeze S_ squeezes_S1_S_).sem = sendQ 8 := rfl
theorem recvSem8 : ((cc0_scratch2.slice (Rect.unit (s := S16) ![9] S1.size inb_S16_S1_9)).squeeze S_ squeezes_S1_S_).sem = recvQ 8 := rfl
theorem sendSem9 : ((cc0_scratch1.slice (Rect.unit (s := S16) ![10] S1.size inb_S16_S1_10)).squeeze S_ squeezes_S1_S_).sem = sendQ 9 := rfl
theorem recvSem9 : ((cc0_scratch2.slice (Rect.unit (s := S16) ![10] S1.size inb_S16_S1_10)).squeeze S_ squeezes_S1_S_).sem = recvQ 9 := rfl
theorem sendSem10 : ((cc0_scratch1.slice (Rect.unit (s := S16) ![11] S1.size inb_S16_S1_11)).squeeze S_ squeezes_S1_S_).sem = sendQ 10 := rfl
theorem recvSem10 : ((cc0_scratch2.slice (Rect.unit (s := S16) ![11] S1.size inb_S16_S1_11)).squeeze S_ squeezes_S1_S_).sem = recvQ 10 := rfl
theorem sendSem11 : ((cc0_scratch1.slice (Rect.unit (s := S16) ![12] S1.size inb_S16_S1_12)).squeeze S_ squeezes_S1_S_).sem = sendQ 11 := rfl
theorem recvSem11 : ((cc0_scratch2.slice (Rect.unit (s := S16) ![12] S1.size inb_S16_S1_12)).squeeze S_ squeezes_S1_S_).sem = recvQ 11 := rfl
theorem sendSem12 : ((cc0_scratch1.slice (Rect.unit (s := S16) ![13] S1.size inb_S16_S1_13)).squeeze S_ squeezes_S1_S_).sem = sendQ 12 := rfl
theorem recvSem12 : ((cc0_scratch2.slice (Rect.unit (s := S16) ![13] S1.size inb_S16_S1_13)).squeeze S_ squeezes_S1_S_).sem = recvQ 12 := rfl
theorem sendSem13 : ((cc0_scratch1.slice (Rect.unit (s := S16) ![14] S1.size inb_S16_S1_14)).squeeze S_ squeezes_S1_S_).sem = sendQ 13 := rfl
theorem recvSem13 : ((cc0_scratch2.slice (Rect.unit (s := S16) ![14] S1.size inb_S16_S1_14)).squeeze S_ squeezes_S1_S_).sem = recvQ 13 := rfl
theorem sendSem14 : ((cc0_scratch1.slice (Rect.unit (s := S16) ![15] S1.size inb_S16_S1_15)).squeeze S_ squeezes_S1_S_).sem = sendQ 14 := rfl
theorem recvSem14 : ((cc0_scratch2.slice (Rect.unit (s := S16) ![15] S1.size inb_S16_S1_15)).squeeze S_ squeezes_S1_S_).sem = recvQ 14 := rfl
theorem row0 : (((Memref.whole cc0_scratch0 : Memref sig .tc .vmem S16x1x1024 .f32).slice (Rect.unit (s := S16x1x1024) ![0, 0, 0] S1x1x1024.size inb_S16x1x1024_S1x1x1024_0_0_0) (fun _ => rfl)).squeeze S1x1024 squeezes_S1x1x1024_S1x1024) = slotM 0 := rfl
theorem row1 : (((Memref.whole cc0_scratch0 : Memref sig .tc .vmem S16x1x1024 .f32).slice (Rect.unit (s := S16x1x1024) ![1, 0, 0] S1x1x1024.size inb_S16x1x1024_S1x1x1024_1_0_0) (fun _ => rfl)).squeeze S1x1024 squeezes_S1x1x1024_S1x1024) = slotM 1 := rfl
theorem row2 : (((Memref.whole cc0_scratch0 : Memref sig .tc .vmem S16x1x1024 .f32).slice (Rect.unit (s := S16x1x1024) ![2, 0, 0] S1x1x1024.size inb_S16x1x1024_S1x1x1024_2_0_0) (fun _ => rfl)).squeeze S1x1024 squeezes_S1x1x1024_S1x1024) = slotM 2 := rfl
theorem row3 : (((Memref.whole cc0_scratch0 : Memref sig .tc .vmem S16x1x1024 .f32).slice (Rect.unit (s := S16x1x1024) ![3, 0, 0] S1x1x1024.size inb_S16x1x1024_S1x1x1024_3_0_0) (fun _ => rfl)).squeeze S1x1024 squeezes_S1x1x1024_S1x1024) = slotM 3 := rfl
theorem row4 : (((Memref.whole cc0_scratch0 : Memref sig .tc .vmem S16x1x1024 .f32).slice (Rect.unit (s := S16x1x1024) ![4, 0, 0] S1x1x1024.size inb_S16x1x1024_S1x1x1024_4_0_0) (fun _ => rfl)).squeeze S1x1024 squeezes_S1x1x1024_S1x1024) = slotM 4 := rfl
theorem row5 : (((Memref.whole cc0_scratch0 : Memref sig .tc .vmem S16x1x1024 .f32).slice (Rect.unit (s := S16x1x1024) ![5, 0, 0] S1x1x1024.size inb_S16x1x1024_S1x1x1024_5_0_0) (fun _ => rfl)).squeeze S1x1024 squeezes_S1x1x1024_S1x1024) = slotM 5 := rfl
theorem row6 : (((Memref.whole cc0_scratch0 : Memref sig .tc .vmem S16x1x1024 .f32).slice (Rect.unit (s := S16x1x1024) ![6, 0, 0] S1x1x1024.size inb_S16x1x1024_S1x1x1024_6_0_0) (fun _ => rfl)).squeeze S1x1024 squeezes_S1x1x1024_S1x1024) = slotM 6 := rfl
theorem row7 : (((Memref.whole cc0_scratch0 : Memref sig .tc .vmem S16x1x1024 .f32).slice (Rect.unit (s := S16x1x1024) ![7, 0, 0] S1x1x1024.size inb_S16x1x1024_S1x1x1024_7_0_0) (fun _ => rfl)).squeeze S1x1024 squeezes_S1x1x1024_S1x1024) = slotM 7 := rfl
theorem row8 : (((Memref.whole cc0_scratch0 : Memref sig .tc .vmem S16x1x1024 .f32).slice (Rect.unit (s := S16x1x1024) ![8, 0, 0] S1x1x1024.size inb_S16x1x1024_S1x1x1024_8_0_0) (fun _ => rfl)).squeeze S1x1024 squeezes_S1x1x1024_S1x1024) = slotM 8 := rfl
theorem row9 : (((Memref.whole cc0_scratch0 : Memref sig .tc .vmem S16x1x1024 .f32).slice (Rect.unit (s := S16x1x1024) ![9, 0, 0] S1x1x1024.size inb_S16x1x1024_S1x1x1024_9_0_0) (fun _ => rfl)).squeeze S1x1024 squeezes_S1x1x1024_S1x1024) = slotM 9 := rfl
theorem row10 : (((Memref.whole cc0_scratch0 : Memref sig .tc .vmem S16x1x1024 .f32).slice (Rect.unit (s := S16x1x1024) ![10, 0, 0] S1x1x1024.size inb_S16x1x1024_S1x1x1024_10_0_0) (fun _ => rfl)).squeeze S1x1024 squeezes_S1x1x1024_S1x1024) = slotM 10 := rfl
theorem row11 : (((Memref.whole cc0_scratch0 : Memref sig .tc .vmem S16x1x1024 .f32).slice (Rect.unit (s := S16x1x1024) ![11, 0, 0] S1x1x1024.size inb_S16x1x1024_S1x1x1024_11_0_0) (fun _ => rfl)).squeeze S1x1024 squeezes_S1x1x1024_S1x1024) = slotM 11 := rfl
theorem row12 : (((Memref.whole cc0_scratch0 : Memref sig .tc .vmem S16x1x1024 .f32).slice (Rect.unit (s := S16x1x1024) ![12, 0, 0] S1x1x1024.size inb_S16x1x1024_S1x1x1024_12_0_0) (fun _ => rfl)).squeeze S1x1024 squeezes_S1x1x1024_S1x1024) = slotM 12 := rfl
theorem row13 : (((Memref.whole cc0_scratch0 : Memref sig .tc .vmem S16x1x1024 .f32).slice (Rect.unit (s := S16x1x1024) ![13, 0, 0] S1x1x1024.size inb_S16x1x1024_S1x1x1024_13_0_0) (fun _ => rfl)).squeeze S1x1024 squeezes_S1x1x1024_S1x1024) = slotM 13 := rfl
theorem row14 : (((Memref.whole cc0_scratch0 : Memref sig .tc .vmem S16x1x1024 .f32).slice (Rect.unit (s := S16x1x1024) ![14, 0, 0] S1x1x1024.size inb_S16x1x1024_S1x1x1024_14_0_0) (fun _ => rfl)).squeeze S1x1024 squeezes_S1x1x1024_S1x1024) = slotM 14 := rfl
theorem row15 : (((Memref.whole cc0_scratch0 : Memref sig .tc .vmem S16x1x1024 .f32).slice (Rect.unit (s := S16x1x1024) ![15, 0, 0] S1x1x1024.size inb_S16x1x1024_S1x1x1024_15_0_0) (fun _ => rfl)).squeeze S1x1024 squeezes_S1x1x1024_S1x1024) = slotM 15 := rfl

section Body

variable (K : GSem nD τ sig → ℕ)

set_option maxHeartbeats 4000000 in
set_option maxRecDepth 65536 in
/-- The body on device c, stepped from its precondition one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  simp only [semSignalWord, semWaitWord, Prog.lift, Prog.bind_op, Prog.bind_ret, Prog.pure_eq_ret, Prog.bind_assoc, wp_deviceId]
  unfold bodyPre ghost
  iintro ⟨⟨⟨⟨#HR, HatB, HatS, HatV, HtB, HtS, HtV⟩, HcB, HcV, #Hlev, Hun, ⟨%f0, Hscr⟩⟩, Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave HatS' := (Entails.of_eq (bigSep_D (fun j : D => (atPos ER (sendCell c j) 0 ∅ 0 : sProp 𝕄)))) $$ HatS
  icases HatS' with ⟨HatS0, HatS1, HatS2, HatS3, HatS4, HatS5, HatS6, HatS7, HatS8, HatS9, HatS10, HatS11, HatS12, HatS13, HatS14⟩
  ihave HatV' := (Entails.of_eq (bigSep_D (fun j : D => (atPos ER (recvCell c j) 0 ∅ 0 : sProp 𝕄)))) $$ HatV
  icases HatV' with ⟨HatV0, HatV1, HatV2, HatV3, HatV4, HatV5, HatV6, HatV7, HatV8, HatV9, HatV10, HatV11, HatV12, HatV13, HatV14⟩
  ihave HtB' := (Entails.of_eq (bigSep_D (fun j : D => (dutyTok ER (barCell (peerTo c j)) 0 j.rev : sProp 𝕄)))) $$ HtB
  icases HtB' with ⟨HtB0, HtB1, HtB2, HtB3, HtB4, HtB5, HtB6, HtB7, HtB8, HtB9, HtB10, HtB11, HtB12, HtB13, HtB14⟩
  ihave HtS' := (Entails.of_eq (bigSep_D (fun j : D => (dutyTok ER (sendCell c j) 0 0 : sProp 𝕄)))) $$ HtS
  icases HtS' with ⟨HtS0, HtS1, HtS2, HtS3, HtS4, HtS5, HtS6, HtS7, HtS8, HtS9, HtS10, HtS11, HtS12, HtS13, HtS14⟩
  ihave HtV' := (Entails.of_eq (bigSep_D (fun j : D => (dutyTok ER (recvCell (peerTo c j) j) 0 0 : sProp 𝕄)))) $$ HtV
  icases HtV' with ⟨HtV0, HtV1, HtV2, HtV3, HtV4, HtV5, HtV6, HtV7, HtV8, HtV9, HtV10, HtV11, HtV12, HtV13, HtV14⟩
  ihave HcV' := (Entails.of_eq (bigSep_D (fun j : D => (cred (tallyAt (recvCell c j) () N) : sProp 𝕄)))) $$ HcV
  icases HcV' with ⟨HcV0, HcV1, HcV2, HcV3, HcV4, HcV5, HcV6, HcV7, HcV8, HcV9, HcV10, HcV11, HcV12, HcV13, HcV14⟩
  ihave Hrows := (Entails.of_eq ((Ring.pointsTo_blocks (Ix := Unit) (Name := ℕ) (U := UU) (Lvl := ℕ) (q := fullShare) J J_disjoint J_cover f0).trans (bigSep_F16 _))) $$ Hscr
  icases Hrows with ⟨Hr0, Hr1, Hr2, Hr3, Hr4, Hr5, Hr6, Hr7, Hr8, Hr9, Hr10, Hr11, Hr12, Hr13, Hr14, Hr15⟩
  iapply (sig_step m ρ K c 0 W _ (dev1_eq c) (by decide)) $$ [HO HtB0 Hr15]
  · isplitr; · iexact HR
    isplitl [HO]; · iexact HO
    isplitl [HtB0]; · iexact HtB0
    iexists f0; rw [slotPts_eq]; iexact Hr15
  iintro HO
  iapply (sig_step m ρ K c 1 W _ (dev2_eq c) (by decide)) $$ [HO HtB1 Hr14]
  · isplitr; · iexact HR
    isplitl [HO]; · iexact HO
    isplitl [HtB1]; · iexact HtB1
    iexists f0; rw [slotPts_eq]; iexact Hr14
  iintro HO
  iapply (sig_step m ρ K c 2 W _ (dev3_eq c) (by decide)) $$ [HO HtB2 Hr13]
  · isplitr; · iexact HR
    isplitl [HO]; · iexact HO
    isplitl [HtB2]; · iexact HtB2
    iexists f0; rw [slotPts_eq]; iexact Hr13
  iintro HO
  iapply (sig_step m ρ K c 3 W _ (dev4_eq c) (by decide)) $$ [HO HtB3 Hr12]
  · isplitr; · iexact HR
    isplitl [HO]; · iexact HO
    isplitl [HtB3]; · iexact HtB3
    iexists f0; rw [slotPts_eq]; iexact Hr12
  iintro HO
  iapply (sig_step m ρ K c 4 W _ (dev5_eq c) (by decide)) $$ [HO HtB4 Hr11]
  · isplitr; · iexact HR
    isplitl [HO]; · iexact HO
    isplitl [HtB4]; · iexact HtB4
    iexists f0; rw [slotPts_eq]; iexact Hr11
  iintro HO
  iapply (sig_step m ρ K c 5 W _ (dev6_eq c) (by decide)) $$ [HO HtB5 Hr10]
  · isplitr; · iexact HR
    isplitl [HO]; · iexact HO
    isplitl [HtB5]; · iexact HtB5
    iexists f0; rw [slotPts_eq]; iexact Hr10
  iintro HO
  iapply (sig_step m ρ K c 6 W _ (dev7_eq c) (by decide)) $$ [HO HtB6 Hr9]
  · isplitr; · iexact HR
    isplitl [HO]; · iexact HO
    isplitl [HtB6]; · iexact HtB6
    iexists f0; rw [slotPts_eq]; iexact Hr9
  iintro HO
  iapply (sig_step m ρ K c 7 W _ (dev8_eq c) (by decide)) $$ [HO HtB7 Hr8]
  · isplitr; · iexact HR
    isplitl [HO]; · iexact HO
    isplitl [HtB7]; · iexact HtB7
    iexists f0; rw [slotPts_eq]; iexact Hr8
  iintro HO
  iapply (sig_step m ρ K c 8 W _ (dev9_eq c) (by decide)) $$ [HO HtB8 Hr7]
  · isplitr; · iexact HR
    isplitl [HO]; · iexact HO
    isplitl [HtB8]; · iexact HtB8
    iexists f0; rw [slotPts_eq]; iexact Hr7
  iintro HO
  iapply (sig_step m ρ K c 9 W _ (dev10_eq c) (by decide)) $$ [HO HtB9 Hr6]
  · isplitr; · iexact HR
    isplitl [HO]; · iexact HO
    isplitl [HtB9]; · iexact HtB9
    iexists f0; rw [slotPts_eq]; iexact Hr6
  iintro HO
  iapply (sig_step m ρ K c 10 W _ (dev11_eq c) (by decide)) $$ [HO HtB10 Hr5]
  · isplitr; · iexact HR
    isplitl [HO]; · iexact HO
    isplitl [HtB10]; · iexact HtB10
    iexists f0; rw [slotPts_eq]; iexact Hr5
  iintro HO
  iapply (sig_step m ρ K c 11 W _ (dev12_eq c) (by decide)) $$ [HO HtB11 Hr4]
  · isplitr; · iexact HR
    isplitl [HO]; · iexact HO
    isplitl [HtB11]; · iexact HtB11
    iexists f0; rw [slotPts_eq]; iexact Hr4
  iintro HO
  iapply (sig_step m ρ K c 12 W _ (dev13_eq c) (by decide)) $$ [HO HtB12 Hr3]
  · isplitr; · iexact HR
    isplitl [HO]; · iexact HO
    isplitl [HtB12]; · iexact HtB12
    iexists f0; rw [slotPts_eq]; iexact Hr3
  iintro HO
  iapply (sig_step m ρ K c 13 W _ (dev14_eq c) (by decide)) $$ [HO HtB13 Hr2]
  · isplitr; · iexact HR
    isplitl [HO]; · iexact HO
    isplitl [HtB13]; · iexact HtB13
    iexists f0; rw [slotPts_eq]; iexact Hr2
  iintro HO
  iapply (sig_step m ρ K c 14 W _ (dev15_eq c) (by decide)) $$ [HO HtB14 Hr1]
  · isplitr; · iexact HR
    isplitl [HO]; · iexact HO
    isplitl [HtB14]; · iexact HtB14
    iexists f0; rw [slotPts_eq]; iexact Hr1
  iintro HO
  rw [show Osig c ((14 : D).val + 1) = 0 from Osig_15 c, add_zero]
  iapply (wp_load 𝒱₀ (c : Thread nD τ) none Set.univ (m := xM) (Finset.subset_univ _)) $$ Hx; iintro Hx
  rw [read_x]
  iapply (wp_load 𝒱₀ (c : Thread nD τ) none Set.univ (m := scrM) (S := J 0) load_set) $$ Hr0; iintro Hr0
  iapply (wp_store 𝒱₀ (c : Thread nD τ) none Set.univ (m := scrM) (r := rS0) (Mk := Finset.univ) (S := J 0) store_set) $$ Hr0; iintro Hr0
  ihave Hr0 := (Entails.of_eq ((pointsTo_congr (stored_eq m ρ c f0)).trans (slotPts_eq c 0 fullShare (G m ρ c)).symm)) $$ Hr0
  iapply (bar_wait m ρ K c W (by decide)) $$ [HcB HO HatB]
  · isplitr; · iexact HR
    isplitr; · iexact Hlev
    isplitl [HcB]; · iexact HcB
    isplitl [HO]; · iexact HO
    iexact HatB
  iintro ⟨HO, Hpay⟩
  ihave Hp := (Entails.of_eq (bigSep_D (fun j : D => barPay (F := F) c j))) $$ Hpay
  icases Hp with ⟨Hb0, Hb1, Hb2, Hb3, Hb4, Hb5, Hb6, Hb7, Hb8, Hb9, Hb10, Hb11, Hb12, Hb13, Hb14⟩
  iapply (send_step m ρ K c 0 (insert (SemLoc.reg barS, ()) W) _ (dev16_eq c)) $$ [Hr0 Hb0 HO HtS0 HtV0]
  · isplitr; · iexact HR
    isplitl [Hr0]; · iexact Hr0
    isplitl [Hb0]; · iexact Hb0
    isplitl [HO]; · iexact HO
    isplitl [HtS0]; · iexact HtS0
    iexact HtV0
  iintro ⟨Hr0, HcS0, HO⟩
  iapply (send_step m ρ K c 1 (insert (SemLoc.reg barS, ()) W) _ (dev17_eq c)) $$ [Hr0 Hb1 HO HtS1 HtV1]
  · isplitr; · iexact HR
    isplitl [Hr0]; · iexact Hr0
    isplitl [Hb1]; · iexact Hb1
    isplitl [HO]; · iexact HO
    isplitl [HtS1]; · iexact HtS1
    iexact HtV1
  iintro ⟨Hr0, HcS1, HO⟩
  iapply (send_step m ρ K c 2 (insert (SemLoc.reg barS, ()) W) _ (dev18_eq c)) $$ [Hr0 Hb2 HO HtS2 HtV2]
  · isplitr; · iexact HR
    isplitl [Hr0]; · iexact Hr0
    isplitl [Hb2]; · iexact Hb2
    isplitl [HO]; · iexact HO
    isplitl [HtS2]; · iexact HtS2
    iexact HtV2
  iintro ⟨Hr0, HcS2, HO⟩
  iapply (send_step m ρ K c 3 (insert (SemLoc.reg barS, ()) W) _ (dev19_eq c)) $$ [Hr0 Hb3 HO HtS3 HtV3]
  · isplitr; · iexact HR
    isplitl [Hr0]; · iexact Hr0
    isplitl [Hb3]; · iexact Hb3
    isplitl [HO]; · iexact HO
    isplitl [HtS3]; · iexact HtS3
    iexact HtV3
  iintro ⟨Hr0, HcS3, HO⟩
  iapply (send_step m ρ K c 4 (insert (SemLoc.reg barS, ()) W) _ (dev20_eq c)) $$ [Hr0 Hb4 HO HtS4 HtV4]
  · isplitr; · iexact HR
    isplitl [Hr0]; · iexact Hr0
    isplitl [Hb4]; · iexact Hb4
    isplitl [HO]; · iexact HO
    isplitl [HtS4]; · iexact HtS4
    iexact HtV4
  iintro ⟨Hr0, HcS4, HO⟩
  iapply (send_step m ρ K c 5 (insert (SemLoc.reg barS, ()) W) _ (dev21_eq c)) $$ [Hr0 Hb5 HO HtS5 HtV5]
  · isplitr; · iexact HR
    isplitl [Hr0]; · iexact Hr0
    isplitl [Hb5]; · iexact Hb5
    isplitl [HO]; · iexact HO
    isplitl [HtS5]; · iexact HtS5
    iexact HtV5
  iintro ⟨Hr0, HcS5, HO⟩
  iapply (send_step m ρ K c 6 (insert (SemLoc.reg barS, ()) W) _ (dev22_eq c)) $$ [Hr0 Hb6 HO HtS6 HtV6]
  · isplitr; · iexact HR
    isplitl [Hr0]; · iexact Hr0
    isplitl [Hb6]; · iexact Hb6
    isplitl [HO]; · iexact HO
    isplitl [HtS6]; · iexact HtS6
    iexact HtV6
  iintro ⟨Hr0, HcS6, HO⟩
  iapply (send_step m ρ K c 7 (insert (SemLoc.reg barS, ()) W) _ (dev23_eq c)) $$ [Hr0 Hb7 HO HtS7 HtV7]
  · isplitr; · iexact HR
    isplitl [Hr0]; · iexact Hr0
    isplitl [Hb7]; · iexact Hb7
    isplitl [HO]; · iexact HO
    isplitl [HtS7]; · iexact HtS7
    iexact HtV7
  iintro ⟨Hr0, HcS7, HO⟩
  iapply (send_step m ρ K c 8 (insert (SemLoc.reg barS, ()) W) _ (dev24_eq c)) $$ [Hr0 Hb8 HO HtS8 HtV8]
  · isplitr; · iexact HR
    isplitl [Hr0]; · iexact Hr0
    isplitl [Hb8]; · iexact Hb8
    isplitl [HO]; · iexact HO
    isplitl [HtS8]; · iexact HtS8
    iexact HtV8
  iintro ⟨Hr0, HcS8, HO⟩
  iapply (send_step m ρ K c 9 (insert (SemLoc.reg barS, ()) W) _ (dev25_eq c)) $$ [Hr0 Hb9 HO HtS9 HtV9]
  · isplitr; · iexact HR
    isplitl [Hr0]; · iexact Hr0
    isplitl [Hb9]; · iexact Hb9
    isplitl [HO]; · iexact HO
    isplitl [HtS9]; · iexact HtS9
    iexact HtV9
  iintro ⟨Hr0, HcS9, HO⟩
  iapply (send_step m ρ K c 10 (insert (SemLoc.reg barS, ()) W) _ (dev26_eq c)) $$ [Hr0 Hb10 HO HtS10 HtV10]
  · isplitr; · iexact HR
    isplitl [Hr0]; · iexact Hr0
    isplitl [Hb10]; · iexact Hb10
    isplitl [HO]; · iexact HO
    isplitl [HtS10]; · iexact HtS10
    iexact HtV10
  iintro ⟨Hr0, HcS10, HO⟩
  iapply (send_step m ρ K c 11 (insert (SemLoc.reg barS, ()) W) _ (dev27_eq c)) $$ [Hr0 Hb11 HO HtS11 HtV11]
  · isplitr; · iexact HR
    isplitl [Hr0]; · iexact Hr0
    isplitl [Hb11]; · iexact Hb11
    isplitl [HO]; · iexact HO
    isplitl [HtS11]; · iexact HtS11
    iexact HtV11
  iintro ⟨Hr0, HcS11, HO⟩
  iapply (send_step m ρ K c 12 (insert (SemLoc.reg barS, ()) W) _ (dev28_eq c)) $$ [Hr0 Hb12 HO HtS12 HtV12]
  · isplitr; · iexact HR
    isplitl [Hr0]; · iexact Hr0
    isplitl [Hb12]; · iexact Hb12
    isplitl [HO]; · iexact HO
    isplitl [HtS12]; · iexact HtS12
    iexact HtV12
  iintro ⟨Hr0, HcS12, HO⟩
  iapply (send_step m ρ K c 13 (insert (SemLoc.reg barS, ()) W) _ (dev29_eq c)) $$ [Hr0 Hb13 HO HtS13 HtV13]
  · isplitr; · iexact HR
    isplitl [Hr0]; · iexact Hr0
    isplitl [Hb13]; · iexact Hb13
    isplitl [HO]; · iexact HO
    isplitl [HtS13]; · iexact HtS13
    iexact HtV13
  iintro ⟨Hr0, HcS13, HO⟩
  iapply (send_step m ρ K c 14 (insert (SemLoc.reg barS, ()) W) _ (dev30_eq c)) $$ [Hr0 Hb14 HO HtS14 HtV14]
  · isplitr; · iexact HR
    isplitl [Hr0]; · iexact Hr0
    isplitl [Hb14]; · iexact Hb14
    isplitl [HO]; · iexact HO
    isplitl [HtS14]; · iexact HtS14
    iexact HtV14
  iintro ⟨Hr0, HcS14, HO⟩
  rw [show Ox c ((14 : D).val + 1) = 0 from Ox_15 c]
  iapply (wsend_step m ρ K c 0 (insert (SemLoc.reg barS, ()) W)) $$ [HcS0 HO HatS0]
  · isplitr; · iexact HR
    isplitl [HcS0]; · iexact HcS0
    isplitl [HO]; · iexact HO
    iexact HatS0
  iintro ⟨HO, HzS0, HpS0⟩
  iapply (wrecv_step m ρ K c 0 (insert (SemLoc.dma (sendQ 0), ()) (insert (SemLoc.reg barS, ()) W))) $$ [HcV0 HO HatV0]
  · isplitr; · iexact HR
    isplitl [HcV0]; · iexact HcV0
    isplitl [HO]; · iexact HO
    iexact HatV0
  iintro ⟨HO, HzV0, HpV0⟩
  iapply (wsend_step m ρ K c 1 (insert (SemLoc.dma (recvQ 0), ()) (insert (SemLoc.dma (sendQ 0), ()) (insert (SemLoc.reg barS, ()) W)))) $$ [HcS1 HO HatS1]
  · isplitr; · iexact HR
    isplitl [HcS1]; · iexact HcS1
    isplitl [HO]; · iexact HO
    iexact HatS1
  iintro ⟨HO, HzS1, HpS1⟩
  iapply (wrecv_step m ρ K c 1 (insert (SemLoc.dma (sendQ 1), ()) (insert (SemLoc.dma (recvQ 0), ()) (insert (SemLoc.dma (sendQ 0), ()) (insert (SemLoc.reg barS, ()) W))))) $$ [HcV1 HO HatV1]
  · isplitr; · iexact HR
    isplitl [HcV1]; · iexact HcV1
    isplitl [HO]; · iexact HO
    iexact HatV1
  iintro ⟨HO, HzV1, HpV1⟩
  iapply (wsend_step m ρ K c 2 (insert (SemLoc.dma (recvQ 1), ()) (insert (SemLoc.dma (sendQ 1), ()) (insert (SemLoc.dma (recvQ 0), ()) (insert (SemLoc.dma (sendQ 0), ()) (insert (SemLoc.reg barS, ()) W)))))) $$ [HcS2 HO HatS2]
  · isplitr; · iexact HR
    isplitl [HcS2]; · iexact HcS2
    isplitl [HO]; · iexact HO
    iexact HatS2
  iintro ⟨HO, HzS2, HpS2⟩
  iapply (wrecv_step m ρ K c 2 (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))) $$ [HcV2 HO HatV2]
  · isplitr; · iexact HR
    isplitl [HcV2]; · iexact HcV2
    isplitl [HO]; · iexact HO
    iexact HatV2
  iintro ⟨HO, HzV2, HpV2⟩
  iapply (wsend_step m ρ K c 3 (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))) $$ [HcS3 HO HatS3]
  · isplitr; · iexact HR
    isplitl [HcS3]; · iexact HcS3
    isplitl [HO]; · iexact HO
    iexact HatS3
  iintro ⟨HO, HzS3, HpS3⟩
  iapply (wrecv_step m ρ K c 3 (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))) $$ [HcV3 HO HatV3]
  · isplitr; · iexact HR
    isplitl [HcV3]; · iexact HcV3
    isplitl [HO]; · iexact HO
    iexact HatV3
  iintro ⟨HO, HzV3, HpV3⟩
  iapply (wsend_step m ρ K c 4 (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))) $$ [HcS4 HO HatS4]
  · isplitr; · iexact HR
    isplitl [HcS4]; · iexact HcS4
    isplitl [HO]; · iexact HO
    iexact HatS4
  iintro ⟨HO, HzS4, HpS4⟩
  iapply (wrecv_step m ρ K c 4 (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))) $$ [HcV4 HO HatV4]
  · isplitr; · iexact HR
    isplitl [HcV4]; · iexact HcV4
    isplitl [HO]; · iexact HO
    iexact HatV4
  iintro ⟨HO, HzV4, HpV4⟩
  iapply (wsend_step m ρ K c 5 (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))) $$ [HcS5 HO HatS5]
  · isplitr; · iexact HR
    isplitl [HcS5]; · iexact HcS5
    isplitl [HO]; · iexact HO
    iexact HatS5
  iintro ⟨HO, HzS5, HpS5⟩
  iapply (wrecv_step m ρ K c 5 (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))) $$ [HcV5 HO HatV5]
  · isplitr; · iexact HR
    isplitl [HcV5]; · iexact HcV5
    isplitl [HO]; · iexact HO
    iexact HatV5
  iintro ⟨HO, HzV5, HpV5⟩
  iapply (wsend_step m ρ K c 6 (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))) $$ [HcS6 HO HatS6]
  · isplitr; · iexact HR
    isplitl [HcS6]; · iexact HcS6
    isplitl [HO]; · iexact HO
    iexact HatS6
  iintro ⟨HO, HzS6, HpS6⟩
  iapply (wrecv_step m ρ K c 6 (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))) $$ [HcV6 HO HatV6]
  · isplitr; · iexact HR
    isplitl [HcV6]; · iexact HcV6
    isplitl [HO]; · iexact HO
    iexact HatV6
  iintro ⟨HO, HzV6, HpV6⟩
  iapply (wsend_step m ρ K c 7 (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))) $$ [HcS7 HO HatS7]
  · isplitr; · iexact HR
    isplitl [HcS7]; · iexact HcS7
    isplitl [HO]; · iexact HO
    iexact HatS7
  iintro ⟨HO, HzS7, HpS7⟩
  iapply (wrecv_step m ρ K c 7 (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))) $$ [HcV7 HO HatV7]
  · isplitr; · iexact HR
    isplitl [HcV7]; · iexact HcV7
    isplitl [HO]; · iexact HO
    iexact HatV7
  iintro ⟨HO, HzV7, HpV7⟩
  iapply (wsend_step m ρ K c 8 (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))) $$ [HcS8 HO HatS8]
  · isplitr; · iexact HR
    isplitl [HcS8]; · iexact HcS8
    isplitl [HO]; · iexact HO
    iexact HatS8
  iintro ⟨HO, HzS8, HpS8⟩
  iapply (wrecv_step m ρ K c 8 (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))) $$ [HcV8 HO HatV8]
  · isplitr; · iexact HR
    isplitl [HcV8]; · iexact HcV8
    isplitl [HO]; · iexact HO
    iexact HatV8
  iintro ⟨HO, HzV8, HpV8⟩
  iapply (wsend_step m ρ K c 9 (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))) $$ [HcS9 HO HatS9]
  · isplitr; · iexact HR
    isplitl [HcS9]; · iexact HcS9
    isplitl [HO]; · iexact HO
    iexact HatS9
  iintro ⟨HO, HzS9, HpS9⟩
  iapply (wrecv_step m ρ K c 9 (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))) $$ [HcV9 HO HatV9]
  · isplitr; · iexact HR
    isplitl [HcV9]; · iexact HcV9
    isplitl [HO]; · iexact HO
    iexact HatV9
  iintro ⟨HO, HzV9, HpV9⟩
  iapply (wsend_step m ρ K c 10 (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))) $$ [HcS10 HO HatS10]
  · isplitr; · iexact HR
    isplitl [HcS10]; · iexact HcS10
    isplitl [HO]; · iexact HO
    iexact HatS10
  iintro ⟨HO, HzS10, HpS10⟩
  iapply (wrecv_step m ρ K c 10 (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))) $$ [HcV10 HO HatV10]
  · isplitr; · iexact HR
    isplitl [HcV10]; · iexact HcV10
    isplitl [HO]; · iexact HO
    iexact HatV10
  iintro ⟨HO, HzV10, HpV10⟩
  iapply (wsend_step m ρ K c 11 (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))) $$ [HcS11 HO HatS11]
  · isplitr; · iexact HR
    isplitl [HcS11]; · iexact HcS11
    isplitl [HO]; · iexact HO
    iexact HatS11
  iintro ⟨HO, HzS11, HpS11⟩
  iapply (wrecv_step m ρ K c 11 (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))) $$ [HcV11 HO HatV11]
  · isplitr; · iexact HR
    isplitl [HcV11]; · iexact HcV11
    isplitl [HO]; · iexact HO
    iexact HatV11
  iintro ⟨HO, HzV11, HpV11⟩
  iapply (wsend_step m ρ K c 12 (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))) $$ [HcS12 HO HatS12]
  · isplitr; · iexact HR
    isplitl [HcS12]; · iexact HcS12
    isplitl [HO]; · iexact HO
    iexact HatS12
  iintro ⟨HO, HzS12, HpS12⟩
  iapply (wrecv_step m ρ K c 12 (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))) $$ [HcV12 HO HatV12]
  · isplitr; · iexact HR
    isplitl [HcV12]; · iexact HcV12
    isplitl [HO]; · iexact HO
    iexact HatV12
  iintro ⟨HO, HzV12, HpV12⟩
  iapply (wsend_step m ρ K c 13 (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))) $$ [HcS13 HO HatS13]
  · isplitr; · iexact HR
    isplitl [HcS13]; · iexact HcS13
    isplitl [HO]; · iexact HO
    iexact HatS13
  iintro ⟨HO, HzS13, HpS13⟩
  iapply (wrecv_step m ρ K c 13 (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))))) $$ [HcV13 HO HatV13]
  · isplitr; · iexact HR
    isplitl [HcV13]; · iexact HcV13
    isplitl [HO]; · iexact HO
    iexact HatV13
  iintro ⟨HO, HzV13, HpV13⟩
  iapply (wsend_step m ρ K c 14 (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))))) $$ [HcS14 HO HatS14]
  · isplitr; · iexact HR
    isplitl [HcS14]; · iexact HcS14
    isplitl [HO]; · iexact HO
    iexact HatS14
  iintro ⟨HO, HzS14, HpS14⟩
  iapply (wrecv_step m ρ K c 14 (insert (SemLoc.dma (sendQ 14), ()) (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W))))))))))))))))))))))))))))))) $$ [HcV14 HO HatV14]
  · isplitr; · iexact HR
    isplitl [HcV14]; · iexact HcV14
    isplitl [HO]; · iexact HO
    iexact HatV14
  iintro ⟨HO, HzV14, HpV14⟩
  unfold sendPay slotPts
  ihave Hr0 := (pts_split (F := F) 14).2 $$ [HpS14 Hr0]
  · isplitl [HpS14]; · iexact HpS14
    iexact Hr0
  ihave Hr0 := (pts_split (F := F) 13).2 $$ [HpS13 Hr0]
  · isplitl [HpS13]; · iexact HpS13
    iexact Hr0
  ihave Hr0 := (pts_split (F := F) 12).2 $$ [HpS12 Hr0]
  · isplitl [HpS12]; · iexact HpS12
    iexact Hr0
  ihave Hr0 := (pts_split (F := F) 11).2 $$ [HpS11 Hr0]
  · isplitl [HpS11]; · iexact HpS11
    iexact Hr0
  ihave Hr0 := (pts_split (F := F) 10).2 $$ [HpS10 Hr0]
  · isplitl [HpS10]; · iexact HpS10
    iexact Hr0
  ihave Hr0 := (pts_split (F := F) 9).2 $$ [HpS9 Hr0]
  · isplitl [HpS9]; · iexact HpS9
    iexact Hr0
  ihave Hr0 := (pts_split (F := F) 8).2 $$ [HpS8 Hr0]
  · isplitl [HpS8]; · iexact HpS8
    iexact Hr0
  ihave Hr0 := (pts_split (F := F) 7).2 $$ [HpS7 Hr0]
  · isplitl [HpS7]; · iexact HpS7
    iexact Hr0
  ihave Hr0 := (pts_split (F := F) 6).2 $$ [HpS6 Hr0]
  · isplitl [HpS6]; · iexact HpS6
    iexact Hr0
  ihave Hr0 := (pts_split (F := F) 5).2 $$ [HpS5 Hr0]
  · isplitl [HpS5]; · iexact HpS5
    iexact Hr0
  ihave Hr0 := (pts_split (F := F) 4).2 $$ [HpS4 Hr0]
  · isplitl [HpS4]; · iexact HpS4
    iexact Hr0
  ihave Hr0 := (pts_split (F := F) 3).2 $$ [HpS3 Hr0]
  · isplitl [HpS3]; · iexact HpS3
    iexact Hr0
  ihave Hr0 := (pts_split (F := F) 2).2 $$ [HpS2 Hr0]
  · isplitl [HpS2]; · iexact HpS2
    iexact Hr0
  ihave Hr0 := (pts_split (F := F) 1).2 $$ [HpS1 Hr0]
  · isplitl [HpS1]; · iexact HpS1
    iexact Hr0
  ihave Hr0 := (pts_split (F := F) 0).2 $$ [HpS0 Hr0]
  · isplitl [HpS0]; · iexact HpS0
    iexact Hr0
  ihave Hr0 := (Entails.of_eq (show (((slotM 0).view.loc (c : Thread nD τ) ↦[(slotM 0).view.set]{restS 0} G m ρ c : sProp 𝕄)) = (scrLoc c ↦[J 0]{fullShare} G m ρ c) from slotPts_eq c 0 fullShare (G m ρ c))) $$ Hr0
  ihave HpV0 := (Entails.of_eq ((show recvPay m ρ c 0 = slotPts c (succ16 0) fullShare (G m ρ c) from rfl).trans (slotPts_eq c (succ16 0) fullShare (G m ρ c)))) $$ HpV0
  ihave HpV1 := (Entails.of_eq ((show recvPay m ρ c 1 = slotPts c (succ16 1) fullShare (G m ρ c) from rfl).trans (slotPts_eq c (succ16 1) fullShare (G m ρ c)))) $$ HpV1
  ihave HpV2 := (Entails.of_eq ((show recvPay m ρ c 2 = slotPts c (succ16 2) fullShare (G m ρ c) from rfl).trans (slotPts_eq c (succ16 2) fullShare (G m ρ c)))) $$ HpV2
  ihave HpV3 := (Entails.of_eq ((show recvPay m ρ c 3 = slotPts c (succ16 3) fullShare (G m ρ c) from rfl).trans (slotPts_eq c (succ16 3) fullShare (G m ρ c)))) $$ HpV3
  ihave HpV4 := (Entails.of_eq ((show recvPay m ρ c 4 = slotPts c (succ16 4) fullShare (G m ρ c) from rfl).trans (slotPts_eq c (succ16 4) fullShare (G m ρ c)))) $$ HpV4
  ihave HpV5 := (Entails.of_eq ((show recvPay m ρ c 5 = slotPts c (succ16 5) fullShare (G m ρ c) from rfl).trans (slotPts_eq c (succ16 5) fullShare (G m ρ c)))) $$ HpV5
  ihave HpV6 := (Entails.of_eq ((show recvPay m ρ c 6 = slotPts c (succ16 6) fullShare (G m ρ c) from rfl).trans (slotPts_eq c (succ16 6) fullShare (G m ρ c)))) $$ HpV6
  ihave HpV7 := (Entails.of_eq ((show recvPay m ρ c 7 = slotPts c (succ16 7) fullShare (G m ρ c) from rfl).trans (slotPts_eq c (succ16 7) fullShare (G m ρ c)))) $$ HpV7
  ihave HpV8 := (Entails.of_eq ((show recvPay m ρ c 8 = slotPts c (succ16 8) fullShare (G m ρ c) from rfl).trans (slotPts_eq c (succ16 8) fullShare (G m ρ c)))) $$ HpV8
  ihave HpV9 := (Entails.of_eq ((show recvPay m ρ c 9 = slotPts c (succ16 9) fullShare (G m ρ c) from rfl).trans (slotPts_eq c (succ16 9) fullShare (G m ρ c)))) $$ HpV9
  ihave HpV10 := (Entails.of_eq ((show recvPay m ρ c 10 = slotPts c (succ16 10) fullShare (G m ρ c) from rfl).trans (slotPts_eq c (succ16 10) fullShare (G m ρ c)))) $$ HpV10
  ihave HpV11 := (Entails.of_eq ((show recvPay m ρ c 11 = slotPts c (succ16 11) fullShare (G m ρ c) from rfl).trans (slotPts_eq c (succ16 11) fullShare (G m ρ c)))) $$ HpV11
  ihave HpV12 := (Entails.of_eq ((show recvPay m ρ c 12 = slotPts c (succ16 12) fullShare (G m ρ c) from rfl).trans (slotPts_eq c (succ16 12) fullShare (G m ρ c)))) $$ HpV12
  ihave HpV13 := (Entails.of_eq ((show recvPay m ρ c 13 = slotPts c (succ16 13) fullShare (G m ρ c) from rfl).trans (slotPts_eq c (succ16 13) fullShare (G m ρ c)))) $$ HpV13
  ihave HpV14 := (Entails.of_eq ((show recvPay m ρ c 14 = slotPts c (succ16 14) fullShare (G m ρ c) from rfl).trans (slotPts_eq c (succ16 14) fullShare (G m ρ c)))) $$ HpV14
  ihave Hall := (Entails.of_eq ((Ring.pointsTo_blocks (Ix := Unit) (Name := ℕ) (U := UU) (Lvl := ℕ) (q := fullShare) J J_disjoint J_cover (G m ρ c)).trans (bigSep_F16 _)).symm) $$ [Hr0 HpV0 HpV1 HpV2 HpV3 HpV4 HpV5 HpV6 HpV7 HpV8 HpV9 HpV10 HpV11 HpV12 HpV13 HpV14]
  · isplitl [Hr0]; · iexact Hr0
    isplitl [HpV0]; · iexact HpV0
    isplitl [HpV1]; · iexact HpV1
    isplitl [HpV2]; · iexact HpV2
    isplitl [HpV3]; · iexact HpV3
    isplitl [HpV4]; · iexact HpV4
    isplitl [HpV5]; · iexact HpV5
    isplitl [HpV6]; · iexact HpV6
    isplitl [HpV7]; · iexact HpV7
    isplitl [HpV8]; · iexact HpV8
    isplitl [HpV9]; · iexact HpV9
    isplitl [HpV10]; · iexact HpV10
    isplitl [HpV11]; · iexact HpV11
    isplitl [HpV12]; · iexact HpV12
    isplitl [HpV13]; · iexact HpV13
    iexact HpV14
  iapply (wp_load 𝒱₀ (c : Thread nD τ) none Set.univ (m := scrM) (Finset.subset_univ _)) $$ Hall; iintro Hall
  rw [read_scr]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hall HzS0 HzS1 HzS2 HzS3 HzS4 HzS5 HzS6 HzS7 HzS8 HzS9 HzS10 HzS11 HzS12 HzS13 HzS14 HzV0 HzV1 HzV2 HzV3 HzV4 HzV5 HzV6 HzV7 HzV8 HzV9 HzV10 HzV11 HzV12 HzV13 HzV14 Hun]
  · isplitl [Hall]; · iexact Hall
    isplitl [HzS0 HzS1 HzS2 HzS3 HzS4 HzS5 HzS6 HzS7 HzS8 HzS9 HzS10 HzS11 HzS12 HzS13 HzS14]
    · iapply (Entails.of_eq (bigSep_D (fun j : D => (semVal (sendCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzS9]; · iexact HzS9
      isplitl [HzS10]; · iexact HzS10
      isplitl [HzS11]; · iexact HzS11
      isplitl [HzS12]; · iexact HzS12
      isplitl [HzS13]; · iexact HzS13
      iexact HzS14
    isplitl [HzV0 HzV1 HzV2 HzV3 HzV4 HzV5 HzV6 HzV7 HzV8 HzV9 HzV10 HzV11 HzV12 HzV13 HzV14]
    · iapply (Entails.of_eq (bigSep_D (fun j : D => (semVal (recvCell c j) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      isplitl [HzV7]; · iexact HzV7
      isplitl [HzV8]; · iexact HzV8
      isplitl [HzV9]; · iexact HzV9
      isplitl [HzV10]; · iexact HzV10
      isplitl [HzV11]; · iexact HzV11
      isplitl [HzV12]; · iexact HzV12
      isplitl [HzV13]; · iexact HzV13
      iexact HzV14
    iexact Hun
  isplitl [HO]
  · iexists (insert (SemLoc.dma (recvQ 14), ()) (insert (SemLoc.dma (sendQ 14), ()) (insert (SemLoc.dma (recvQ 13), ()) (insert (SemLoc.dma (sendQ 13), ()) (insert (SemLoc.dma (recvQ 12), ()) (insert (SemLoc.dma (sendQ 12), ()) (insert (SemLoc.dma (recvQ 11), ()) (insert (SemLoc.dma (sendQ 11), ()) (insert (SemLoc.dma (recvQ 10), ()) (insert (SemLoc.dma (sendQ 10), ()) (insert (SemLoc.dma (recvQ 9), ()) (insert (SemLoc.dma (sendQ 9), ()) (insert (SemLoc.dma (recvQ 8), ()) (insert (SemLoc.dma (sendQ 8), ()) (insert (SemLoc.dma (recvQ 7), ()) (insert (SemLoc.dma (sendQ 7), ()) (insert (SemLoc.dma (recvQ 6), ()) (insert (SemLoc.dma (sendQ 6), ()) (insert (SemLoc.dma (recvQ 5), ()) (insert (SemLoc.dma (sendQ 5), ()) (insert (SemLoc.dma (recvQ 4), ()) (insert (SemLoc.dma (sendQ 4), ()) (insert (SemLoc.dma (recvQ 3), ()) (insert (SemLoc.dma (sendQ 3), ()) (insert (SemLoc.dma (recvQ 2), ()) (insert (SemLoc.dma (sendQ 2), ()) (insert (SemLoc.dma (recvQ 1), ()) (insert (SemLoc.dma (sendQ 1), ()) (insert (SemLoc.dma (recvQ 0), ()) (insert (SemLoc.dma (sendQ 0), ()) (insert (SemLoc.reg barS, ()) W)))))))))))))))))))))))))))))))
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.Kernel.Mean.sound_body' depends on axioms: [propext, Classical.choice, Quot.sound] -/
#guard_msgs in #print axioms sound_body

end Body
end Cert.Kernel.Mean
end
-- ==== Proof.Bits.Launch.lean ====
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.Kernel.Skeleton
import Idealize.ShloMosaic.Lib.Pipeline.Launch
import Idealize.ShloMosaic.Lib.Pipeline.Kit
import Idealize.ShloMosaic.Lib.Pipeline.Value
import Idealize.ShloMosaic.Lib.Tactic
import proofs.«900455_g7700000000000456_dist_mean_ax0_shard0_i_m4096_n1024_v7x_i16_bf16_1_alg».proof.Proof.Bits.Body

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation in the library's form -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-! ## The launch -/

/-- The kernel's own semaphores: the two that no copy uses, the fifteen send and the fifteen receive semaphores. -/
abbrev OK : Type := Bool ⊕ (D ⊕ D)
def osem : OK → SemLoc sig
  | .inl false => .dma (⟨2, by decide⟩ : DmaSem sig)
  | .inl true => .dma (⟨18, by decide⟩ : DmaSem sig)
  | .inr (.inl j) => .dma (sendQ j)
  | .inr (.inr j) => .dma (recvQ j)

theorem ownSemFacts : Pipeline.OwnSemFacts cfg0.spec osem := by decide

theorem share_eq (c : Dev nD) (w : Fin cfg0.W) : (dats m ρ 0 c).share w = fullShare := by unfold Dat.share; split <;> rfl

/-- A conjunction over a device's cells, by kind. -/
def per (Φ : GSem nD τ sig → sProp 𝕄) (c : Dev nD) : sProp 𝕄 :=
  iprop(Φ (barCell c) ∗ (bigSep Finset.univ fun j : D => Φ (sendCell c j)) ∗ bigSep Finset.univ fun j : D => Φ (recvCell c j))

omit [FloatOps F] in
theorem bigSep_ring (Φ : GSem nD τ sig → sProp 𝕄) : bigSep ringCells Φ = bigSep Finset.univ fun c : Dev nD => per Φ c := by
  unfold ringCells; rw [bigSep_map, bigSep_univ_prod]
  refine bigSep_congr fun c _ => ?_
  rw [bigSep_univ_sum, bigSep_univ_sum, bigSep_univ_of_subsingleton ()]; rfl

/-- The duty tokens as minted, by device and kind: the fifteen of its barrier cell, one per send cell, one per receive cell. -/
abbrev TK : Type := D ⊕ (D ⊕ D)
def tokOf (x : Dev nD × TK) : GSem nD τ sig × ℕ × D := match x.2 with
  | .inl j => (barCell x.1, 0, j)
  | .inr (.inl j) => (sendCell x.1 j, 0, 0)
  | .inr (.inr j) => (recvCell x.1 j, 0, 0)
def tkey : TK → SemLoc sig × D
  | .inl j => (.reg barS, j)
  | .inr (.inl j) => (.dma (sendQ j), 0)
  | .inr (.inr j) => (.dma (recvQ j), 0)
theorem tkey_injective : Function.Injective tkey := by decide
theorem tokOf_injective : Function.Injective (tokOf : Dev nD × TK → GSem nD τ sig × ℕ × D) := by
  rintro ⟨c, k⟩ ⟨c', k'⟩ h
  have h1 : c = c' := by
    have := congrArg (fun x : GSem nD τ sig × ℕ × D => x.1.1.1) h
    rcases k with j | j | j <;> rcases k' with j' | j' | j' <;> exact this
  subst h1
  have h2 : tkey k = tkey k' := by
    rcases k with j | j | j <;> rcases k' with j' | j' | j' <;> exact congrArg (fun x : GSem nD τ sig × ℕ × D => (x.1.2, x.2.2)) h
  rw [tkey_injective h2]
def ringToks : Finset (GSem nD τ sig × ℕ × D) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun j : D => dutyTok ER (barCell c) 0 j) ∗ (bigSep Finset.univ fun j : D => dutyTok ER (sendCell c j) 0 0)
    ∗ bigSep Finset.univ fun j : D => dutyTok ER (recvCell c j) 0 0)

omit [FloatOps F] in
theorem bigSep_toks : bigSep ringToks (fun x => (dutyTok ER x.1 x.2.1 x.2.2 : sProp 𝕄)) = bigSep Finset.univ fun c : Dev nD => toks (F := F) c := by
  unfold ringToks; rw [bigSep_map, bigSep_univ_prod]
  refine bigSep_congr fun c _ => ?_
  rw [bigSep_univ_sum, bigSep_univ_sum]; rfl

/-- What the launch element deals device c: -/
def Gl (c : Dev nD) : sProp 𝕄 :=
  iprop(per (fun g => roundState ER (Rd m ρ) g 0) c ∗ per (fun g => reached ER g 0) c ∗ per (fun g => atPos ER g 0 ∅ 0) c ∗ toks (F := F) c)
/-- and what the global step makes of it. -/
def G' (c : Dev nD) : sProp 𝕄 := iprop((∃ K, ghost m ρ K c) ∗ unusedSems (F := F) c)

theorem fund_ring : BI.own (ER (initOf ringCells ringToks)) ⊢ (|==> bigSep Finset.univ (Gl m ρ) : sProp 𝕄) := by
  iintro HX
  imod (Rounds.fund ER (Rd m ρ) ringCells ringToks) $$ HX with ⟨Hst, Hr, Hat, Htok⟩
  imodintro
  ihave Hst' := (Entails.of_eq (bigSep_ring fun g => roundState ER (Rd m ρ) g 0)) $$ Hst
  ihave Hat' := (Entails.of_eq (bigSep_ring (F := F) fun g => atPos ER g 0 ∅ 0)) $$ Hat
  ihave Hr' := (Entails.of_eq (bigSep_ring (F := F) fun g => reached ER g 0)) $$ Hr
  ihave Htok' := (Entails.of_eq (bigSep_toks (F := F))) $$ Htok
  unfold Gl; simp only [bigSep_sep']
  isplitl [Hst']; · iexact Hst'
  isplitl [Hr']; · iexact Hr'
  isplitl [Hat']; · iexact Hat'
  iexact Htok'

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(unusedSems (F := F) c ∗ (bigSep Finset.univ fun j : D => semVal (sendCell c j) 0) ∗ bigSep Finset.univ fun j : D => semVal (recvCell c j) 0) := by
  unfold Pipeline.ownSems0 unusedSems
  rw [bigSep_univ_sum, bigSep_univ_sum, bigSep_bool]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem alloc_one (g : GSem nD τ sig) :
    iprop(semVal g 0 ∗ roundState ER (Rd m ρ) g 0) ⊢ (|={Set.univ}=> iprop(∃ κ : ℕ, cellInv ER (Rd m ρ) κ g) : sProp 𝕄) :=
  (Rounds.body_intro ER (Rd m ρ) g).trans inv_alloc

theorem alloc_fam (Ψ : D → GSem nD τ sig) :
    iprop((bigSep Finset.univ fun j : D => semVal (Ψ j) 0) ∗ bigSep Finset.univ fun j : D => roundState ER (Rd m ρ) (Ψ j) 0)
      ⊢ (|={Set.univ}=> bigSep Finset.univ fun j : D => iprop(∃ κ : ℕ, cellInv ER (Rd m ρ) κ (Ψ j)) : sProp 𝕄) := by
  rw [← bigSep_sep']
  exact (bigSep_mono fun j _ => alloc_one m ρ (Ψ j)).trans (bigSep_fupd _ _)

theorem core_alloc (c : Dev nD) :
    iprop(Pipeline.ownSems0 (Ix := Unit) (Name := ℕ) (U := UU) (Lvl := ℕ) (Val := Elt F) (τ := τ) osem c ∗ unscopedSems0 c ∗ Gl m ρ c)
      ⊢ |={Set.univ}=> iprop(per (fun g => iprop(∃ κ : ℕ, cellInv ER (Rd m ρ) κ g)) c ∗ per (fun g => reached ER g 0) c
          ∗ per (fun g => atPos ER g 0 ∅ 0) c ∗ toks (F := F) c ∗ unusedSems (F := F) c) := by
  rw [ownSems0_eq, unscopedSems0_eq]
  unfold Gl per
  iintro ⟨⟨Hun, HvS, HvV⟩, HvB, ⟨HsB, HsS, HsV⟩, Hr, Hat, Htok⟩
  imod (alloc_one m ρ (barCell c)) $$ [HvB HsB] with HiB
  · isplitl [HvB] <;> iassumption
  imod (alloc_fam m ρ (sendCell c)) $$ [HvS HsS] with HiS
  · isplitl [HvS] <;> iassumption
  imod (alloc_fam m ρ (recvCell c)) $$ [HvV HsV] with HiV
  · isplitl [HvV] <;> iassumption
  imodintro
  isplitl [HiB HiS HiV]
  · isplitl [HiB]; · iexact HiB
    isplitl [HiS]; · iexact HiS
    iexact HiV
  isplitl [Hr]; · iexact Hr
  isplitl [Hat]; · iexact Hat
  isplitl [Htok]; · iexact Htok
  iexact Hun

/-- The tokens of the duties device c pays. -/
def payToks (c : Dev nD) : sProp 𝕄 :=
  iprop((bigSep Finset.univ fun j : D => dutyTok ER (barCell (peerTo c j)) 0 j.rev) ∗ (bigSep Finset.univ fun j : D => dutyTok ER (sendCell c j) 0 0)
    ∗ bigSep Finset.univ fun j : D => dutyTok ER (recvCell (peerTo c j) j) 0 0)

def stepE (j : D) : Dev nD ≃ Dev nD := ⟨fun c => peerTo c j, fun c => peerFrom c j, fun c => peerFrom_peerTo c j, fun c => peerTo_peerFrom c j⟩

omit [FloatOps F] in
/-- Every token goes to the device that pays its duty: a barrier cell's token j to the device j + 1 places on, a receive
    cell's to the device j + 1 places back. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep']
  have hB : (bigSep Finset.univ fun c : Dev nD => bigSep Finset.univ fun j : D => (dutyTok ER (barCell c) 0 j : sProp 𝕄))
      = bigSep Finset.univ fun c : Dev nD => bigSep Finset.univ fun j : D => (dutyTok ER (barCell (peerTo c j)) 0 j.rev : sProp 𝕄) := by
    rw [bigSep_univ_comm, bigSep_univ_comm (fun (c : Dev nD) (j : D) => (dutyTok ER (barCell (peerTo c j)) 0 j.rev : sProp 𝕄)),
      bigSep_univ_equiv Fin.revPerm (fun j : D => bigSep Finset.univ fun c : Dev nD => (dutyTok ER (barCell c) 0 j : sProp 𝕄))]
    refine bigSep_congr fun j _ => ?_
    rw [bigSep_univ_equiv (stepE j) (fun c : Dev nD => (dutyTok ER (barCell c) 0 (Fin.revPerm j) : sProp 𝕄))]
    rfl
  have hV : (bigSep Finset.univ fun c : Dev nD => bigSep Finset.univ fun j : D => (dutyTok ER (recvCell c j) 0 0 : sProp 𝕄))
      = bigSep Finset.univ fun c : Dev nD => bigSep Finset.univ fun j : D => (dutyTok ER (recvCell (peerTo c j) j) 0 0 : sProp 𝕄) := by
    rw [bigSep_univ_comm, bigSep_univ_comm (fun (c : Dev nD) (j : D) => (dutyTok ER (recvCell (peerTo c j) j) 0 0 : sProp 𝕄))]
    refine bigSep_congr fun j _ => ?_
    rw [bigSep_univ_equiv (stepE j) (fun c : Dev nD => (dutyTok ER (recvCell c j) 0 0 : sProp 𝕄))]
    rfl
  rw [hB, hV]

theorem ghost_intro (K : GSem nD τ sig → ℕ) (c : Dev nD) :
    iprop(records m ρ K ∗ (per (fun g => atPos ER g 0 ∅ 0) c ∗ payToks (F := F) c ∗ unusedSems (F := F) c)) ⊢ G' m ρ c := by
  unfold per payToks G' ghost
  iintro ⟨#HR, ⟨HaB, HaS, HaV⟩, ⟨HtB, HtS, HtV⟩, Hun⟩
  isplitl [HaB HaS HaV HtB HtS HtV]
  · iexists K
    isplitr; · iexact HR
    isplitl [HaB]; · iexact HaB
    isplitl [HaS]; · iexact HaS
    isplitl [HaV]; · iexact HaV
    isplitl [HtB]; · iexact HtB
    isplitl [HtS]; · iexact HtS
    iexact HtV
  iexact Hun

theorem regroup :
    (bigSep Finset.univ fun c : Dev nD => iprop(per (fun g => iprop(∃ κ : ℕ, cellInv ER (Rd m ρ) κ g)) c ∗ per (fun g => reached ER g 0) c
          ∗ per (fun g => atPos ER g 0 ∅ 0) c ∗ toks (F := F) c ∗ unusedSems (F := F) c) : sProp 𝕄)
      ⊢ bigSep Finset.univ (G' m ρ) := by
  rw [bigSep_sep', bigSep_sep', bigSep_sep', bigSep_sep',
    ← bigSep_ring (fun g => iprop(∃ κ : ℕ, cellInv ER (Rd m ρ) κ g)), ← bigSep_ring (F := F) (fun g => reached ER g 0)]
  iintro ⟨HI, #HR, Hat, Htok, Hun⟩
  ihave HK := (BI.bigSep_exists_pi ringCells (fun (g : GSem nD τ sig) (κ : ℕ) => (cellInv ER (Rd m ρ) κ g : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep', bigSep_sep']
    isplitl [Hat]; · iexact Hat
    isplitl [Htk]; · iexact Htk
    iexact Hun

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ Gl m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem cred_ones (g : GSem nD τ sig) (s : Finset D) :
    (bigSep s fun _ : D => (cred (tallyAt g () 1) : sProp 𝕄)) ⊢ cred (tallyAt g () s.card) := by
  classical
  induction s using Finset.induction_on with
  | empty => rw [bigSep_empty, Finset.card_empty]; iintro -; rw [show (tallyAt g () 0 : CellTallies nD τ sig Unit) = 0 from by unfold tallyAt tallyOn; simp, cred_zero]; iempintro
  | insert a s ha ih =>
    have e : (bigSep (insert a s) fun _ : D => (cred (tallyAt g () 1) : sProp 𝕄)) = iprop(cred (tallyAt g () 1) ∗ bigSep s fun _ : D => (cred (tallyAt g () 1) : sProp 𝕄)) := bigSep_insert ha
    rw [e, Finset.card_insert_of_notMem ha, add_comm, ← tallyAt_add]
    iintro ⟨H1, Hs⟩
    iapply (cred_add _ _).2
    isplitl [H1]; · iexact H1
    iapply ih; iexact Hs

theorem creds_bar (c : Dev nD) :
    (bigSep Finset.univ fun j : D => Pipeline.launchCred (fun d => tallyAt (barCell (peerTo d j)) () 1) c : sProp 𝕄) ⊢ cred (tallyAt (barCell c) () 15) :=
  (bigSep_mono (s := Finset.univ) fun (j : D) _ =>
      Pipeline.launchCred_tallyAt (Ix := Unit) (Name := ℕ) (U := UU) (Lvl := ℕ) (Val := Elt F) (SemLoc.reg barS) (fun d => peerTo d j) (fun d => peerFrom d j)
        (fun d => peerTo_peerFrom d j) (fun d => peerFrom_peerTo d j) () 1 c).trans
    ((cred_ones (F := F) (barCell c) Finset.univ).trans (Entails.of_eq (by rw [Finset.card_univ, Fintype.card_fin])))
theorem creds_recv (c : Dev nD) :
    (bigSep Finset.univ fun j : D => Pipeline.launchCred (fun d => tallyAt (recvCell (peerTo d j) j) () N) c : sProp 𝕄)
      ⊢ bigSep Finset.univ fun j : D => cred (tallyAt (recvCell c j) () N) :=
  bigSep_mono (s := Finset.univ) fun (j : D) _ =>
      Pipeline.launchCred_tallyAt (Ix := Unit) (Name := ℕ) (U := UU) (Lvl := ℕ) (Val := Elt F) (SemLoc.dma (recvQ j)) (fun d => peerTo d j) (fun d => peerFrom d j)
        (fun d => peerTo_peerFrom d j) (fun d => peerFrom_peerTo d j) () N c

theorem creds (c : Dev nD) :
    (Pipeline.launchCred O₀ c : sProp 𝕄) ⊢ iprop(cred (tallyAt (barCell c) () 15) ∗ bigSep Finset.univ fun j : D => cred (tallyAt (recvCell c j) () N)) := by
  show (Pipeline.launchCred (fun d => Ox d 0 + Osig d 0) c : sProp 𝕄) ⊢ _
  rw [Pipeline.launchCred_add]
  unfold Ox Osig
  rw [Pipeline.launchCred_sum, Pipeline.launchCred_sum, geq_zero]
  iintro ⟨HX, HS⟩
  isplitl [HS]
  · iapply (creds_bar (F := F) c); iexact HS
  · iapply (creds_recv (F := F) c); iexact HX

/-! ### The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  icases HG with ⟨HG, Hun⟩
  isplitl
  · isplitl [HG]; · iexact HG
    isplitl [H1]; · iexact H1
    isplitl [HN]; · iexact HN
    isplitl [Hlev]; · iexact Hlev
    iexact Hun
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV, Hun⟩
  isplitr; · iempintro
  isplitl [HzS HzV Hun]
  · isplitl [Hun]; · iexact Hun
    isplitl [HzS] <;> iassumption
  iexists (G m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the sixteen devices, for any float values, from any memory with zero counters: every weakly fair execution
    terminates, and every final state has each window's array at its computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gl m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Mean.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The one write-back writes the result: the block is the whole array, read through zero offsets. -/
theorem flushed_o (c : Dev nD) (t : Fin cfg0.N) (hf : (cfg0.win 1).flush t = true) :
    (dats m ρ 0 c).flushed 1 t = ((cfg0.win 1).blk t).view.read (Elt F) (outAt m ρ c) := by
  rw [fin_N t]
  show (cfg0.win 1).cut (grid0.coords t₀) (outAt m ρ c) = _
  have hz' : (fun a => win0_1.index t₀ a * main_v1.ty.shape.size a) = fun _ => 0 := funext fun a => by fin_cases a <;> decide
  exact (Memref.read_access_unit_zero (Elt F) main_v1 hz' (fun a => by rw [congrFun hz' a]; simp) (outAt m ρ c)).symm

/-- The result array after the run holds the kernel's result. -/
theorem finalA_o (c : Dev nD) : finalA m ρ c (1 : Fin 2) = outAt m ρ c :=
  (dats (F := F) m ρ 0 c).arrAt_eq_of_cover (1 : Fin 2) (outAt m ρ c) (flushed_o m ρ c) fun i => ⟨t₀, rfl, by
      show i ∈ ((View.whole main_v1).slice (win0_1.rect t₀)).set
      rw [View.set_slice_whole, Rect.mem_set_unit]
      intro a
      have h0 : (i 0 : Nat) < 1 := (i 0).isLt
      have h1 : (i 1 : Nat) < 1024 := (i 1).isLt
      match a with
      | ⟨0, _⟩ =>
        show win0_1.index t₀ 0 * win0_1.size 0 ≤ (i 0 : Nat) ∧ (i 0 : Nat) < win0_1.index t₀ 0 * win0_1.size 0 + win0_1.xsize (grid0.coords t₀) 0
        rw [show win0_1.index t₀ 0 * win0_1.size 0 = 0 from by decide +kernel, show win0_1.xsize (grid0.coords t₀) 0 = 1 from by decide +kernel]; omega
      | ⟨1, _⟩ =>
        show win0_1.index t₀ 1 * win0_1.size 1 ≤ (i 1 : Nat) ∧ (i 1 : Nat) < win0_1.index t₀ 1 * win0_1.size 1 + win0_1.xsize (grid0.coords t₀) 1
        rw [show win0_1.index t₀ 1 * win0_1.size 1 = 0 from by decide +kernel, show win0_1.xsize (grid0.coords t₀) 1 = 1024 from by decide +kernel]; omega⟩

/-- A device's block of the argument, read through its window, is its argument buffer. -/
theorem xblk_eq (c : Dev nD) : xblk m ρ c = m ((c : Thread nD τ).loc main_arg0) := by
  unfold xblk
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) (m ((c : Thread nD τ).loc main_arg0))

/-- The run with every array named: the result at the kernel's value, the argument unchanged. -/
theorem run : θ_run defs (onTc (τ := τ) (main (F := F))) ⟨m, fun _ => 0, ρ⟩ fun r => ∀ c : Dev nD,
      r.2.mem ((c.tc : Thread nD τ).loc main_v1) = outAt m ρ c
      ∧ r.2.mem ((c.tc : Thread nD τ).loc main_arg0) = m ((c.tc : Thread nD τ).loc main_arg0) :=
  (θ_run defs _ _).mono (fun _ h c => ⟨((h c) 1).trans (finalA_o m ρ c), ((h c) 0).trans (finalA_x m ρ c)⟩) (run_main m ρ)

end Cert.Kernel.Mean
end
-- ==== Proof.Sum.lean ====
import proofs.«900455_g7700000000000456_dist_mean_ax0_shard0_i_m4096_n1024_v7x_i16_bf16_1_alg».proof.Proof.Launch
import proofs.«900455_g7700000000000456_dist_mean_ax0_shard0_i_m4096_n1024_v7x_i16_bf16_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Layout

noncomputable section

namespace Cert.KernelIdeal.MeanValue

open Cert.KernelIdeal Cert.KernelIdeal.Gen Cert.KernelIdeal.Mean
open Idealize.ShloMosaic Idealize.ShloMosaic.TcCoe Idealize.ShloMosaic.ValueIdx
open Idealize.SL.Sem

/-! ## The two literals -/

/-- The kernel's scale is the exact reciprocal of the row count; -/
theorem ofBits_inv : Ideal.ofBits .f32 0x37800000#32 = ((1 / 65536 : ℝ) : EReal) := by
  simp [Ideal.ofBits, Ideal.ieee, -EReal.coe_mul]; norm_num
/-- the reference's divisor is the row count; -/
theorem ofBits_rows : Ideal.ofBits .f32 0x47800000#32 = ((65536 : ℝ) : EReal) := by
  simp [Ideal.ofBits, Ideal.ieee, -EReal.coe_mul]; norm_num
/-- and the sums start from zero. -/
theorem ofBits_zero : Ideal.ofBits .f32 0x00000000#32 = 0 := by
  simp [Ideal.ofBits, Ideal.ieee]

variable (m : (ℓ : Loc nD τ sig) → Buf (Elt Ideal) ℓ) (ρ : Dev nD → PrngReg)

/-! ## A device's column sums, at an index -/

theorem rowv_apply (c' : Dev nD) (u : Fin 1) (i : Fin 1) (n : Fin 1024) :
    (show EReal from rowv (F := Ideal) m ρ c' (ix3 u i n)) = ∑ r : Fin 4096, (show EReal from xblk (F := Ideal) m ρ c' (ix2 r n)) := by
  unfold rowv k0_pay2
  dsimp only
  rw [shapeCast_ab_1ab_apply, shapeCast_a_1a_apply]
  refine (Ideal.multiReduction_add_single _ _ _ _ _ _).trans ?_
  rw [shapeCast_self]
  refine Finset.sum_congr rfl fun r _ => congrArg _ (funext fun a => Fin.ext ?_)
  match a with
  | ⟨0, _⟩ => rfl
  | ⟨1, _⟩ => rfl

/-! ## The scratch buffer's rows, and the kernel's result, at an index -/

theorem G_apply (c : Dev nD) (i : S1x1024.Idx) (k : Fin 16) :
    (show EReal from G (F := Ideal) m ρ c (reduces_S16x1x1024_S1x1024.lift i k))
      = ∑ r : Fin 4096, (show EReal from xblk (F := Ideal) m ρ (shift c (16 - k.val)) (ix2 r (i 1))) := by
  unfold G
  have e0 : ((reduces_S16x1x1024_S1x1024.lift i k) 0).val = k.val := rfl
  have ez : zero0 (reduces_S16x1x1024_S1x1024.lift i k) = ix3 (0 : Fin 1) (i 0) (i 1) := by
    funext a; apply Fin.ext
    match a with
    | ⟨0, _⟩ => rfl
    | ⟨1, _⟩ => rfl
    | ⟨2, _⟩ => rfl
  rw [e0, ez]
  exact rowv_apply m ρ _ _ _ _

theorem out_apply (c : Dev nD) (i : S1x1024.Idx) :
    (show EReal from outAt (F := Ideal) m ρ c i)
      = (∑ k : Fin 16, ∑ r : Fin 4096, (show EReal from xblk (F := Ideal) m ρ (shift c (16 - k.val)) (ix2 r (i 1)))) * ((1 / 65536 : ℝ) : EReal) := by
  unfold outAt k0_pay1 k0_pay3
  dsimp only
  simp only [mulf, broadcast, Scalar.ofBits, Ideal.mulf_def, Ideal.ofBits_def, ofBits_inv]
  refine congrArg (· * _) ((Ideal.multiReduction_add_single _ _ _ _ _ _).trans ?_)
  exact Finset.sum_congr rfl fun k _ => G_apply m ρ c i k

/-! ## Every device's rows are the whole array's rows, each once -/

theorem sum_rows (c : Dev nD) (f : Fin 65536 → EReal) (hb : ∀ (a : Fin 16) (r : Fin 4096), a.val * 4096 + r.val < 65536) :
    ∑ k : Fin 16, ∑ r : Fin 4096, f ⟨(shift c (16 - k.val)).val * 4096 + r.val, hb _ r⟩ = ∑ q : Fin 65536, f q := by
  have hbij : ∀ c : Dev nD, Function.Bijective (fun k : Fin 16 => (shift c (16 - k.val) : Fin 16)) := by decide
  calc ∑ k : Fin 16, ∑ r : Fin 4096, f ⟨(shift c (16 - k.val)).val * 4096 + r.val, hb _ r⟩
      = ∑ a : Fin 16, ∑ r : Fin 4096, f ⟨a.val * 4096 + r.val, hb a r⟩ :=
        (hbij c).sum_comp (fun a : Fin 16 => ∑ r : Fin 4096, f ⟨a.val * 4096 + r.val, hb a r⟩)
    _ = ∑ p : Fin 16 × Fin 4096, f ⟨p.1.val * 4096 + p.2.val, hb p.1 p.2⟩ := (Fintype.sum_prod_type (fun p : Fin 16 × Fin 4096 => f ⟨p.1.val * 4096 + p.2.val, hb p.1 p.2⟩)).symm
    _ = ∑ q : Fin 65536, f q := by
        rw [← Equiv.sum_comp (finProdFinEquiv : Fin 16 × Fin 4096 ≃ Fin 65536) f]
        refine Finset.sum_congr rfl fun p _ => congrArg f (Fin.ext ?_)
        show p.1.val * 4096 + p.2.val = p.2.val + 4096 * p.1.val
        omega

variable (X : (⟨Cert.ReferenceIdeal.S65536x1024, .f32⟩ : BufTy).Contents (Elt Ideal))

theorem hb65536 (a : Fin 16) (r : Fin 4096) : a.val * 4096 + r.val < 65536 := by have := a.isLt; have := r.isLt; omega

/-- Row r of device c' is row 4096 c' + r of the whole array. -/
theorem blk_apply (hblk : ∀ c : Dev nD, m ((c.tc : Thread nD τ).loc main_arg0) = Layout.block ⟨2, ![4096, 1024]⟩ ⟨2, ![65536, 1024]⟩ 0 16 c X)
    (c' : Dev nD) (r : Fin 4096) (n : Fin 1024) :
    (show EReal from xblk (F := Ideal) m ρ c' (ix2 r n)) = X (ix2 (⟨c'.val * 4096 + r.val, hb65536 c' r⟩ : Fin 65536) n) := by
  rw [xblk_eq, hblk c']
  show X _ = X _
  refine congrArg X (funext fun a => Fin.ext ?_)
  match a with
  | ⟨0, _⟩ => rfl
  | ⟨1, _⟩ => rfl

/-- On every device the kernel's result is the reference's: the mean over all 65536 rows, column by column. -/
theorem out_eq (hblk : ∀ c : Dev nD, m ((c.tc : Thread nD τ).loc main_arg0) = Layout.block ⟨2, ![4096, 1024]⟩ ⟨2, ![65536, 1024]⟩ 0 16 c X)
    (c : Dev nD) : outAt (F := Ideal) m ρ c = Cert.ReferenceIdeal.Read.val_main_v3 (F := Ideal) X := by
  funext i
  refine (out_apply m ρ c i).trans ?_
  rw [Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  simp only [Ideal.hostDivf_def, Ideal.ofBits_def, ofBits_rows, ofBits_zero, zero_add, Ideal.div_coe (by norm_num : (65536 : ℝ) ≠ 0)]
  refine congrArg (· * _) ?_
  rw [Finset.sum_congr rfl fun k _ => Finset.sum_congr rfl fun r _ => blk_apply m ρ X hblk (shift c (16 - k.val)) r (i 1)]
  refine (sum_rows c (fun q => X (ix2 q (i 1))) hb65536).trans ?_
  refine Finset.sum_congr rfl fun q _ => congrArg X (funext fun a => ?_)
  match a with
  | ⟨0, _⟩ => exact Fin.ext rfl
  | ⟨1, _⟩ => exact Fin.ext rfl

/-- info: 'Cert.KernelIdeal.MeanValue.out_eq' depends on axioms: [propext, Classical.choice, Quot.sound] -/
#guard_msgs in #print axioms out_eq

end Cert.KernelIdeal.MeanValue
end
-- ==== Proof.lean ====
/- Sixteen devices each hold 4096 rows of a 65536 x 1024 array; the kernel leaves on every device the mean of every
   column over all 65536 rows, and the reference computes that mean on one device from the whole array.

   The kernel, per device: it signals the barrier semaphore of each of the fifteen other devices; sums its own rows,
   column by column, into row 0 of a sixteen-row scratch buffer; waits for the fifteen signals sent to it; copies row 0
   into row d of the device d places after it on the cycle, for d = 1 .. 15, each copy on its own pair of semaphores;
   waits for its fifteen copies to have been read and for the fifteen copies addressed to it to have landed; and writes the
   column sums of the sixteen rows, times 1/65536. Row d of a device's scratch buffer then holds the column sums of the
   device d places before it, so the sixteen rows together hold every device's sums exactly once.

   Termination and freedom from faults: a device waits on its barrier only while it still owes receive credit, and
   a barrier cell sits below every receive cell; all other waits come when it owes nothing. The signal a device sends
   carries the row of its scratch buffer that the addressee will fill, so no copy lands in a buffer that is not there, and
   row 0 is read by the fifteen copies at fifteen disjoint shares while nobody writes it.

   The value: over the extended reals a sum may be taken in any order and grouping, so the sixteen partial sums of 4096
   rows add up to the sum of all 65536 rows; 1/65536 is a power of two, so the kernel's literal is that rational exactly,
   and multiplying by it is dividing by 65536. Nothing here needs the inputs to be finite. The word-level program runs
   the same protocol; its frame is the same argument read at the other instance. -/
import proofs.«900455_g7700000000000456_dist_mean_ax0_shard0_i_m4096_n1024_v7x_i16_bf16_1_alg».proof.Defs
import proofs.«900455_g7700000000000456_dist_mean_ax0_shard0_i_m4096_n1024_v7x_i16_bf16_1_alg».proof.Proof.Gen.Kernel
import proofs.«900455_g7700000000000456_dist_mean_ax0_shard0_i_m4096_n1024_v7x_i16_bf16_1_alg».proof.Proof.Gen.Kernel.Skeleton
import proofs.«900455_g7700000000000456_dist_mean_ax0_shard0_i_m4096_n1024_v7x_i16_bf16_1_alg».proof.Proof.Gen.Kernel.Launch
import proofs.«900455_g7700000000000456_dist_mean_ax0_shard0_i_m4096_n1024_v7x_i16_bf16_1_alg».proof.Proof.Gen.Kernel.Points
import proofs.«900455_g7700000000000456_dist_mean_ax0_shard0_i_m4096_n1024_v7x_i16_bf16_1_alg».proof.Proof.Gen.Kernel.Frame
import proofs.«900455_g7700000000000456_dist_mean_ax0_shard0_i_m4096_n1024_v7x_i16_bf16_1_alg».proof.Proof.Gen.KernelIdeal
import proofs.«900455_g7700000000000456_dist_mean_ax0_shard0_i_m4096_n1024_v7x_i16_bf16_1_alg».proof.Proof.Gen.KernelIdeal.Skeleton
import proofs.«900455_g7700000000000456_dist_mean_ax0_shard0_i_m4096_n1024_v7x_i16_bf16_1_alg».proof.Proof.Gen.KernelIdeal.Launch
import proofs.«900455_g7700000000000456_dist_mean_ax0_shard0_i_m4096_n1024_v7x_i16_bf16_1_alg».proof.Proof.Gen.KernelIdeal.Points
import proofs.«900455_g7700000000000456_dist_mean_ax0_shard0_i_m4096_n1024_v7x_i16_bf16_1_alg».proof.Proof.Gen.KernelIdeal.Frame
import proofs.«900455_g7700000000000456_dist_mean_ax0_shard0_i_m4096_n1024_v7x_i16_bf16_1_alg».proof.Proof.Gen.ReferenceIdeal
import proofs.«900455_g7700000000000456_dist_mean_ax0_shard0_i_m4096_n1024_v7x_i16_bf16_1_alg».proof.Proof.Gen.ReferenceIdeal.Run
import proofs.«900455_g7700000000000456_dist_mean_ax0_shard0_i_m4096_n1024_v7x_i16_bf16_1_alg».proof.Proof.Gen.ReferenceIdeal.Read
import proofs.«900455_g7700000000000456_dist_mean_ax0_shard0_i_m4096_n1024_v7x_i16_bf16_1_alg».proof.Proof.Gen.Pre_finite_inputs_Kernel
import proofs.«900455_g7700000000000456_dist_mean_ax0_shard0_i_m4096_n1024_v7x_i16_bf16_1_alg».proof.Proof.Gen.Pre_finite_inputs_ReferenceIdeal
import proofs.«900455_g7700000000000456_dist_mean_ax0_shard0_i_m4096_n1024_v7x_i16_bf16_1_alg».proof.Proof.Launch
import proofs.«900455_g7700000000000456_dist_mean_ax0_shard0_i_m4096_n1024_v7x_i16_bf16_1_alg».proof.Proof.Bits.Launch
import proofs.«900455_g7700000000000456_dist_mean_ax0_shard0_i_m4096_n1024_v7x_i16_bf16_1_alg».proof.Proof.Sum
import Idealize.ShloMosaic.Adequacy
import Idealize.ShloMosaic.Init

noncomputable section

namespace Cert.Proof

open Idealize.ShloMosaic Idealize.SL.Sem

/-- The word-level kernel runs to the end on all sixteen devices and leaves its argument as it found it. -/
theorem frame_p : Cert.frame_Kernel := fun m ρ _ =>
  (θ_run (Cert.Kernel.defs (F := Bits)) _ _).mono (fun _ h c => (h c).2) (Cert.Kernel.Mean.run (F := Bits) m ρ)

/-- So does the idealized kernel. -/
theorem frame_pi : Cert.frame_KernelIdeal := fun m ρ _ =>
  (θ_run (Cert.KernelIdeal.defs (F := Ideal)) _ _).mono (fun _ h c => (h c).2) (Cert.KernelIdeal.Mean.run (F := Ideal) m ρ)

/-- The reference is six host operations in a row. -/
theorem frame_ri : Cert.frame_ReferenceIdeal := fun m ρ _ =>
  (θ_run Cert.ReferenceIdeal.defs _ _).mono (fun _ h c => (h c).2) (Cert.ReferenceIdeal.Value.run (F := Ideal) m ρ)

/-- On every device the kernel's result array ends at the reference's: the column means of the whole array. -/
theorem algebraic : Cert.algebraic_KernelIdeal_ReferenceIdeal := by
  intro m g m' g' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.MeanValue.out_eq m g _ hagree c), (h c).2⟩)
      (Cert.KernelIdeal.Mean.run (F := Ideal) m g)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

/-- info: 'Cert.Proof.claim' depends on axioms: [propext, Classical.choice, Quot.sound] -/
#guard_msgs in #print axioms claim

end Cert.Proof

end
